-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v12_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S4096x1024 : Shape := ⟨2, ![4096, 1024]⟩
abbrev S4096x2048 : Shape := ⟨2, ![4096, 2048]⟩
abbrev S2048x1056 : Shape := ⟨2, ![2048, 1056]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048x1056 : S_.BroadcastsInDim S2048x1056 (![] : Fin 0 → Fin S2048x1056.rank)
  reducesTo_S2048x1056_S_d0_1 : S2048x1056.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048x2048 .f32) (main_arg13 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S6144x2048 .f32) (main_arg8 : FVec F S6144 .f32) (main_arg9 : FVec F S2048 .f32) (main_arg10 : FVec F S2048x2048 .f32) (main_arg11 : FVec F S2048 .f32) (main_arg12 : FVec F S2048x2048 .f32) (main_arg13 : FVec F S2048 .f32) (main_v33 : IVec S_ 1) : IVec S_ 1 :=
  let main_v34 : FVec F S6144x2048 .f32 := Host.absf main_arg7
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S2048x1056 .f32) (main_arg5 : FVec F S2048 .f32) (main_arg6 : FVec F S6144x2048 .f32) (main_arg7 : FVec F S6144x2048 .f32) (main_arg8 : FVec F S6144 .f32) (main_arg9 : FVec F S2048 .f32) (main_arg10 : FVec F S2048x2048 .f32) (main_arg11 : FVec F S2048 .f32) (main_arg12 : FVec F S2048x2048 .f32) (main_arg13 : FVec F S2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S2048x1056 .f32 := Host.absf main_arg4
  let main_cst_6 : FVec F S_ .f32 := constant S_ .f32 0x7F800000#32
  let main_v20 : FVec F S2048x1056 .f32 := broadcastInDim S2048x1056 ![] bcast_S_S2048x1056 main_cst_6
  let main_v21 : IVec S2048x1056 1 := cmpf .olt main_v19 main_v20
  let main_c_7 : IVec S_ 1 := constantI S_ 1 1#1
  let main_v22 : IVec S_ 1 := (fun x v => Host.reduce IntOp.andi x v reducesTo_S2048x1056_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x32 .f32) (main_arg1 : FVec F S4096x1024 .f32) (main_arg2 : FVec F S4096x2048 .f32) (main_arg3 : FVec F S4096x1024 .f32) (main_arg4 : FVec F S2048x1056 .f32) (main_arg5 : FVec F S2048 .f32) (main_arg6 : FVec F S6144x2048 .f32) (main_arg7 : FVec F S6144x2048 .f32) (main_arg8 : FVec F S6144 .f32) (main_arg9 : FVec F S2048 .f32) (main_arg10 : FVec F S2048x2048 .f32) (main_arg11 : FVec F S2048 .f32) (main_arg12 : FVec F S2048x2048 .f32) (main_arg13 : FVec F S2048 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x32 : Shape := ⟨2, ![4096, 32]⟩
abbrev S4096x1024 : Shape := ⟨2, ![4096, 1024]⟩
abbrev S4096x2048 : Shape := ⟨2, ![4096, 2048]⟩
abbrev S2048x1056 : Shape := ⟨2, ![2048, 1056]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S4096x1056 : Shape := ⟨2, ![4096, 1056]⟩
abbrev S1x2048 : Shape := ⟨2, ![1, 2048]⟩
abbrev S1024x1056 : Shape := ⟨2, ![1024, 1056]⟩
abbrev S1024x2048 : Shape := ⟨2, ![1024, 2048]⟩
abbrev S3x2048x2048 : Shape := ⟨3, ![3, 2048, 2048]⟩
abbrev S3x2048 : Shape := ⟨2, ![3, 2048]⟩
abbrev S256x2048 : Shape := ⟨2, ![256, 2048]⟩
abbrev S256x512 : Shape := ⟨2, ![256, 512]⟩
abbrev S3x512x2048 : Shape := ⟨3, ![3, 512, 2048]⟩
abbrev S3x512 : Shape := ⟨2, ![3, 512]⟩
abbrev S1x512 : Shape := ⟨2, ![1, 512]⟩
abbrev S1x512x2048 : Shape := ⟨3, ![1, 512, 2048]⟩
abbrev S512x2048 : Shape := ⟨2, ![512, 2048]⟩
abbrev S512 : Shape := ⟨1, ![512]⟩
abbrev S256x1024 : Shape := ⟨2, ![256, 1024]⟩

abbrev nBuf : Space → Nat
  | .hbm => 35
  | .vmem => 38
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S2048x1056, .f32⟩
  | .hbm, ⟨5, _⟩ => ⟨S2048, .f32⟩
  | .hbm, ⟨6, _⟩ => ⟨S6144x2048, .f32⟩
  | .hbm, ⟨7, _⟩ => ⟨S6144x2048, .f32⟩
  | .hbm, ⟨8, _⟩ => ⟨S6144, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S4096x1056, .f32⟩
  | .hbm, ⟨15, _⟩ => ⟨S4096x1056, .bf16⟩
  | .hbm, ⟨16, _⟩ => ⟨S2048x1056, .bf16⟩
  | .hbm, ⟨17, _⟩ => ⟨S1x2048, .f32⟩
  | .hbm, ⟨18, _⟩ => ⟨S4096x2048, .bf16⟩
  | .hbm, ⟨19, _⟩ => ⟨S3x2048x2048, .f32⟩
  | .hbm, ⟨20, _⟩ => ⟨S3x2048x2048, .bf16⟩
  | .hbm, ⟨21, _⟩ => ⟨S3x2048x2048, .f32⟩
  | .hbm, ⟨22, _⟩ => ⟨S3x2048x2048, .bf16⟩
  | .hbm, ⟨23, _⟩ => ⟨S3x2048, .f32⟩
  | .hbm, ⟨24, _⟩ => ⟨S1x2048, .f32⟩
  | .hbm, ⟨25, _⟩ => ⟨S4096x2048, .bf16⟩
  | .hbm, ⟨26, _⟩ => ⟨S4096x2048, .f32⟩
  | .hbm, ⟨27, _⟩ => ⟨S4096x2048, .bf16⟩
  | .hbm, ⟨28, _⟩ => ⟨S2048x2048, .bf16⟩
  | .hbm, ⟨29, _⟩ => ⟨S1x2048, .f32⟩
  | .hbm, ⟨30, _⟩ => ⟨S2048x2048, .bf16⟩
  | .hbm, ⟨31, _⟩ => ⟨S1x2048, .f32⟩
  | .hbm, ⟨32, _⟩ => ⟨S4096x1024, .f32⟩
  | .hbm, ⟨33, _⟩ => ⟨S4096x1024, .f32⟩
  | .hbm, ⟨34, _⟩ => ⟨S4096x1024, .f32⟩
  | .local _ .vmem, ⟨0, _⟩ => ⟨S1024x1056, .bf16⟩
  | .local _ .vmem, ⟨1, _⟩ => ⟨S1024x1056, .bf16⟩
  | .local _ .vmem, ⟨2, _⟩ => ⟨S2048x1056, .bf16⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x512, .f32⟩
  | .local _ .vmem, ⟨11, _⟩ => ⟨S256x512, .f32⟩
  | .local _ .vmem, ⟨12, _⟩ => ⟨S3x512x2048, .bf16⟩
  | .local _ .vmem, ⟨13, _⟩ => ⟨S3x512x2048, .bf16⟩
  | .local _ .vmem, ⟨14, _⟩ => ⟨S3x512x2048, .bf16⟩
  | .local _ .vmem, ⟨15, _⟩ => ⟨S3x512x2048, .bf16⟩
  | .local _ .vmem, ⟨16, _⟩ => ⟨S3x512, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x2048, .bf16⟩
  | .local _ .vmem, ⟨25, _⟩ => ⟨S256x2048, .bf16⟩
  | .local _ .vmem, ⟨26, _⟩ => ⟨S256x1024, .f32⟩
  | .local _ .vmem, ⟨27, _⟩ => ⟨S256x1024, .f32⟩
  | .local _ .vmem, ⟨28, _⟩ => ⟨S2048x2048, .bf16⟩
  | .local _ .vmem, ⟨29, _⟩ => ⟨S1x2048, .f32⟩
  | .local _ .vmem, ⟨30, _⟩ => ⟨S2048x2048, .bf16⟩
  | .local _ .vmem, ⟨31, _⟩ => ⟨S1x2048, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1056 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1056 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S3x512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S3x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S4096x32_S4096x1024_S4096x1056_d1 : Shape.Concatenates [S4096x32, S4096x1024] S4096x1056 1
  bitsLt_bf16_f32 : FTy.bits .bf16 < FTy.bits .f32
  shapeCasts_S2048_S1x2048 : S2048.ShapeCasts S1x2048
  inb_S1024x1056_S1024x1056_0_0 : ∀ a, (![0, 0] : Fin 2 → Nat) a + S1024x1056.size a ≤ S1024x1056.size a
  h_S1024x1056 : 0 < S1024x1056.numel
  shapeCasts_S1024x1056_S1024x1056 : S1024x1056.ShapeCasts S1024x1056
  inb_S2048x1056_S2048x1056_0_0 : ∀ a, (![0, 0] : Fin 2 → Nat) a + S2048x1056.size a ≤ S2048x1056.size a
  h_S2048x1056 : 0 < S2048x1056.numel
  shapeCasts_S2048x1056_S2048x1056 : S2048x1056.ShapeCasts S2048x1056
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  shapeCasts_S6144x2048_S3x2048x2048 : S6144x2048.ShapeCasts S3x2048x2048
  shapeCasts_S6144_S3x2048 : S6144.ShapeCasts S3x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S3x512x2048_S3x512x2048_0_0_0 : ∀ a, (![0, 0, 0] : Fin 3 → Nat) a + S3x512x2048.size a ≤ S3x512x2048.size a
  h_S3x512x2048 : 0 < S3x512x2048.numel
  shapeCasts_S3x512x2048_S3x512x2048 : S3x512x2048.ShapeCasts S3x512x2048
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S3x512x2048_o0_0_0_S1x512x2048 : S3x512x2048.Slices ![0, 0, 0] S1x512x2048
  shapeCasts_S1x512x2048_S512x2048 : S1x512x2048.ShapeCasts S512x2048
  slices_S3x512_o0_0_S1x512 : S3x512.Slices ![0, 0] S1x512
  shapeCasts_S1x512_S512 : S1x512.ShapeCasts S512
  shapeCasts_S512_S1x512 : S512.ShapeCasts S1x512
  broadcasts_S1x512_S256x512 : S1x512.Broadcasts S256x512
  slices_S3x512x2048_o1_0_0_S1x512x2048 : S3x512x2048.Slices ![1, 0, 0] S1x512x2048
  slices_S3x512_o1_0_S1x512 : S3x512.Slices ![1, 0] S1x512
  slices_S3x512x2048_o2_0_0_S1x512x2048 : S3x512x2048.Slices ![2, 0, 0] S1x512x2048
  slices_S3x512_o2_0_S1x512 : S3x512.Slices ![2, 0] S1x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S256x1024_S256x1024_0_0 : ∀ a, (![0, 0] : Fin 2 → Nat) a + S256x1024.size a ≤ S256x1024.size a
  h_S256x1024 : 0 < S256x1024.numel
  dot_S1024x1056_S2048x1056_S1024x2048_1_1_0_0_n_n_wf : DotDims.WF S1024x1056 S2048x1056 S1024x2048 [1] [1] [0] [0] [] []
  dot_S256x2048_S512x2048_S256x512_1_1_0_0_n_n_wf : DotDims.WF S256x2048 S512x2048 S256x512 [1] [1] [0] [0] [] []
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1056.size a ≤ S4096x1056.size a
  hwx0_0 : ∀ i : grid0.Coords, EltTy.bits .bf16 = 32 ∨ (Rect.block (s := S4096x1056) S1024x1056.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1056.size a ≤ S2048x1056.size a
  hwx0_1 : ∀ i : grid0.Coords, EltTy.bits .bf16 = 32 ∨ (Rect.block (s := S2048x1056) S2048x1056.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .bf16 = 32 ∨ (Rect.block (s := S4096x2048) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .bf16 = 32 ∨ (Rect.block (s := S4096x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S4096x2048.size a
  hwx1_2 : ∀ i : grid1.Coords, EltTy.bits .f32 = 32 ∨ (Rect.block (s := S4096x2048) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x512x2048.size a ≤ S3x2048x2048.size a
  hwx1_3 : ∀ i : grid1.Coords, EltTy.bits .bf16 = 32 ∨ (Rect.block (s := S3x2048x2048) S3x512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x512x2048.size a ≤ S3x2048x2048.size a
  hwx1_4 : ∀ i : grid1.Coords, EltTy.bits .bf16 = 32 ∨ (Rect.block (s := S3x2048x2048) S3x512x2048.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x512.size a ≤ S3x2048.size a
  hwx1_5 : ∀ i : grid1.Coords, EltTy.bits .f32 = 32 ∨ (Rect.block (s := S3x2048) S3x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x2048.size a
  hwx1_6 : ∀ i : grid1.Coords, EltTy.bits .f32 = 32 ∨ (Rect.block (s := S1x2048) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x512.size a ≤ S4096x2048.size a
  hwx1_7 : ∀ i : grid1.Coords, EltTy.bits .f32 = 32 ∨ (Rect.block (s := S4096x2048) S256x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S4096x2048.size a
  hwx1_8 : ∀ i : grid1.Coords, EltTy.bits .bf16 = 32 ∨ (Rect.block (s := S4096x2048) S256x512.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .bf16 = 32 ∨ (Rect.block (s := S4096x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .bf16 = 32 ∨ (Rect.block (s := S2048x2048) S2048x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2048.size a ≤ S2048x2048.size a
  hwx2_4 : ∀ i : grid2.Coords, EltTy.bits .bf16 = 32 ∨ (Rect.block (s := S2048x2048) S2048x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S4096x1024.size a
  hwx2_6 : ∀ i : grid2.Coords, EltTy.bits .f32 = 32 ∨ (Rect.block (s := S4096x1024) S256x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1024.size a ≤ S4096x1024.size a
  hwx2_7 : ∀ i : grid2.Coords, EltTy.bits .f32 = 32 ∨ (Rect.block (s := S4096x1024) S256x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x1024.size a ≤ S4096x1024.size a
  hwx2_8 : ∀ i : grid2.Coords, EltTy.bits .f32 = 32 ∨ (Rect.block (s := S4096x1024) S256x1024.size (cc2_transform_8 i) (hinb2_8 i)).WholeWords (EltTy.packing .f32)

variable [Facts₀]

def dot_S1024x1056_S2048x1056_S1024x2048_1_1_0_0_n_n : DotDims S1024x1056 S2048x1056 S1024x2048 where
  lhsContracting := [1]
  rhsContracting := [1]
  lhsNonContracting := [0]
  rhsNonContracting := [0]
  lhsBatch := []
  rhsBatch := []
  wf := dot_S1024x1056_S2048x1056_S1024x2048_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v1) S1024x1056.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1056.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S3x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S3x512x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S3x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S256x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S256x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v12_1) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2048x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2048x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17_0) S256x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v17_1) S256x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v17_2) S256x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x32 : Shape := ⟨2, ![4096, 32]⟩
abbrev S4096x1024 : Shape := ⟨2, ![4096, 1024]⟩
abbrev S4096x2048 : Shape := ⟨2, ![4096, 2048]⟩
abbrev S2048x1056 : Shape := ⟨2, ![2048, 1056]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S4096x1056 : Shape := ⟨2, ![4096, 1056]⟩
abbrev S1056x2048 : Shape := ⟨2, ![1056, 2048]⟩
abbrev S1x2048 : Shape := ⟨2, ![1, 2048]⟩
abbrev S_ : Shape := ⟨0, ![]⟩
abbrev S2048x6144 : Shape := ⟨2, ![2048, 6144]⟩
abbrev S4096x6144 : Shape := ⟨2, ![4096, 6144]⟩
abbrev S1x6144 : Shape := ⟨2, ![1, 6144]⟩

abbrev nBuf : Space → Nat
  | .hbm => 121
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S2048x1056, .f32⟩
  | .hbm, ⟨5, _⟩ => ⟨S2048, .f32⟩
  | .hbm, ⟨6, _⟩ => ⟨S6144x2048, .f32⟩
  | .hbm, ⟨7, _⟩ => ⟨S6144x2048, .f32⟩
  | .hbm, ⟨8, _⟩ => ⟨S6144, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S4096x1056, .f32⟩
  | .hbm, ⟨15, _⟩ => ⟨S1056x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .i1⟩
  | .hbm, ⟨23, _⟩ => ⟨S_, .f32⟩
  | .hbm, ⟨24, _⟩ => ⟨S4096x2048, .f32⟩
  | .hbm, ⟨25, _⟩ => ⟨S4096x2048, .i1⟩
  | .hbm, ⟨26, _⟩ => ⟨S_, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S2048x6144, .f32⟩
  | .hbm, ⟨36, _⟩ => ⟨S4096x6144, .f32⟩
  | .hbm, ⟨37, _⟩ => ⟨S1x6144, .f32⟩
  | .hbm, ⟨38, _⟩ => ⟨S4096x6144, .f32⟩
  | .hbm, ⟨39, _⟩ => ⟨S4096x6144, .f32⟩
  | .hbm, ⟨40, _⟩ => ⟨S2048x6144, .f32⟩
  | .hbm, ⟨41, _⟩ => ⟨S4096x6144, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S2048x2048, .f32⟩
  | .hbm, ⟨76, _⟩ => ⟨S4096x2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096x2048, .f32⟩
  | .hbm, ⟨82, _⟩ => ⟨S4096x2048, .i1⟩
  | .hbm, ⟨83, _⟩ => ⟨S_, .f32⟩
  | .hbm, ⟨84, _⟩ => ⟨S4096x2048, .f32⟩
  | .hbm, ⟨85, _⟩ => ⟨S4096x2048, .i1⟩
  | .hbm, ⟨86, _⟩ => ⟨S_, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S2048x2048, .f32⟩
  | .hbm, ⟨96, _⟩ => ⟨S4096x2048, .f32⟩
  | .hbm, ⟨97, _⟩ => ⟨S1x2048, .f32⟩
  | .hbm, ⟨98, _⟩ => ⟨S4096x2048, .f32⟩
  | .hbm, ⟨99, _⟩ => ⟨S4096x2048, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .i1⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S_, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v4 : Ref sig .tc := ⟨.hbm, 29, rfl⟩
abbrev main_call0_v5 : Ref sig .tc := ⟨.hbm, 30, rfl⟩
abbrev main_call0_cst_2 : Ref sig .tc := ⟨.hbm, 31, rfl⟩
abbrev main_call0_v6 : Ref sig .tc := ⟨.hbm, 32, rfl⟩
abbrev main_call0_v7 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_cst_0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_cst_1 : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_v4 : Ref sig .tc := ⟨.hbm, 89, rfl⟩
abbrev main_call1_v5 : Ref sig .tc := ⟨.hbm, 90, rfl⟩
abbrev main_call1_cst_2 : Ref sig .tc := ⟨.hbm, 91, rfl⟩
abbrev main_call1_v6 : Ref sig .tc := ⟨.hbm, 92, rfl⟩
abbrev main_call1_v7 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_v56 : Ref sig .tc := ⟨.hbm, 115, rfl⟩
abbrev main_cst_3 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩

abbrev nD : Nat := 1
abbrev τ : Topo := Topo.v7x

variable {F : FTy → Type} [FloatOps F]

class Facts₀ : Prop where
  concatenates_S4096x32_S4096x1024_S4096x1056_d1 : Shape.Concatenates [S4096x32, S4096x1024] S4096x1056 1
  transposes_S2048x1056_S1056x2048_1_0 : S2048x1056.Transposes [1, 0] S1056x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S6144x2048_S2048x6144_1_0 : S6144x2048.Transposes [1, 0] S2048x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  transposes_S2048x2048_S2048x2048_1_0 : S2048x2048.Transposes [1, 0] S2048x2048
  slices_S4096x2048_S4096x1024_0_0 : S4096x2048.Slices ![0, 0] S4096x1024
  slices_S4096x2048_S4096x1024_0_1024 : S4096x2048.Slices ![0, 1024] S4096x1024
  bcast_S_S4096x1024 : S_.BroadcastsInDim S4096x1024 (![] : Fin 0 → Fin S4096x1024.rank)
  dot_S4096x1056_S1056x2048_S4096x2048_1_0_0_1_n_n_wf : DotDims.WF S4096x1056 S1056x2048 S4096x2048 [1] [0] [0] [1] [] []
  dot_S4096x2048_S2048x6144_S4096x6144_1_0_0_1_n_n_wf : DotDims.WF S4096x2048 S2048x6144 S4096x6144 [1] [0] [0] [1] [] []
  dot_S4096x2048_S2048x2048_S4096x2048_1_0_0_1_n_n_wf : DotDims.WF S4096x2048 S2048x2048 S4096x2048 [1] [0] [0] [1] [] []

variable [Facts₀]

def dot_S4096x1056_S1056x2048_S4096x2048_1_0_0_1_n_n : DotDims S4096x1056 S1056x2048 S4096x2048 where
  lhsContracting := [1]
  rhsContracting := [0]
  lhsNonContracting := [0]
  rhsNonContracting := [1]
  lhsBatch := []
  rhsBatch := []
  wf := dot_S4096x1056_S1056x2048_S4096x2048_1_0_0_1_n_n_wf
def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The network both programs compute, entry by entry, on the extended reals.

  A dense layer whose weights are stored one ROW per output: entry (r, q) is the sum over k of x(r, k) * w(q, k),
  plus the bias of output q.  Three stages are built from it.
  * Stage 1: an exponential linear unit of a dense layer.
  * Stage 2: one step of a gated recurrent cell.  Each of the three gates g has its own block of weight rows and
    its own bias; the reset and update gates are logistic functions of the summed input and hidden pre-activations,
    the candidate is a hyperbolic tangent, and the new state is candidate + update * (old state - candidate).
  * Stage 3: a second exponential-linear dense layer, then a dense layer of twice the sample width whose first half
    of columns is the mean and whose second half, through a softplus and a fixed offset, the deviation; the sample is
    mean + deviation * noise.
  Every array is given by an accessor (a function of its coordinates), so that a program that keeps the three gates
  stacked along a leading axis and one that keeps them side by side read the same definition.

  The scalar functions come in two spellings, the one with a guarded exponential / subtraction from zero and the
  one with exponential-minus-one / negation, and the two are equal on every extended real.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The words of 0, 1 and the deviation's offset, as the programs spell them. -/
abbrev z : EReal := Ideal.ofBits .f32 0x00000000#32
abbrev one : EReal := Ideal.ofBits .f32 0x3F800000#32
abbrev tenth : EReal := Ideal.ofBits .f32 0x3DCCCCCD#32

theorem z_eq : z = 0 := Ideal.ofBits_zero_f32
theorem one_eq : one = 1 := by
  show Ideal.ofBits .f32 0x3F800000#32 = 1
  simp [Ideal.ofBits, Ideal.ieee, -EReal.coe_mul]; norm_num

/-! ## Scalar functions, in two spellings -/

/-- x where x > 0, else exp(min(x, 0)) - 1. -/
def eluK (x : EReal) : EReal := Scalar.select (Ideal.cmp .ogt x z) x (Ideal.exp (min x z) - one)
/-- x where x > 0, else 1 * (exp(x') - 1) with x' = 0 where x > 0, else x. -/
def eluR (x : EReal) : EReal :=
  Scalar.select (Ideal.cmp .ogt x z) x (one * (Ideal.exp (Scalar.select (Ideal.cmp .ogt x z) z x) - 1))
/-- 1 / (1 + exp(0 - x)). -/
def sigK (x : EReal) : EReal := Ideal.div one (one + Ideal.exp (z - x))
/-- 1 / (1 + exp(-x)). -/
def sigR (x : EReal) : EReal := Ideal.div one (one + Ideal.exp (-x))
/-- max(x, 0) + log(1 + exp(0 - |x|)). -/
def splusK (x : EReal) : EReal := max x z + Ideal.log1p (Ideal.exp (z - max x (-x)))
/-- The same through d = x - 0, guarded by d ≠ d (never true of an extended real). -/
def splusR (x : EReal) : EReal :=
  Scalar.select (Ideal.cmp .une (x - z) (x - z)) (x + z)
    (max x z + Ideal.log1p (Ideal.exp (-(max (x - z) (-(x - z))))))

theorem sigK_eq_sigR : sigK = sigR := by
  funext x; unfold sigK sigR; rw [z_eq, zero_sub]

theorem splusK_eq_splusR : splusK = splusR := by
  funext x; unfold splusK splusR
  have h : Ideal.cmp .une (x - z) (x - z) = 0#1 := by simp [Ideal.cmp]
  rw [h, select_zero, z_eq, sub_zero, zero_sub]

theorem eluK_eq_eluR : eluK = eluR := by
  funext x; unfold eluK eluR
  rw [z_eq]
  by_cases h : (0 : EReal) < x
  · have hc : Ideal.cmp .ogt x 0 = 1#1 := by simp [Ideal.cmp, h]
    rw [hc, select_one, select_one]
  · have hc : Ideal.cmp .ogt x 0 = 0#1 := by simp [Ideal.cmp, h]
    rw [hc, select_zero, select_zero, select_zero, min_eq_left (not_lt.mp h), one_eq, one_mul]

/-! ## Arrays from accessors -/

/-- The rank-2 array whose entry (r, q) is f r q. -/
def of2 {a b : ℕ} (f : Fin a → Fin b → EReal) : (⟨2, ![a, b]⟩ : Shape).Idx → EReal :=
  fun j => f ⟨(j 0).val, idx2_lt0 j⟩ ⟨(j 1).val, idx2_lt1 j⟩

@[simp] theorem of2_ix2 {a b : ℕ} (f : Fin a → Fin b → EReal) (r : Fin a) (q : Fin b) : of2 f (ix2 r q) = f r q := rfl

/-- Two rank-2 arrays are equal when their entries are. -/
theorem ext2 {a b : ℕ} {x y : (⟨2, ![a, b]⟩ : Shape).Idx → EReal} (h : ∀ r q, x (ix2 r q) = y (ix2 r q)) : x = y := by
  funext j; rw [eq_ix2 j]; exact h _ _

theorem eq_of2 {a b : ℕ} {x : (⟨2, ![a, b]⟩ : Shape).Idx → EReal} {f : Fin a → Fin b → EReal}
    (h : ∀ r q, x (ix2 r q) = f r q) : x = of2 f := ext2 fun r q => (h r q).trans (of2_ix2 f r q).symm

/-! ## The layers -/

section
variable {B K N : ℕ}

/-- A dense layer without bias: the sum over k of x(r, k) * w(q, k). -/
def lin0 (x : Fin B → Fin K → EReal) (w : Fin N → Fin K → EReal) (r : Fin B) (q : Fin N) : EReal :=
  ∑ k : Fin K, x r k * w q k

/-- A dense layer: the sum over k of x(r, k) * w(q, k), plus b(q). -/
def lin (x : Fin B → Fin K → EReal) (w : Fin N → Fin K → EReal) (b : Fin N → EReal) (r : Fin B) (q : Fin N) : EReal :=
  lin0 x w r q + b q

/-- Stage 1: the exponential linear unit of a dense layer. -/
def s1 (x : Fin B → Fin K → EReal) (w : Fin N → Fin K → EReal) (b : Fin N → EReal) (r : Fin B) (q : Fin N) : EReal :=
  eluK (lin x w b r q)

/-- The candidate state of the recurrent step. -/
def cand (h pb : Fin B → Fin K → EReal) (wih whh : Fin 3 → Fin N → Fin K → EReal) (bih : Fin 3 → Fin N → EReal)
    (bn : Fin N → EReal) (r : Fin B) (q : Fin N) : EReal :=
  Ideal.tanh (lin h (wih 2) (bih 2) r q
    + sigK (lin h (wih 0) (bih 0) r q + lin0 pb (whh 0) r q) * (lin0 pb (whh 2) r q + bn q))

/-- Stage 2: candidate + update * (old state - candidate). -/
def s2 (h pb : Fin B → Fin K → EReal) (p : Fin B → Fin N → EReal) (wih whh : Fin 3 → Fin N → Fin K → EReal)
    (bih : Fin 3 → Fin N → EReal) (bn : Fin N → EReal) (r : Fin B) (q : Fin N) : EReal :=
  cand h pb wih whh bih bn r q
    + sigK (lin h (wih 1) (bih 1) r q + lin0 pb (whh 1) r q) * (p r q - cand h pb wih whh bih bn r q)
end

section
variable {B K H M : ℕ}

/-- Stage 3 before the split: a dense layer of the exponential-linear dense layer. -/
def out (nrh : Fin B → Fin K → EReal) (wh : Fin H → Fin K → EReal) (bh : Fin H → EReal)
    (wout : Fin M → Fin H → EReal) (bout : Fin M → EReal) (r : Fin B) (q : Fin M) : EReal :=
  lin (s1 nrh wh bh) wout bout r q
end

/-- The deviation from its pre-activation: softplus plus the fixed offset. -/
def dev (x : EReal) : EReal := splusK x + tenth

/-- The sample from the mean, the deviation and the noise. -/
def smp (mean sd eps : EReal) : EReal := mean + sd * eps

end Cert.Spec

end
-- ==== Proof.Top.lean ====
/-
  The four results as functions of the argument arrays, at the program's sizes.

  x is the [4096, 1056] input (the action and the previous sample side by side); w1 [2048, 1056] and b1 [2048] the
  first layer; wih, whh [6144, 2048] and bih [6144] the recurrent cell's input and hidden weights and input bias, the
  three gates' rows one block of 2048 after another (gate g's row q is row g * 2048 + q); bn [2048] the candidate's
  hidden bias; prev [4096, 2048] the previous hidden state; wh, bh and wo, bo the last two layers; eps [4096, 1024]
  the noise.  The last layer has 2048 outputs: columns 0 .. 1023 are the mean, columns 1024 .. 2047 the deviation's
  pre-activation.
-/
import proofs.«133578_j12730283065883_2_alg».proof.Proof.Spec

noncomputable section

namespace Cert.Top

open Idealize.ShloMosaic Idealize.ShloMosaic.ValueIdx Cert.Spec

abbrev A4096x1056 := (⟨2, ![4096, 1056]⟩ : Shape).Idx → EReal
abbrev A2048x1056 := (⟨2, ![2048, 1056]⟩ : Shape).Idx → EReal
abbrev A4096x2048 := (⟨2, ![4096, 2048]⟩ : Shape).Idx → EReal
abbrev A4096x1024 := (⟨2, ![4096, 1024]⟩ : Shape).Idx → EReal
abbrev A6144x2048 := (⟨2, ![6144, 2048]⟩ : Shape).Idx → EReal
abbrev A2048x2048 := (⟨2, ![2048, 2048]⟩ : Shape).Idx → EReal
abbrev A2048 := (⟨1, ![2048]⟩ : Shape).Idx → EReal
abbrev A6144 := (⟨1, ![6144]⟩ : Shape).Idx → EReal

/-- Gate g's weight row q of a [6144, 2048] array: row g * 2048 + q. -/
def gateW (w : A6144x2048) (g : Fin 3) (q : Fin 2048) (k : Fin 2048) : EReal :=
  w (ix2 (⟨g.val * 2048 + q.val, by have := g.isLt; have := q.isLt; omega⟩ : Fin 6144) k)

/-- Gate g's bias q of a [6144] vector: entry g * 2048 + q. -/
def gateB (b : A6144) (g : Fin 3) (q : Fin 2048) : EReal :=
  b (ix1 (⟨g.val * 2048 + q.val, by have := g.isLt; have := q.isLt; omega⟩ : Fin 6144))

/-- The first hidden layer, entry (r, q). -/
def hid (x : A4096x1056) (w1 : A2048x1056) (b1 : A2048) : Fin 4096 → Fin 2048 → EReal :=
  s1 (fun r k => x (ix2 r k)) (fun q k => w1 (ix2 q k)) (fun q => b1 (ix1 q))

/-- The new hidden state, entry (r, q). -/
def nrh (x : A4096x1056) (w1 : A2048x1056) (b1 : A2048) (prev : A4096x2048) (wih whh : A6144x2048) (bih : A6144)
    (bn : A2048) : Fin 4096 → Fin 2048 → EReal :=
  s2 (hid x w1 b1) (fun r k => prev (ix2 r k)) (fun r q => prev (ix2 r q)) (gateW wih) (gateW whh) (gateB bih)
    (fun q => bn (ix1 q))

/-- The last layer before the split, entry (r, q), q over all 2048 outputs. -/
def outp (x : A4096x1056) (w1 : A2048x1056) (b1 : A2048) (prev : A4096x2048) (wih whh : A6144x2048) (bih : A6144)
    (bn : A2048) (wh : A2048x2048) (bh : A2048) (wo : A2048x2048) (bo : A2048) : Fin 4096 → Fin 2048 → EReal :=
  out (nrh x w1 b1 prev wih whh bih bn) (fun q k => wh (ix2 q k)) (fun q => bh (ix1 q)) (fun q k => wo (ix2 q k))
    (fun q => bo (ix1 q))

/-- Column q of the mean half and of the deviation half among the 2048 outputs. -/
def lo (q : Fin 1024) : Fin 2048 := ⟨q.val, by have := q.isLt; omega⟩
def hi (q : Fin 1024) : Fin 2048 := ⟨1024 + q.val, by have := q.isLt; omega⟩

section
variable (x : A4096x1056) (w1 : A2048x1056) (b1 : A2048) (prev : A4096x2048) (wih whh : A6144x2048) (bih : A6144)
  (bn : A2048) (wh : A2048x2048) (bh : A2048) (wo : A2048x2048) (bo : A2048) (eps : A4096x1024)

/-- Result 4: the new hidden state. -/
def hidden : A4096x2048 := of2 (nrh x w1 b1 prev wih whh bih bn)

/-- Result 1: the mean. -/
def mean : A4096x1024 := of2 fun r q => outp x w1 b1 prev wih whh bih bn wh bh wo bo r (lo q)

/-- Result 2: the deviation. -/
def sd : A4096x1024 := of2 fun r q => dev (outp x w1 b1 prev wih whh bih bn wh bh wo bo r (hi q))

/-- Result 3: the sample. -/
def sample : A4096x1024 := of2 fun r q =>
  smp (outp x w1 b1 prev wih whh bih bn wh bh wo bo r (lo q)) (dev (outp x w1 b1 prev wih whh bih bn wh bh wo bo r (hi q)))
    (eps (ix2 r q))
end

end Cert.Top

end
-- ==== Proof.KIface.lean ====
/-
  What each of the kernel program's three regions computes, as a function of the arrays the region finds when it is
  entered: the first hidden layer from the input, its weights and its bias row; the recurrent step from the hidden
  layer, the previous state (once rounded, once not), the two stacks of gate weights, the stack of gate biases and the
  candidate's bias row; the last layer from the new state and the two remaining weight arrays with their bias rows.
  The entry arrays are read through accessors, so the statements hold whatever filled those arrays.
-/
import proofs.«133578_j12730283065883_2_alg».proof.Proof.Gen.KernelIdeal.Frame
import proofs.«133578_j12730283065883_2_alg».proof.Proof.Top

noncomputable section

namespace Cert.KerSide

open Idealize.ShloMosaic Idealize.ShloMosaic.TcCoe Idealize.ShloMosaic.ValueIdx Idealize.SL.Sem Cert.KernelIdeal Cert.KernelIdeal.Gen

/-- The contents of every buffer of a core when a region is entered. -/
abbrev EntryVal := (c : Dev nD) → (b : Ref sig .tc) → Buf (Elt Ideal) ((c : Thread nD τ).loc b)

/-- Region 0: the exponential-linear dense layer of the input rows. -/
def g0 (V : EntryVal) (c : Dev nD) : Fin 4096 → Fin 2048 → EReal :=
  Cert.Spec.s1 (fun r k => V c main_v1 (ix2 r k)) (fun q k => V c main_v2 (ix2 q k)) (fun q => V c main_v3 (ix2 (0 : Fin 1) q))

/-- Region 1: the recurrent step; the gates are stacked along the leading axis of the weight and bias arrays. -/
def g1 (V : EntryVal) (c : Dev nD) : Fin 4096 → Fin 2048 → EReal :=
  Cert.Spec.s2 (fun r k => V c main_v4 (ix2 r k)) (fun r k => V c main_v11 (ix2 r k)) (fun r q => V c main_arg2 (ix2 r q))
    (fun g q k => V c main_v6 (ix3 g q k)) (fun g q k => V c main_v8 (ix3 g q k)) (fun g q => V c main_v9 (ix2 g q))
    (fun q => V c main_v10 (ix2 (0 : Fin 1) q))

/-- Region 2 before the split into mean and deviation: all 2048 outputs of the last layer. -/
def o2 (V : EntryVal) (c : Dev nD) : Fin 4096 → Fin 2048 → EReal :=
  Cert.Spec.out (fun r k => V c main_v12_1 (ix2 r k)) (fun q k => V c main_v13 (ix2 q k)) (fun q => V c main_v14 (ix2 (0 : Fin 1) q))
    (fun q k => V c main_v15 (ix2 q k)) (fun q => V c main_v16 (ix2 (0 : Fin 1) q))

end Cert.KerSide

end
-- ==== Proof.KHost.lean ====
/-
  The kernel program's host side: what the arrays hold that each region finds when it is entered, entry by entry,
  in terms of the launch memory and of what the earlier regions wrote.

  Between the regions the program only lays arrays out again.  It puts the action and the previous sample side by
  side, changes the number format of weights and states (which changes no value on the extended reals), gives a
  bias vector of n entries the shape of one row [1, n], and gives the gate weights [6144, 2048] and gate biases [6144]
  a leading axis of three: entry (g, q, k) of the stack is entry (g * 2048 + q, k) of the flat array, because both
  sit at the same place when the entries are counted row by row.  No region and no host step writes an argument
  array, so at every boundary an argument array still holds what it was launched with.
-/
import proofs.«133578_j12730283065883_2_alg».proof.Proof.KIface
import Idealize.ShloMosaic.Lib.StableHlo.Run
import Idealize.ShloMosaic.Lib.Pipeline.Value

noncomputable section

namespace Cert.KerSide

open Idealize.ShloMosaic Idealize.ShloMosaic.TcCoe Idealize.ShloMosaic.ValueIdx Idealize.SL.Sem Cert.KernelIdeal Cert.KernelIdeal.Gen
open Idealize.ShloMosaic.StableHlo

attribute [local instance] Cert.KernelIdeal.Gen.facts

variable (m : (ℓ : Loc nD τ sig) → Buf (Elt Ideal) ℓ) (ρ : Dev nD → PrngReg) (c : Dev nD)

/-- The kernel program's input array: its arguments 0 and 1 side by side. -/
def xin (a0 : (⟨S4096x32, .f32⟩ : BufTy).Contents (Elt Ideal)) (a1 : (⟨S4096x1024, .f32⟩ : BufTy).Contents (Elt Ideal)) :
    (⟨S4096x1056, .f32⟩ : BufTy).Contents (Elt Ideal) :=
  concatenate S4096x1056 1 [⟨S4096x32, a0⟩, ⟨S4096x1024, a1⟩] Facts₀.concatenates_S4096x32_S4096x1024_S4096x1056_d1

/-- A buffer that no operation of a host stretch writes holds after the stretch what it held before. -/
local macro "unwritten" "[" d:ident "]" : tactic => `(tactic| (
  refine StableHlo.after_of_forall_not_mem _ _ (List.forall_iff_forall_mem.mp ?_)
  simp only [$d:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## An argument array at the inner boundaries -/

theorem W1_arg (b : Ref sig .tc) (h : StableHlo.after hostOps0 (W0 (F := Ideal) m ρ c) (Proc.devRef .tc b) = W0 m ρ c (Proc.devRef .tc b)) :
    W1 (F := Ideal) m ρ c (Proc.devRef .tc b) = m ((c : Thread nD τ).loc b) := h.trans rfl

theorem W2_main_arg2 : W2 (F := Ideal) m ρ c (Proc.devRef .tc main_arg2) = m ((c : Thread nD τ).loc main_arg2) :=
  (W2_of_ne m ρ c main_arg2 (by decide)).trans (W1_arg m ρ c main_arg2 (by unwritten [hostOps0]))
theorem W2_main_arg6 : W2 (F := Ideal) m ρ c (Proc.devRef .tc main_arg6) = m ((c : Thread nD τ).loc main_arg6) :=
  (W2_of_ne m ρ c main_arg6 (by decide)).trans (W1_arg m ρ c main_arg6 (by unwritten [hostOps0]))
theorem W2_main_arg7 : W2 (F := Ideal) m ρ c (Proc.devRef .tc main_arg7) = m ((c : Thread nD τ).loc main_arg7) :=
  (W2_of_ne m ρ c main_arg7 (by decide)).trans (W1_arg m ρ c main_arg7 (by unwritten [hostOps0]))
theorem W2_main_arg8 : W2 (F := Ideal) m ρ c (Proc.devRef .tc main_arg8) = m ((c : Thread nD τ).loc main_arg8) :=
  (W2_of_ne m ρ c main_arg8 (by decide)).trans (W1_arg m ρ c main_arg8 (by unwritten [hostOps0]))
theorem W2_main_arg9 : W2 (F := Ideal) m ρ c (Proc.devRef .tc main_arg9) = m ((c : Thread nD τ).loc main_arg9) :=
  (W2_of_ne m ρ c main_arg9 (by decide)).trans (W1_arg m ρ c main_arg9 (by unwritten [hostOps0]))

/-- From the second region's exit back to the launch, for a buffer nothing on the way writes. -/
theorem W4_arg (b : Ref sig .tc) (h1 : ∀ w, Pipeline.arrRef spec1 w ≠ b) (h0 : ∀ w, Pipeline.arrRef spec0 w ≠ b)
    (hs1 : StableHlo.after hostOps1 (W2 (F := Ideal) m ρ c) (Proc.devRef .tc b) = W2 m ρ c (Proc.devRef .tc b))
    (hs0 : StableHlo.after hostOps0 (W0 (F := Ideal) m ρ c) (Proc.devRef .tc b) = W0 m ρ c (Proc.devRef .tc b)) :
    W4 (F := Ideal) m ρ c (Proc.devRef .tc b) = m ((c : Thread nD τ).loc b) :=
  (W4_of_ne m ρ c b h1).trans (hs1.trans ((W2_of_ne m ρ c b h0).trans (W1_arg m ρ c b hs0)))

theorem W4_main_arg3 : W4 (F := Ideal) m ρ c (Proc.devRef .tc main_arg3) = m ((c : Thread nD τ).loc main_arg3) :=
  W4_arg m ρ c main_arg3 (by decide) (by decide) (by unwritten [hostOps1]) (by unwritten [hostOps0])
theorem W4_main_arg10 : W4 (F := Ideal) m ρ c (Proc.devRef .tc main_arg10) = m ((c : Thread nD τ).loc main_arg10) :=
  W4_arg m ρ c main_arg10 (by decide) (by decide) (by unwritten [hostOps1]) (by unwritten [hostOps0])
theorem W4_main_arg11 : W4 (F := Ideal) m ρ c (Proc.devRef .tc main_arg11) = m ((c : Thread nD τ).loc main_arg11) :=
  W4_arg m ρ c main_arg11 (by decide) (by decide) (by unwritten [hostOps1]) (by unwritten [hostOps0])
theorem W4_main_arg12 : W4 (F := Ideal) m ρ c (Proc.devRef .tc main_arg12) = m ((c : Thread nD τ).loc main_arg12) :=
  W4_arg m ρ c main_arg12 (by decide) (by decide) (by unwritten [hostOps1]) (by unwritten [hostOps0])
theorem W4_main_arg13 : W4 (F := Ideal) m ρ c (Proc.devRef .tc main_arg13) = m ((c : Thread nD τ).loc main_arg13) :=
  W4_arg m ρ c main_arg13 (by decide) (by decide) (by unwritten [hostOps1]) (by unwritten [hostOps0])

/-! ## The first region's entry arrays -/

theorem V1_v1 (r : Fin 4096) (k : Fin 1056) :
    V1 (F := Ideal) m ρ c main_v1 (ix2 r k) = xin (m ((c : Thread nD τ).loc main_arg0)) (m ((c : Thread nD τ).loc main_arg1)) (ix2 r k) := by
  have e : (StableHlo.after hostOps0 (W0 (F := Ideal) m ρ c) (Proc.devRef .tc main_v1) : S4096x1056.Idx → EReal)
      = truncf (F := Ideal) .bf16 (xin (m ((c : Thread nD τ).loc main_arg0)) (m ((c : Thread nD τ).loc main_arg1))) bitsLt_bf16_f32 := by
    after_results <;> rfl
  exact congrFun e (ix2 r k)

theorem V1_v2 (q : Fin 2048) (k : Fin 1056) :
    V1 (F := Ideal) m ρ c main_v2 (ix2 q k) = (m ((c : Thread nD τ).loc main_arg4)) (ix2 q k) := by
  have e : (StableHlo.after hostOps0 (W0 (F := Ideal) m ρ c) (Proc.devRef .tc main_v2) : S2048x1056.Idx → EReal)
      = truncf (F := Ideal) .bf16 (m ((c : Thread nD τ).loc main_arg4)) bitsLt_bf16_f32 := by
    after_results <;> rfl
  exact congrFun e (ix2 q k)

/-- A vector of n entries given the shape of one row: entry (0, q) of the row is entry q of the vector. -/
theorem row_apply {α : Type} (x : (⟨1, ![2048]⟩ : Shape).Idx → α) (h : (⟨1, ![2048]⟩ : Shape).ShapeCasts ⟨2, ![1, 2048]⟩) (q : Fin 2048) :
    shapeCast ⟨2, ![1, 2048]⟩ x h (ix2 (0 : Fin 1) q) = x (ix1 q) :=
  shapeCast_apply x h _ _ (by
    rw [Shape.rowMajor_val_one, Shape.rowMajor_val_two]
    show q.val = (0 : ℕ) * 2048 + q.val
    omega)

theorem V1_v3 (q : Fin 2048) :
    V1 (F := Ideal) m ρ c main_v3 (ix2 (0 : Fin 1) q) = (m ((c : Thread nD τ).loc main_arg5)) (ix1 q) := by
  have e : StableHlo.after hostOps0 (W0 (F := Ideal) m ρ c) (Proc.devRef .tc main_v3)
      = shapeCast S1x2048 (m ((c : Thread nD τ).loc main_arg5)) Facts₀.shapeCasts_S2048_S1x2048 := by
    after_results <;> rfl
  exact (congrFun e (ix2 (0 : Fin 1) q)).trans (row_apply _ _ q)

/-! ## The second region's entry arrays -/

/-- A [6144, 2048] array given a leading axis of three: entry (g, q, k) of the stack is entry (g * 2048 + q, k). -/
theorem stack_apply {α : Type} (x : (⟨2, ![6144, 2048]⟩ : Shape).Idx → α)
    (h : (⟨2, ![6144, 2048]⟩ : Shape).ShapeCasts ⟨3, ![3, 2048, 2048]⟩) (g : Fin 3) (q k : Fin 2048) (hb : g.val * 2048 + q.val < 6144) :
    shapeCast ⟨3, ![3, 2048, 2048]⟩ x h (ix3 g q k) = x (ix2 (⟨g.val * 2048 + q.val, hb⟩ : Fin 6144) k) :=
  shapeCast_apply x h _ _ (by
    rw [Shape.rowMajor_val_two, Shape.rowMajor_val_three]
    show (g.val * 2048 + q.val) * 2048 + k.val = (g.val * 2048 + q.val) * 2048 + k.val
    rfl)

/-- A [6144] vector given a leading axis of three: entry (g, q) is entry g * 2048 + q. -/
theorem stackv_apply {α : Type} (x : (⟨1, ![6144]⟩ : Shape).Idx → α)
    (h : (⟨1, ![6144]⟩ : Shape).ShapeCasts ⟨2, ![3, 2048]⟩) (g : Fin 3) (q : Fin 2048) (hb : g.val * 2048 + q.val < 6144) :
    shapeCast ⟨2, ![3, 2048]⟩ x h (ix2 g q) = x (ix1 (⟨g.val * 2048 + q.val, hb⟩ : Fin 6144)) :=
  shapeCast_apply x h _ _ (by
    rw [Shape.rowMajor_val_one, Shape.rowMajor_val_two]
    show g.val * 2048 + q.val = g.val * 2048 + q.val
    rfl)

/-- The first region's output reaches the second region as the first region left it. -/
theorem V3_v4 : V3 (F := Ideal) m ρ c main_v4 = (dat0 (F := Ideal) (V1 m ρ) c).arrAt 3 cfg0.N :=
  (show StableHlo.after hostOps1 (W2 (F := Ideal) m ρ c) (Proc.devRef .tc main_v4) = W2 m ρ c (Proc.devRef .tc main_v4) by
    unwritten [hostOps1]).trans (W2_arr m ρ c 3)

theorem V3_v11 (r : Fin 4096) (k : Fin 2048) : V3 (F := Ideal) m ρ c main_v11 (ix2 r k) = (m ((c : Thread nD τ).loc main_arg2)) (ix2 r k) := by
  have e : (StableHlo.after hostOps1 (W2 (F := Ideal) m ρ c) (Proc.devRef .tc main_v11) : S4096x2048.Idx → EReal)
      = truncf (F := Ideal) .bf16 (m ((c : Thread nD τ).loc main_arg2)) bitsLt_bf16_f32 := by
    after_results; rw [W2_main_arg2 m ρ c]
  exact congrFun e (ix2 r k)

theorem V3_arg2 (r : Fin 4096) (q : Fin 2048) : V3 (F := Ideal) m ρ c main_arg2 (ix2 r q) = (m ((c : Thread nD τ).loc main_arg2)) (ix2 r q) := by
  have e : StableHlo.after hostOps1 (W2 (F := Ideal) m ρ c) (Proc.devRef .tc main_arg2) = (m ((c : Thread nD τ).loc main_arg2)) :=
    (show StableHlo.after hostOps1 (W2 (F := Ideal) m ρ c) (Proc.devRef .tc main_arg2) = W2 m ρ c (Proc.devRef .tc main_arg2) by
      unwritten [hostOps1]).trans (W2_main_arg2 m ρ c)
  exact congrFun e (ix2 r q)

theorem V3_v6 (g : Fin 3) (q k : Fin 2048) : V3 (F := Ideal) m ρ c main_v6 (ix3 g q k) = Cert.Top.gateW (m ((c : Thread nD τ).loc main_arg6)) g q k := by
  have e : (StableHlo.after hostOps1 (W2 (F := Ideal) m ρ c) (Proc.devRef .tc main_v6) : S3x2048x2048.Idx → EReal)
      = truncf (F := Ideal) .bf16 (shapeCast S3x2048x2048 (m ((c : Thread nD τ).loc main_arg6)) Facts₀.shapeCasts_S6144x2048_S3x2048x2048) bitsLt_bf16_f32 := by
    after_results; rw [W2_main_arg6 m ρ c] <;> rfl
  exact (congrFun e (ix3 g q k)).trans (stack_apply _ _ g q k _)

theorem V3_v8 (g : Fin 3) (q k : Fin 2048) : V3 (F := Ideal) m ρ c main_v8 (ix3 g q k) = Cert.Top.gateW (m ((c : Thread nD τ).loc main_arg7)) g q k := by
  have e : (StableHlo.after hostOps1 (W2 (F := Ideal) m ρ c) (Proc.devRef .tc main_v8) : S3x2048x2048.Idx → EReal)
      = truncf (F := Ideal) .bf16 (shapeCast S3x2048x2048 (m ((c : Thread nD τ).loc main_arg7)) Facts₀.shapeCasts_S6144x2048_S3x2048x2048) bitsLt_bf16_f32 := by
    after_results; rw [W2_main_arg7 m ρ c] <;> rfl
  exact (congrFun e (ix3 g q k)).trans (stack_apply _ _ g q k _)

theorem V3_v9 (g : Fin 3) (q : Fin 2048) : V3 (F := Ideal) m ρ c main_v9 (ix2 g q) = Cert.Top.gateB (m ((c : Thread nD τ).loc main_arg8)) g q := by
  have e : (StableHlo.after hostOps1 (W2 (F := Ideal) m ρ c) (Proc.devRef .tc main_v9) : S3x2048.Idx → EReal)
      = shapeCast S3x2048 (m ((c : Thread nD τ).loc main_arg8)) Facts₀.shapeCasts_S6144_S3x2048 := by
    after_results; rw [W2_main_arg8 m ρ c] <;> rfl
  exact (congrFun e (ix2 g q)).trans (stackv_apply _ _ g q _)

theorem V3_v10 (q : Fin 2048) : V3 (F := Ideal) m ρ c main_v10 (ix2 (0 : Fin 1) q) = (m ((c : Thread nD τ).loc main_arg9)) (ix1 q) := by
  have e : (StableHlo.after hostOps1 (W2 (F := Ideal) m ρ c) (Proc.devRef .tc main_v10) : S1x2048.Idx → EReal)
      = shapeCast S1x2048 (m ((c : Thread nD τ).loc main_arg9)) Facts₀.shapeCasts_S2048_S1x2048 := by
    after_results; rw [W2_main_arg9 m ρ c] <;> rfl
  exact (congrFun e (ix2 (0 : Fin 1) q)).trans (row_apply _ _ q)

/-! ## The third region's entry arrays -/

/-- The second region's rounded output reaches the third region as the second region left it. -/
theorem V5_v12_1 : V5 (F := Ideal) m ρ c main_v12_1 = (dat1 (F := Ideal) (V3 m ρ) c).arrAt 8 cfg1.N :=
  (show StableHlo.after hostOps2 (W4 (F := Ideal) m ρ c) (Proc.devRef .tc main_v12_1) = W4 m ρ c (Proc.devRef .tc main_v12_1) by
    unwritten [hostOps2]).trans (W4_arr m ρ c 8)

theorem V5_arg3 (r : Fin 4096) (q : Fin 1024) : V5 (F := Ideal) m ρ c main_arg3 (ix2 r q) = (m ((c : Thread nD τ).loc main_arg3)) (ix2 r q) := by
  have e : StableHlo.after hostOps2 (W4 (F := Ideal) m ρ c) (Proc.devRef .tc main_arg3) = (m ((c : Thread nD τ).loc main_arg3)) :=
    (show StableHlo.after hostOps2 (W4 (F := Ideal) m ρ c) (Proc.devRef .tc main_arg3) = W4 m ρ c (Proc.devRef .tc main_arg3) by
      unwritten [hostOps2]).trans (W4_main_arg3 m ρ c)
  exact congrFun e (ix2 r q)

theorem V5_v13 (q k : Fin 2048) : V5 (F := Ideal) m ρ c main_v13 (ix2 q k) = (m ((c : Thread nD τ).loc main_arg10)) (ix2 q k) := by
  have e : (StableHlo.after hostOps2 (W4 (F := Ideal) m ρ c) (Proc.devRef .tc main_v13) : S2048x2048.Idx → EReal)
      = truncf (F := Ideal) .bf16 (m ((c : Thread nD τ).loc main_arg10)) bitsLt_bf16_f32 := by
    after_results; rw [W4_main_arg10 m ρ c]
  exact congrFun e (ix2 q k)

theorem V5_v14 (q : Fin 2048) : V5 (F := Ideal) m ρ c main_v14 (ix2 (0 : Fin 1) q) = (m ((c : Thread nD τ).loc main_arg11)) (ix1 q) := by
  have e : (StableHlo.after hostOps2 (W4 (F := Ideal) m ρ c) (Proc.devRef .tc main_v14) : S1x2048.Idx → EReal)
      = shapeCast S1x2048 (m ((c : Thread nD τ).loc main_arg11)) Facts₀.shapeCasts_S2048_S1x2048 := by
    after_results; rw [W4_main_arg11 m ρ c] <;> rfl
  exact (congrFun e (ix2 (0 : Fin 1) q)).trans (row_apply _ _ q)

theorem V5_v15 (q k : Fin 2048) : V5 (F := Ideal) m ρ c main_v15 (ix2 q k) = (m ((c : Thread nD τ).loc main_arg12)) (ix2 q k) := by
  have e : (StableHlo.after hostOps2 (W4 (F := Ideal) m ρ c) (Proc.devRef .tc main_v15) : S2048x2048.Idx → EReal)
      = truncf (F := Ideal) .bf16 (m ((c : Thread nD τ).loc main_arg12)) bitsLt_bf16_f32 := by
    after_results; rw [W4_main_arg12 m ρ c]
  exact congrFun e (ix2 q k)

theorem V5_v16 (q : Fin 2048) : V5 (F := Ideal) m ρ c main_v16 (ix2 (0 : Fin 1) q) = (m ((c : Thread nD τ).loc main_arg13)) (ix1 q) := by
  have e : (StableHlo.after hostOps2 (W4 (F := Ideal) m ρ c) (Proc.devRef .tc main_v16) : S1x2048.Idx → EReal)
      = shapeCast S1x2048 (m ((c : Thread nD τ).loc main_arg13)) Facts₀.shapeCasts_S2048_S1x2048 := by
    after_results; rw [W4_main_arg13 m ρ c] <;> rfl
  exact (congrFun e (ix2 (0 : Fin 1) q)).trans (row_apply _ _ q)

/-! ## The four results at the last boundary -/

theorem W6_v17_0 : W6 (F := Ideal) m ρ c (Proc.devRef .tc main_v17_0) = (dat2 (F := Ideal) (V5 m ρ) c).arrAt 6 cfg2.N := W6_arr m ρ c 6
theorem W6_v17_1 : W6 (F := Ideal) m ρ c (Proc.devRef .tc main_v17_1) = (dat2 (F := Ideal) (V5 m ρ) c).arrAt 7 cfg2.N := W6_arr m ρ c 7
theorem W6_v17_2 : W6 (F := Ideal) m ρ c (Proc.devRef .tc main_v17_2) = (dat2 (F := Ideal) (V5 m ρ) c).arrAt 8 cfg2.N := W6_arr m ρ c 8

/-- The unrounded new state is written by the second region and touched by nothing after it. -/
theorem W6_v12_0 : W6 (F := Ideal) m ρ c (Proc.devRef .tc main_v12_0) = (dat1 (F := Ideal) (V3 m ρ) c).arrAt 7 cfg1.N :=
  (W6_of_ne m ρ c main_v12_0 (by decide)).trans
    ((show StableHlo.after hostOps2 (W4 (F := Ideal) m ρ c) (Proc.devRef .tc main_v12_0) = W4 m ρ c (Proc.devRef .tc main_v12_0) by
      unwritten [hostOps2]).trans (W4_arr m ρ c 7))

end Cert.KerSide

end
-- ==== Proof.KRun.lean ====
/-
  The kernel program's run with its four results named.  Every weakly fair execution from a memory with zero
  counters terminates without a fault, and in the final state each result buffer holds what the last segment
  boundary's contents say it holds (the fold of the host stretches and the three regions' write-backs over the launch
  memory), while the fourteen argument arrays are as launched.  The final state is read once, buffer by buffer,
  against the contents at the last boundary; nothing is said yet about what those contents are.
-/
import proofs.«133578_j12730283065883_2_alg».proof.Proof.Gen.KernelIdeal.Frame

set_option maxRecDepth 16384

noncomputable section

namespace Cert.KerSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v17_0) = W6 m ρ c (Proc.devRef .tc main_v17_0)
      ∧ r.2.mem ((c.tc : Thread nD τ).loc main_v17_1) = W6 m ρ c (Proc.devRef .tc main_v17_1)
      ∧ r.2.mem ((c.tc : Thread nD τ).loc main_v17_2) = W6 m ρ c (Proc.devRef .tc main_v17_2)
      ∧ r.2.mem ((c.tc : Thread nD τ).loc main_v12_0) = W6 m ρ c (Proc.devRef .tc main_v12_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v17_0 (by decide)),
       h c _ (mem_uc main_v17_1 (by decide)),
       h c _ (mem_uc main_v17_2 (by decide)),
       h c _ (mem_uc main_v12_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KerSide

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Reg0Pay.lean ====
/-
  Region 0's stored value at an entry: the matrix product of the input block with the weight rows, plus the bias row,
  through the exponential linear unit.  Rounding to the narrower format is the identity on the extended reals.
-/
import proofs.«133578_j12730283065883_2_alg».proof.Proof.KIface
import proofs.«133578_j12730283065883_2_alg».proof.Proof.LibDotsNT
import proofs.«133578_j12730283065883_2_alg».proof.Proof.LibKeepdims

noncomputable section

open scoped BigOperators

namespace Cert.KerSide.R0

open Idealize.ShloMosaic Idealize.ShloMosaic.TcCoe Idealize.ShloMosaic.ValueIdx Idealize.SL.Sem Cert.KernelIdeal Cert.KernelIdeal.Gen

/-- Entry (p, q) of the stored block is stage 1 of the three loaded blocks at (p, q). -/
theorem pay0_apply (x0 : FVec Ideal S1024x1056 .bf16) (x1 : FVec Ideal S2048x1056 .bf16) (x2 : FVec Ideal S1x2048 .f32)
    (p : Fin 1024) (q : Fin 2048) :
    k0_pay1 (F := Ideal) x0 x1 x2 (ix2 p q)
      = Cert.Spec.s1 (fun r k => x0 (ix2 r k)) (fun n k => x1 (ix2 n k)) (fun n => x2 (ix2 (0 : Fin 1) n)) p q := by
  have hmm : matmul dot_S1024x1056_S2048x1056_S1024x2048_1_1_0_0_n_n none
      (shapeCast S1024x1056 x0 shapeCasts_S1024x1056_S1024x1056) (shapeCast S2048x1056 x1 shapeCasts_S2048x1056_S2048x1056)
      (constant (F := Ideal) S1024x2048 .f32 0x00000000#32) (ix2 p q)
      = ∑ k : Fin 1056, x0 (ix2 p k) * x1 (ix2 q k) := by
    rw [shapeCast_self, shapeCast_self]
    exact Cert.LibDotsNT.nt_matmul_zero_apply dot_S1024x1056_S2048x1056_S1024x2048_1_1_0_0_n_n rfl rfl rfl rfl rfl rfl none x0 x1 p q
  have hb : broadcastTo S1024x2048 (shapeCast S1x2048 x2 shapeCasts_S1x2048_S1x2048) broadcasts_S1x2048_S1024x2048 (ix2 p q)
      = x2 (ix2 (0 : Fin 1) q) :=
    Cert.LibKeepdims.row_spread_apply x2 shapeCasts_S1x2048_S1x2048 broadcasts_S1x2048_S1024x2048 p q
  unfold k0_pay1
  show Cert.Spec.eluK (_ + _) = Cert.Spec.eluK (_ + _)
  exact congrArg Cert.Spec.eluK (congrArg₂ (· + ·) hmm hb)

end Cert.KerSide.R0

end
-- ==== Proof.Reg0.lean ====
/-
  Region 0's output array after the region: the exponential-linear dense layer of the arrays the region finds,
  entry by entry.  Grid point t writes rows 1024 t ... 1024 t + 1023: the input block holds the same rows of the input
  array, the weights and the bias row are whole, so what the point writes back is its block of the layer; the four
  blocks cover the 4096 rows.
-/
import proofs.«133578_j12730283065883_2_alg».proof.Proof.Reg0Pay
import Idealize.ShloMosaic.Lib.Pipeline.Value

noncomputable section

open scoped BigOperators

namespace Cert.KerSide

open Idealize.ShloMosaic Idealize.ShloMosaic.TcCoe Idealize.ShloMosaic.ValueIdx Idealize.SL.Sem Cert.KernelIdeal Cert.KernelIdeal.Gen

open Idealize.ShloMosaic.Pipeline (Dat)

namespace R0

theorem zeroOffsets2 : (![0, 0] : Fin 2 → Nat) = fun _ => 0 := funext fun a => by fin_cases a <;> rfl

/-- Stage 1 at an entry depends only on the input's row, the weight's row and the bias entry it reads. -/
theorem s1_congr {B B' K N N' : ℕ} {x : Fin B → Fin K → EReal} {x' : Fin B' → Fin K → EReal}
    {w : Fin N → Fin K → EReal} {w' : Fin N' → Fin K → EReal} {b : Fin N → EReal} {b' : Fin N' → EReal}
    {r : Fin B} {r' : Fin B'} {q : Fin N} {q' : Fin N'}
    (hx : ∀ k, x r k = x' r' k) (hw : ∀ k, w q k = w' q' k) (hb : b q = b' q') :
    Cert.Spec.s1 x w b r q = Cert.Spec.s1 x' w' b' r' q' := by
  unfold Cert.Spec.s1 Cert.Spec.lin Cert.Spec.lin0
  rw [hb]
  exact congrArg (fun s => Cert.Spec.eluK (s + b' q')) (Finset.sum_congr rfl fun k _ => by rw [hx, hw])

/-- The block index maps over the four points: the input and the output move down the rows with the point, the
    weights and the bias stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : EntryVal) (c : Dev nD)

/-- The input block at point t holds rows 1024 t ... of the input array. -/
theorem inputBlock0 (t : Fin cfg0.N) (p : Fin 1024) (k : Fin 1056) (r : Fin 4096) (hr : r.val = t.val * 1024 + p.val) :
    (iblk0 V c 0 t : FVec Ideal S1024x1056 .bf16) (ix2 p k) = V c main_v1 (ix2 r k) := by
  obtain ⟨e0, e1, -⟩ := blockIndex0 t
  show V c main_v1 (((cfg0.win 0).blk t).view.emb (ix2 p k)) = V c main_v1 (ix2 r k)
  refine congrArg (V c main_v1) (funext fun a => Fin.ext ?_)
  match a with
  | ⟨0, _⟩ => show win0_0.index t (0 : Fin 2) * 1024 + 1 * p.val = r.val; omega
  | ⟨1, _⟩ => show win0_0.index t (1 : Fin 2) * 1056 + 1 * k.val = k.val; omega

/-- The weight block is the whole weight array. -/
theorem weightBlock0 (t : Fin cfg0.N) (n : Fin 2048) (k : Fin 1056) (n' : Fin 2048) (hn : n'.val = n.val) :
    (iblk0 V c 1 t : FVec Ideal S2048x1056 .bf16) (ix2 n k) = V c main_v2 (ix2 n' k) := by
  obtain ⟨-, -, e0, e1, -⟩ := blockIndex0 t
  show V c main_v2 (((cfg0.win 1).blk t).view.emb (ix2 n k)) = V c main_v2 (ix2 n' k)
  refine congrArg (V c main_v2) (funext fun a => Fin.ext ?_)
  match a with
  | ⟨0, _⟩ => show win0_1.index t (0 : Fin 2) * 2048 + 1 * n.val = n'.val; omega
  | ⟨1, _⟩ => show win0_1.index t (1 : Fin 2) * 1056 + 1 * k.val = k.val; omega

/-- The bias block is the whole bias row. -/
theorem biasBlock0 (t : Fin cfg0.N) (n : Fin 2048) (n' : Fin 2048) (hn : n'.val = n.val) :
    (iblk0 V c 2 t : FVec Ideal S1x2048 .f32) (ix2 (0 : Fin 1) n) = V c main_v3 (ix2 (0 : Fin 1) n') := by
  obtain ⟨-, -, -, -, e0, e1, -⟩ := blockIndex0 t
  show V c main_v3 (((cfg0.win 2).blk t).view.emb (ix2 (0 : Fin 1) n)) = V c main_v3 (ix2 (0 : Fin 1) n')
  refine congrArg (V c main_v3) (funext fun a => Fin.ext ?_)
  match a with
  | ⟨0, _⟩ => show win0_2.index t (0 : Fin 2) * 1 + 1 * 0 = 0; omega
  | ⟨1, _⟩ => show win0_2.index t (1 : Fin 2) * 2048 + 1 * n.val = n'.val; omega

/-- What point t writes back is block t of the layer. -/
theorem flushed0_3_eq (t : Fin cfg0.N) :
    (dat0 V c).flushed 3 t = ((cfg0.win 3).blk t).view.read (Elt Ideal) (Cert.Spec.of2 (g0 V c)) := by
  show (cfg0.win 3).cut (grid0.coords t) ((dat0 V c).after 3 t) = _
  rw [after0_3]
  unfold out0_3
  rw [View.canon_unit_zero zeroOffsets2]
  simp only [View.ld_unit_zero (S := S1024x1056) zeroOffsets2, View.ld_unit_zero (S := S2048x1056) zeroOffsets2,
    View.ld_unit_zero (S := S1x2048) zeroOffsets2]
  obtain ⟨-, -, -, -, -, -, e0, e1⟩ := blockIndex0 t
  funext j
  obtain ⟨p, q, rfl⟩ : ∃ (p : Fin 1024) (q : Fin 2048), j = ix2 p q := ⟨j 0, j 1, eq_ix2 j⟩
  show k0_pay1 (F := Ideal) (iblk0 V c 0 t) (iblk0 V c 1 t) (iblk0 V c 2 t) (ix2 p q)
    = Cert.Spec.of2 (g0 V c) (((cfg0.win 3).blk t).view.emb (ix2 p q))
  refine (pay0_apply _ _ _ p q).trans ?_
  have h0 : ((((cfg0.win 3).blk t).view.emb (ix2 p q)) 0).val = t.val * 1024 + p.val := by
    show win0_3.index t (0 : Fin 2) * 1024 + 1 * p.val = _; omega
  have h1 : ((((cfg0.win 3).blk t).view.emb (ix2 p q)) 1).val = q.val := by
    show win0_3.index t (1 : Fin 2) * 2048 + 1 * q.val = _; omega
  have key : ∀ (j : S4096x2048.Idx), (j 0).val = t.val * 1024 + p.val → (j 1).val = q.val →
      Cert.Spec.s1 (fun r k => (iblk0 V c 0 t : FVec Ideal S1024x1056 .bf16) (ix2 r k))
          (fun n k => (iblk0 V c 1 t : FVec Ideal S2048x1056 .bf16) (ix2 n k))
          (fun n => (iblk0 V c 2 t : FVec Ideal S1x2048 .f32) (ix2 (0 : Fin 1) n)) p q
        = Cert.Spec.of2 (g0 V c) j := by
    intro j hj0 hj1
    unfold Cert.Spec.of2 g0
    exact s1_congr (fun k => inputBlock0 V c t p k _ hj0) (fun k => weightBlock0 V c t q k _ hj1) (biasBlock0 V c t q _ hj1)
  exact key _ h0 h1
end

/-- An index of the output array is in point t's block iff each coordinate is in the block's range. -/
theorem mem_block0_3 (t : Fin cfg0.N) (i : S4096x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v4).slice (win0_3.rect t)).set ↔ _
  rw [View.set_slice_whole, Rect.mem_set_unit]
  exact Iff.rfl

/-- Row r of the output array is written by point r / 1024. -/
theorem cover0_3_rows (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 4 := N_0
  have hlt : (i 0).val / 1024 < cfg0.N := by rw [hN]; omega
  obtain ⟨-, -, -, -, -, -, e0, e1⟩ := blockIndex0 ⟨(i 0).val / 1024, hlt⟩
  refine ⟨⟨(i 0).val / 1024, hlt⟩, flush0_3 _, ?_⟩
  rw [mem_block0_3]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, hlt⟩ (1 : Fin 2) * 2048 ≤ (i 1).val
      ∧ (i 1).val < win0_3.index ⟨(i 0).val / 1024, hlt⟩ (1 : Fin 2) * 2048 + 2048
    rw [e1]; omega

end R0

/-- The output array after region 0 is the layer of the arrays the region finds. -/
theorem final0_3 (V : EntryVal) (c : Dev nD) : (dat0 (F := Ideal) V c).arrAt 3 cfg0.N = Cert.Spec.of2 (g0 V c) :=
  (dat0 V c).arrAt_eq_of_cover 3 (Cert.Spec.of2 (g0 V c)) (fun t _ => R0.flushed0_3_eq V c t) R0.cover0_3_rows

end Cert.KerSide

end
-- ==== Proof.Reg1Gates.lean ====
/-
  The recurrent cell keeps its three gates stacked along the leading axis of its weight and bias arrays.  Gate g's
  weights are the [1, N, K] slab at leading coordinate g, read as an [N, K] matrix; gate g's bias is row g of the
  [G, N] bias array, taken as a vector, put back as one row and spread over every row of the result.  Read at an entry:
  the product of an [M, K] array with gate g's weights, rows against rows, at (r, q) is the sum over k of
  left(r, k) * weights(g, q, k); the spread bias at (p, q) is bias(g, q).
-/
import Idealize.ShloMosaic.Lib.Pipeline.Value
import Idealize.ShloMosaic.Lib.ValueIdx
import Idealize.ShloMosaic.Lib.ValueLayout
import proofs.«133578_j12730283065883_2_alg».proof.Proof.LibDotsNT

noncomputable section

open scoped BigOperators

namespace Cert.KerSide.R1

open Idealize.ShloMosaic Idealize.ShloMosaic.ValueIdx

variable {α : Type}

/-- The unit slab at leading coordinate o of a [G, N, K] array reads, at (0, q, k), the array at (g, q, k) when g = o. -/
theorem slab_apply {G N K : ℕ} (o : ℕ) (w : (⟨3, ![G, N, K]⟩ : Shape).Idx → α)
    (hs : (⟨3, ![G, N, K]⟩ : Shape).Slices ![o, 0, 0] ⟨3, ![1, N, K]⟩) (g : Fin G) (hg : g.val = o) (q : Fin N) (k : Fin K) :
    extractStridedSlice ⟨3, ![1, N, K]⟩ ![o, 0, 0] w hs (ix3 (0 : Fin 1) q k) = w (ix3 g q k) :=
  extractStridedSlice_apply _ _ _ _ _ (fun ax => by
    match ax with
    | ⟨0, _⟩ => exact hg
    | ⟨1, _⟩ => exact (Nat.zero_add _).symm
    | ⟨2, _⟩ => exact (Nat.zero_add _).symm)

/-- The slab read as a matrix: entry (q, k) is the array at (g, q, k). -/
theorem slab_matrix_apply {G N K : ℕ} (o : ℕ) (w : (⟨3, ![G, N, K]⟩ : Shape).Idx → α)
    (hs : (⟨3, ![G, N, K]⟩ : Shape).Slices ![o, 0, 0] ⟨3, ![1, N, K]⟩)
    (hc : (⟨3, ![1, N, K]⟩ : Shape).ShapeCasts ⟨2, ![N, K]⟩) (g : Fin G) (hg : g.val = o) (q : Fin N) (k : Fin K) :
    shapeCast ⟨2, ![N, K]⟩ (extractStridedSlice ⟨3, ![1, N, K]⟩ ![o, 0, 0] w hs) hc (ix2 q k) = w (ix3 g q k) :=
  (shapeCast_1ab_ab_apply _ hc q k).trans (slab_apply o w hs g hg q k)

/-- The product of an [M, K] array with gate g's weight matrix, rows against rows, into the zero accumulator. -/
theorem gate_matmul_apply {M N K G : ℕ} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    {φ₁ φ₂ : FTy} (prec : Option ContractPrecision) (o : ℕ) (lhs : FVec Ideal ⟨2, ![M, K]⟩ φ₁)
    (w : FVec Ideal ⟨3, ![G, N, K]⟩ φ₂)
    (hs : (⟨3, ![G, N, K]⟩ : Shape).Slices ![o, 0, 0] ⟨3, ![1, N, K]⟩)
    (hc : (⟨3, ![1, N, K]⟩ : Shape).ShapeCasts ⟨2, ![N, K]⟩) (g : Fin G) (hg : g.val = o) (r : Fin M) (q : Fin N) :
    FloatOps.matmul d prec lhs (shapeCast ⟨2, ![N, K]⟩ (extractStridedSlice ⟨3, ![1, N, K]⟩ ![o, 0, 0] w hs) hc)
        (constant ⟨2, ![M, N]⟩ .f32 0x00000000#32) (ix2 r q)
      = ∑ k : Fin K, lhs (ix2 r k) * w (ix3 g q k) :=
  (Cert.LibDotsNT.nt_matmul_zero_apply d hlc hrc hln hrn hlb hrb prec lhs _ r q).trans
    (Finset.sum_congr rfl fun k _ => congrArg (fun y => lhs (ix2 r k) * y) (slab_matrix_apply o w hs hc g hg q k))

/-- Row o of a [G, N] array, taken as a vector, put back as one row and spread over [M, N], reads at (p, q) the
    array at (g, q) when g = o. -/
theorem gate_bias_apply {G N M : ℕ} (o : ℕ) (b : (⟨2, ![G, N]⟩ : Shape).Idx → α)
    (hs : (⟨2, ![G, N]⟩ : Shape).Slices ![o, 0] ⟨2, ![1, N]⟩) (h1 : (⟨2, ![1, N]⟩ : Shape).ShapeCasts ⟨1, ![N]⟩)
    (h2 : (⟨1, ![N]⟩ : Shape).ShapeCasts ⟨2, ![1, N]⟩) (hb : (⟨2, ![1, N]⟩ : Shape).Broadcasts ⟨2, ![M, N]⟩)
    (g : Fin G) (hg : g.val = o) (p : Fin M) (q : Fin N) :
    broadcastTo ⟨2, ![M, N]⟩ (shapeCast ⟨2, ![1, N]⟩ (shapeCast ⟨1, ![N]⟩ (extractStridedSlice ⟨2, ![1, N]⟩ ![o, 0] b hs) h1) h2) hb
        (ix2 p q) = b (ix2 g q) :=
  (broadcastTo_1b_ab_apply _ hb p q).trans
    ((shapeCast_a_1a_apply _ h2 (0 : Fin 1) q).trans
      ((shapeCast_1a_a_apply _ h1 q).trans (slice2_axis0_apply o b hs (0 : Fin 1) q g hg)))

end Cert.KerSide.R1

end
-- ==== Proof.Reg1Pay.lean ====
/-
  The recurrent step's stored value, read at one entry (p, q) of a block, as a function of the seven blocks the body
  loads: the hidden-layer rows x0 and the rounded previous-state rows x1 ([256, 2048]), the previous-state block x2
  ([256, 512]), the two stacks of gate weight rows x3 and x4 ([3, 512, 2048]), the stack of gate biases x5 ([3, 512])
  and the candidate's bias row x6 ([1, 512]).  Each of the six matrix products is a sum over the 2048 columns of a row
  of x0 or x1 against a weight row of one gate; the three input-side products carry their gate's bias.  The rest of the
  body acts entry by entry: two logistic gates, the candidate's hyperbolic tangent, and the blend of the candidate with
  the previous state.
-/
import proofs.«133578_j12730283065883_2_alg».proof.Proof.Gen.KernelIdeal.Skeleton
import proofs.«133578_j12730283065883_2_alg».proof.Proof.Spec
import proofs.«133578_j12730283065883_2_alg».proof.Proof.Reg1Gates
import proofs.«133578_j12730283065883_2_alg».proof.Proof.LibKeepdims

noncomputable section

open scoped BigOperators

namespace Cert.KerSide.R1

open Idealize.ShloMosaic Idealize.ShloMosaic.TcCoe Idealize.ShloMosaic.ValueIdx Idealize.SL.Sem Cert.KernelIdeal Cert.KernelIdeal.Gen

/-- The entrywise part of the recurrent step, from the eight numbers it combines: the three input-side
    pre-activations (reset, update, candidate), the three state-side products, the candidate's bias and the previous
    state. -/
def cell (iR iZ iN hR hZ hN bn prev : EReal) : EReal :=
  Ideal.tanh (iN + Cert.Spec.sigK (iR + hR) * (hN + bn))
    + Cert.Spec.sigK (iZ + hZ) * (prev - Ideal.tanh (iN + Cert.Spec.sigK (iR + hR) * (hN + bn)))

theorem cell_congr {iR iZ iN hR hZ hN bn prev iR' iZ' iN' hR' hZ' hN' bn' prev' : EReal}
    (e1 : iR = iR') (e2 : iZ = iZ') (e3 : iN = iN') (e4 : hR = hR') (e5 : hZ = hZ') (e6 : hN = hN') (e7 : bn = bn')
    (e8 : prev = prev') : cell iR iZ iN hR hZ hN bn prev = cell iR' iZ' iN' hR' hZ' hN' bn' prev' := by
  subst e1 e2 e3 e4 e5 e6 e7 e8; rfl

/-- The stored value at an index is the entrywise part applied to the values of its operands at that index: every
    operation between the products and the store acts index by index. -/
theorem pay1_pointwise (v3 : FVec Ideal S256x2048 .bf16) (v7 : FVec Ideal S3x512x2048 .bf16) (v11 : FVec Ideal S1x512 .f32)
    (v19 v27 v35 v38 : FVec Ideal S256x512 .f32) (v39 : FVec Ideal S1x512x2048 .bf16) (v66 : Vec Ideal S256x512 .f32)
    (j : S256x512.Idx) :
    k1_pay1 v3 v7 v11 v19 v27 v35 v38 v39 v66 j
      = cell (v19 j) (v27 j) (v35 j) (v38 j)
          (matmul dot_S256x2048_S512x2048_S256x512_1_1_0_0_n_n none v3
            (shapeCast S512x2048 v39 shapeCasts_S1x512x2048_S512x2048) (constant (F := Ideal) S256x512 .f32 0x00000000#32) j)
          (matmul dot_S256x2048_S512x2048_S256x512_1_1_0_0_n_n none v3
            (shapeCast S512x2048 (extractStridedSlice S1x512x2048 ![2, 0, 0] v7 slices_S3x512x2048_o2_0_0_S1x512x2048)
              shapeCasts_S1x512x2048_S512x2048) (constant (F := Ideal) S256x512 .f32 0x00000000#32) j)
          (broadcastTo S256x512 v11 broadcasts_S1x512_S256x512 j) (v66 j) := rfl

section
variable (x0 x1 : Vec Ideal S256x2048 .bf16) (x2 : Vec Ideal S256x512 .f32) (x3 x4 : Vec Ideal S3x512x2048 .bf16)
  (x5 : Vec Ideal S3x512 .f32) (x6 : Vec Ideal S1x512 .f32) (p : Fin 256) (q : Fin 512)

/-- The reset gate's input-side pre-activation. -/
theorem pay9_apply : k1_pay9 x0 x3 x5 (ix2 p q)
    = Cert.Spec.lin (fun r k => x0 (ix2 r k)) (fun q k => x3 (ix3 (0 : Fin 3) q k)) (fun q => x5 (ix2 (0 : Fin 3) q)) p q := by
  unfold k1_pay9 k1_pay3 k1_pay5 k1_pay7
  dsimp only
  refine (addf_apply _ _ _).trans ?_
  unfold Cert.Spec.lin Cert.Spec.lin0
  refine congrArg₂ (· + ·) ?_ ?_
  · refine (gate_matmul_apply _ rfl rfl rfl rfl rfl rfl none 0 _ _ _ _ (0 : Fin 3) rfl p q).trans ?_
    simp only [shapeCast_self]
  · refine (gate_bias_apply 0 _ _ _ _ _ (0 : Fin 3) rfl p q).trans ?_
    simp only [shapeCast_self]

/-- The update gate's input-side pre-activation. -/
theorem pay10_apply : k1_pay10 x0 x3 x5 (ix2 p q)
    = Cert.Spec.lin (fun r k => x0 (ix2 r k)) (fun q k => x3 (ix3 (1 : Fin 3) q k)) (fun q => x5 (ix2 (1 : Fin 3) q)) p q := by
  unfold k1_pay10 k1_pay3 k1_pay5 k1_pay7
  dsimp only
  refine (addf_apply _ _ _).trans ?_
  unfold Cert.Spec.lin Cert.Spec.lin0
  refine congrArg₂ (· + ·) ?_ ?_
  · refine (gate_matmul_apply _ rfl rfl rfl rfl rfl rfl none 1 _ _ _ _ (1 : Fin 3) rfl p q).trans ?_
    simp only [shapeCast_self]
  · refine (gate_bias_apply 1 _ _ _ _ _ (1 : Fin 3) rfl p q).trans ?_
    simp only [shapeCast_self]

/-- The candidate's input-side pre-activation. -/
theorem pay11_apply : k1_pay11 x0 x3 x5 (ix2 p q)
    = Cert.Spec.lin (fun r k => x0 (ix2 r k)) (fun q k => x3 (ix3 (2 : Fin 3) q k)) (fun q => x5 (ix2 (2 : Fin 3) q)) p q := by
  unfold k1_pay11 k1_pay3 k1_pay5 k1_pay7
  dsimp only
  refine (addf_apply _ _ _).trans ?_
  unfold Cert.Spec.lin Cert.Spec.lin0
  refine congrArg₂ (· + ·) ?_ ?_
  · refine (gate_matmul_apply _ rfl rfl rfl rfl rfl rfl none 2 _ _ _ _ (2 : Fin 3) rfl p q).trans ?_
    simp only [shapeCast_self]
  · refine (gate_bias_apply 2 _ _ _ _ _ (2 : Fin 3) rfl p q).trans ?_
    simp only [shapeCast_self]

/-- The reset gate's state-side product. -/
theorem pay12_apply : k1_pay12 x1 x4 (ix2 p q)
    = Cert.Spec.lin0 (fun r k => x1 (ix2 r k)) (fun q k => x4 (ix3 (0 : Fin 3) q k)) p q := by
  unfold k1_pay12 k1_pay4 k1_pay6
  dsimp only
  unfold Cert.Spec.lin0
  refine (gate_matmul_apply _ rfl rfl rfl rfl rfl rfl none 0 _ _ _ _ (0 : Fin 3) rfl p q).trans ?_
  simp only [shapeCast_self]

/-- The update gate's state-side product. -/
theorem hZ_apply :
    matmul dot_S256x2048_S512x2048_S256x512_1_1_0_0_n_n none (k1_pay4 x1)
        (shapeCast S512x2048 (k1_pay13 x4) shapeCasts_S1x512x2048_S512x2048) (constant (F := Ideal) S256x512 .f32 0x00000000#32) (ix2 p q)
      = Cert.Spec.lin0 (fun r k => x1 (ix2 r k)) (fun q k => x4 (ix3 (1 : Fin 3) q k)) p q := by
  unfold k1_pay13 k1_pay4 k1_pay6
  dsimp only
  unfold Cert.Spec.lin0
  refine (gate_matmul_apply _ rfl rfl rfl rfl rfl rfl none 1 _ _ _ _ (1 : Fin 3) rfl p q).trans ?_
  simp only [shapeCast_self]

/-- The candidate's state-side product. -/
theorem hN_apply :
    matmul dot_S256x2048_S512x2048_S256x512_1_1_0_0_n_n none (k1_pay4 x1)
        (shapeCast S512x2048 (extractStridedSlice S1x512x2048 ![2, 0, 0] (k1_pay6 x4) slices_S3x512x2048_o2_0_0_S1x512x2048)
          shapeCasts_S1x512x2048_S512x2048) (constant (F := Ideal) S256x512 .f32 0x00000000#32) (ix2 p q)
      = Cert.Spec.lin0 (fun r k => x1 (ix2 r k)) (fun q k => x4 (ix3 (2 : Fin 3) q k)) p q := by
  unfold k1_pay4 k1_pay6
  dsimp only
  unfold Cert.Spec.lin0
  refine (gate_matmul_apply _ rfl rfl rfl rfl rfl rfl none 2 _ _ _ _ (2 : Fin 3) rfl p q).trans ?_
  simp only [shapeCast_self]

/-- The candidate's bias row spread over the block. -/
theorem bn_apply : broadcastTo S256x512 (k1_pay8 x6) broadcasts_S1x512_S256x512 (ix2 p q) = x6 (ix2 (0 : Fin 1) q) := by
  unfold k1_pay8
  exact Cert.LibKeepdims.row_spread_apply x6 _ _ p q

/-- THE STORED VALUE AT AN ENTRY: the recurrent step of the specification over the seven blocks read by coordinates. -/
theorem pay1_apply :
    k1_pay1 (k1_pay4 x1) (k1_pay6 x4) (k1_pay8 x6) (k1_pay9 x0 x3 x5) (k1_pay10 x0 x3 x5) (k1_pay11 x0 x3 x5)
        (k1_pay12 x1 x4) (k1_pay13 x4) x2 (ix2 p q)
      = Cert.Spec.s2 (fun r k => x0 (ix2 r k)) (fun r k => x1 (ix2 r k)) (fun r q => x2 (ix2 r q))
          (fun g q k => x3 (ix3 g q k)) (fun g q k => x4 (ix3 g q k)) (fun g q => x5 (ix2 g q))
          (fun q => x6 (ix2 (0 : Fin 1) q)) p q :=
  (pay1_pointwise _ _ _ _ _ _ _ _ _ _).trans
    ((cell_congr (pay9_apply x0 x3 x5 p q) (pay10_apply x0 x3 x5 p q) (pay11_apply x0 x3 x5 p q) (pay12_apply x1 x4 p q)
      (hZ_apply x1 x4 p q) (hN_apply x1 x4 p q) (bn_apply x6 p q) rfl).trans rfl)

/-- The rounded copy of the stored value is the stored value: rounding is the identity on the extended reals. -/
theorem pay2_apply :
    k1_pay2 (k1_pay4 x1) (k1_pay6 x4) (k1_pay8 x6) (k1_pay9 x0 x3 x5) (k1_pay10 x0 x3 x5) (k1_pay11 x0 x3 x5)
        (k1_pay12 x1 x4) (k1_pay13 x4) x2 (ix2 p q)
      = Cert.Spec.s2 (fun r k => x0 (ix2 r k)) (fun r k => x1 (ix2 r k)) (fun r q => x2 (ix2 r q))
          (fun g q k => x3 (ix3 g q k)) (fun g q k => x4 (ix3 g q k)) (fun g q => x5 (ix2 g q))
          (fun q => x6 (ix2 (0 : Fin 1) q)) p q :=
  pay1_apply x0 x1 x2 x3 x4 x5 x6 p q

end

end Cert.KerSide.R1

end
-- ==== Proof.Reg1Congr.lean ====
/-
  The recurrent step at an entry (r, q) looks at row r of the hidden layer and of the rounded previous state, at entry
  (r, q) of the previous state, at weight row q and bias q of each gate, and at the candidate's bias q: two sets of
  arrays that agree there give the same value, whatever their sizes and wherever the row and the column sit in each.
-/
import proofs.«133578_j12730283065883_2_alg».proof.Proof.Spec

noncomputable section

open scoped BigOperators

namespace Cert.KerSide.R1

theorem s2_congr {B K N B' N' : ℕ}
    (h pb : Fin B → Fin K → EReal) (p : Fin B → Fin N → EReal) (wih whh : Fin 3 → Fin N → Fin K → EReal)
    (bih : Fin 3 → Fin N → EReal) (bn : Fin N → EReal)
    (h' pb' : Fin B' → Fin K → EReal) (p' : Fin B' → Fin N' → EReal) (wih' whh' : Fin 3 → Fin N' → Fin K → EReal)
    (bih' : Fin 3 → Fin N' → EReal) (bn' : Fin N' → EReal)
    (r : Fin B) (q : Fin N) (r' : Fin B') (q' : Fin N')
    (eh : ∀ k, h r k = h' r' k) (epb : ∀ k, pb r k = pb' r' k) (ep : p r q = p' r' q')
    (ewih : ∀ g k, wih g q k = wih' g q' k) (ewhh : ∀ g k, whh g q k = whh' g q' k)
    (ebih : ∀ g, bih g q = bih' g q') (ebn : bn q = bn' q') :
    Cert.Spec.s2 h pb p wih whh bih bn r q = Cert.Spec.s2 h' pb' p' wih' whh' bih' bn' r' q' := by
  unfold Cert.Spec.s2 Cert.Spec.cand Cert.Spec.lin Cert.Spec.lin0
  simp only [eh, epb, ep, ewih, ewhh, ebih, ebn]

end Cert.KerSide.R1

end
-- ==== Proof.Reg1Blocks.lean ====
/-
  The blocks the recurrent step's region reads at a grid point, as entries of the arrays the region finds.  The grid is
  4 column blocks by 16 row blocks.  At a point whose output block is row block b and column block r: the hidden layer
  and the rounded previous state are read in rows 256 b .. 256 b + 255, all 2048 columns; the previous state in those
  rows and columns 512 r .. 512 r + 511; the gate weight stacks in all three gates, weight rows 512 r .. 512 r + 511,
  all columns; the gate biases and the candidate's bias in entries 512 r .. 512 r + 511.  The relations between the
  index maps are decided once over the 64 points.
-/
import proofs.«133578_j12730283065883_2_alg».proof.Proof.KIface
import Idealize.ShloMosaic.Lib.Pipeline.Value

set_option maxRecDepth 16384

noncomputable section

namespace Cert.KerSide.R1

open Idealize.ShloMosaic Idealize.ShloMosaic.TcCoe Idealize.ShloMosaic.ValueIdx Idealize.SL.Sem Cert.KernelIdeal Cert.KernelIdeal.Gen
open Idealize.ShloMosaic.Pipeline (Dat)

/-- Every input window's block index in terms of the output's: the row block on the row axis, the column block on
    the axis of weight rows, bias entries and previous-state columns, zero elsewhere; both outputs move together; the
    output's block indices stay in range. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = win1_7.index t (1 : Fin 2)
    ∧ win1_3.index t (0 : Fin 3) = 0 ∧ win1_3.index t (1 : Fin 3) = win1_7.index t (1 : Fin 2) ∧ win1_3.index t (2 : Fin 3) = 0
    ∧ win1_4.index t (0 : Fin 3) = 0 ∧ win1_4.index t (1 : Fin 3) = win1_7.index t (1 : Fin 2) ∧ win1_4.index t (2 : Fin 3) = 0
    ∧ win1_5.index t (0 : Fin 2) = 0 ∧ win1_5.index t (1 : Fin 2) = win1_7.index t (1 : Fin 2)
    ∧ win1_6.index t (0 : Fin 2) = 0 ∧ win1_6.index t (1 : Fin 2) = win1_7.index t (1 : Fin 2)
    ∧ win1_8.index t (0 : Fin 2) = win1_7.index t (0 : Fin 2) ∧ win1_8.index t (1 : Fin 2) = win1_7.index t (1 : Fin 2)
    ∧ win1_7.index t (0 : Fin 2) ≤ 15 ∧ win1_7.index t (1 : Fin 2) ≤ 3 :=
  (by decide +kernel : ∀ t : Fin grid1.N, _)

/-- Every (row block, column block) pair is some point's. -/
theorem idx_onto1 : ∀ (b : Fin 16) (r : Fin 4), ∃ t : Fin cfg1.N, win1_7.index t = ![b.val, r.val] :=
  (by decide +kernel : ∀ (b : Fin 16) (r : Fin 4), ∃ t : Fin grid1.N, win1_7.index t = ![b.val, r.val])

section
variable (V : EntryVal) (c : Dev nD) (t : Fin cfg1.N)

/-- The hidden-layer block: row p of the block is row 256 b + p of the array. -/
theorem iblk1_0_apply (p : Fin 256) (k : Fin 2048) (R : Fin 4096) (hR : R.val = win1_7.index t (0 : Fin 2) * 256 + p.val) :
    (iblk1 V c 0 t : Vec Ideal S256x2048 .bf16) (ix2 p k) = V c main_v4 (ix2 R k) := by
  obtain ⟨e0, e1, e2, e3, e4, e5, e6, e7, e8, e9, e10, e11, e12, e13, e14, e15, e16, e17, e18, e19⟩ := idx_facts1 t
  unfold iblk1
  rw [View.read_apply]
  show V c main_v4 _ = V c main_v4 _
  congr 1
  funext a
  apply Fin.ext
  match a with
  | ⟨0, _⟩ => show win1_0.index t (0 : Fin 2) * 256 + 1 * p.val = R.val; omega
  | ⟨1, _⟩ => show win1_0.index t (1 : Fin 2) * 2048 + 1 * k.val = k.val; omega

/-- The rounded previous-state block: the same rows. -/
theorem iblk1_1_apply (p : Fin 256) (k : Fin 2048) (R : Fin 4096) (hR : R.val = win1_7.index t (0 : Fin 2) * 256 + p.val) :
    (iblk1 V c 1 t : Vec Ideal S256x2048 .bf16) (ix2 p k) = V c main_v11 (ix2 R k) := by
  obtain ⟨e0, e1, e2, e3, e4, e5, e6, e7, e8, e9, e10, e11, e12, e13, e14, e15, e16, e17, e18, e19⟩ := idx_facts1 t
  unfold iblk1
  rw [View.read_apply]
  show V c main_v11 _ = V c main_v11 _
  congr 1
  funext a
  apply Fin.ext
  match a with
  | ⟨0, _⟩ => show win1_1.index t (0 : Fin 2) * 256 + 1 * p.val = R.val; omega
  | ⟨1, _⟩ => show win1_1.index t (1 : Fin 2) * 2048 + 1 * k.val = k.val; omega

/-- The previous-state block: entry (p, q) of the block is entry (256 b + p, 512 r + q) of the array. -/
theorem iblk1_2_apply (p : Fin 256) (q : Fin 512) (R : Fin 4096) (C : Fin 2048)
    (hR : R.val = win1_7.index t (0 : Fin 2) * 256 + p.val) (hC : C.val = win1_7.index t (1 : Fin 2) * 512 + q.val) :
    (iblk1 V c 2 t : Vec Ideal S256x512 .f32) (ix2 p q) = V c main_arg2 (ix2 R C) := by
  obtain ⟨e0, e1, e2, e3, e4, e5, e6, e7, e8, e9, e10, e11, e12, e13, e14, e15, e16, e17, e18, e19⟩ := idx_facts1 t
  unfold iblk1
  rw [View.read_apply]
  show V c main_arg2 _ = V c main_arg2 _
  congr 1
  funext a
  apply Fin.ext
  match a with
  | ⟨0, _⟩ => show win1_2.index t (0 : Fin 2) * 256 + 1 * p.val = R.val; omega
  | ⟨1, _⟩ => show win1_2.index t (1 : Fin 2) * 512 + 1 * q.val = C.val; omega

/-- The input-side weight block: gate g's weight row q of the block is gate g's weight row 512 r + q of the array. -/
theorem iblk1_3_apply (g : Fin 3) (q : Fin 512) (k : Fin 2048) (C : Fin 2048)
    (hC : C.val = win1_7.index t (1 : Fin 2) * 512 + q.val) :
    (iblk1 V c 3 t : Vec Ideal S3x512x2048 .bf16) (ix3 g q k) = V c main_v6 (ix3 g C k) := by
  obtain ⟨e0, e1, e2, e3, e4, e5, e6, e7, e8, e9, e10, e11, e12, e13, e14, e15, e16, e17, e18, e19⟩ := idx_facts1 t
  unfold iblk1
  rw [View.read_apply]
  show V c main_v6 _ = V c main_v6 _
  congr 1
  funext a
  apply Fin.ext
  match a with
  | ⟨0, _⟩ => show win1_3.index t (0 : Fin 3) * 3 + 1 * g.val = g.val; omega
  | ⟨1, _⟩ => show win1_3.index t (1 : Fin 3) * 512 + 1 * q.val = C.val; omega
  | ⟨2, _⟩ => show win1_3.index t (2 : Fin 3) * 2048 + 1 * k.val = k.val; omega

/-- The state-side weight block: the same weight rows. -/
theorem iblk1_4_apply (g : Fin 3) (q : Fin 512) (k : Fin 2048) (C : Fin 2048)
    (hC : C.val = win1_7.index t (1 : Fin 2) * 512 + q.val) :
    (iblk1 V c 4 t : Vec Ideal S3x512x2048 .bf16) (ix3 g q k) = V c main_v8 (ix3 g C k) := by
  obtain ⟨e0, e1, e2, e3, e4, e5, e6, e7, e8, e9, e10, e11, e12, e13, e14, e15, e16, e17, e18, e19⟩ := idx_facts1 t
  unfold iblk1
  rw [View.read_apply]
  show V c main_v8 _ = V c main_v8 _
  congr 1
  funext a
  apply Fin.ext
  match a with
  | ⟨0, _⟩ => show win1_4.index t (0 : Fin 3) * 3 + 1 * g.val = g.val; omega
  | ⟨1, _⟩ => show win1_4.index t (1 : Fin 3) * 512 + 1 * q.val = C.val; omega
  | ⟨2, _⟩ => show win1_4.index t (2 : Fin 3) * 2048 + 1 * k.val = k.val; omega

/-- The gate-bias block: gate g's bias q of the block is gate g's bias 512 r + q of the array. -/
theorem iblk1_5_apply (g : Fin 3) (q : Fin 512) (C : Fin 2048) (hC : C.val = win1_7.index t (1 : Fin 2) * 512 + q.val) :
    (iblk1 V c 5 t : Vec Ideal S3x512 .f32) (ix2 g q) = V c main_v9 (ix2 g C) := by
  obtain ⟨e0, e1, e2, e3, e4, e5, e6, e7, e8, e9, e10, e11, e12, e13, e14, e15, e16, e17, e18, e19⟩ := idx_facts1 t
  unfold iblk1
  rw [View.read_apply]
  show V c main_v9 _ = V c main_v9 _
  congr 1
  funext a
  apply Fin.ext
  match a with
  | ⟨0, _⟩ => show win1_5.index t (0 : Fin 2) * 3 + 1 * g.val = g.val; omega
  | ⟨1, _⟩ => show win1_5.index t (1 : Fin 2) * 512 + 1 * q.val = C.val; omega

/-- The candidate's bias block: entry q of the block is entry 512 r + q of the row. -/
theorem iblk1_6_apply (q : Fin 512) (C : Fin 2048) (hC : C.val = win1_7.index t (1 : Fin 2) * 512 + q.val) :
    (iblk1 V c 6 t : Vec Ideal S1x512 .f32) (ix2 (0 : Fin 1) q) = V c main_v10 (ix2 (0 : Fin 1) C) := by
  obtain ⟨e0, e1, e2, e3, e4, e5, e6, e7, e8, e9, e10, e11, e12, e13, e14, e15, e16, e17, e18, e19⟩ := idx_facts1 t
  unfold iblk1
  rw [View.read_apply]
  show V c main_v10 _ = V c main_v10 _
  congr 1
  funext a
  apply Fin.ext
  match a with
  | ⟨0, _⟩ => show win1_6.index t (0 : Fin 2) * 1 + 1 * 0 = 0; omega
  | ⟨1, _⟩ => show win1_6.index t (1 : Fin 2) * 512 + 1 * q.val = C.val; omega

end

end Cert.KerSide.R1

end
-- ==== Proof.Reg1Entry.lean ====
/-
  One entry of the recurrent step's output block, in the arrays' own coordinates.  At a grid point with row block b
  and column block r, the recurrent step of the seven blocks at entry (p, q) is the recurrent step of the seven arrays
  at entry (256 b + p, 512 r + q): the blocks hold exactly the rows, weight rows and bias entries that entry looks at.
-/
import proofs.«133578_j12730283065883_2_alg».proof.Proof.Reg1Congr
import proofs.«133578_j12730283065883_2_alg».proof.Proof.Reg1Blocks

noncomputable section

namespace Cert.KerSide.R1

open Idealize.ShloMosaic Idealize.ShloMosaic.TcCoe Idealize.ShloMosaic.ValueIdx Idealize.SL.Sem Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

theorem entry_eq (V : EntryVal) (c : Dev nD) (t : Fin cfg1.N) (p : Fin 256) (q : Fin 512) (R : Fin 4096) (C : Fin 2048)
    (hR : R.val = win1_7.index t (0 : Fin 2) * 256 + p.val) (hC : C.val = win1_7.index t (1 : Fin 2) * 512 + q.val) :
    Cert.Spec.s2 (fun r k => (iblk1 V c 0 t : Vec Ideal S256x2048 .bf16) (ix2 r k))
        (fun r k => (iblk1 V c 1 t : Vec Ideal S256x2048 .bf16) (ix2 r k))
        (fun r q => (iblk1 V c 2 t : Vec Ideal S256x512 .f32) (ix2 r q))
        (fun g q k => (iblk1 V c 3 t : Vec Ideal S3x512x2048 .bf16) (ix3 g q k))
        (fun g q k => (iblk1 V c 4 t : Vec Ideal S3x512x2048 .bf16) (ix3 g q k))
        (fun g q => (iblk1 V c 5 t : Vec Ideal S3x512 .f32) (ix2 g q))
        (fun q => (iblk1 V c 6 t : Vec Ideal S1x512 .f32) (ix2 (0 : Fin 1) q)) p q
      = g1 V c R C := by
  unfold g1
  exact s2_congr _ _ _ _ _ _ _ _ _ _ _ _ _ _ p q R C (fun k => iblk1_0_apply V c t p k R hR)
    (fun k => iblk1_1_apply V c t p k R hR) (iblk1_2_apply V c t p q R C hR hC)
    (fun g k => iblk1_3_apply V c t g q k C hC) (fun g k => iblk1_4_apply V c t g q k C hC)
    (fun g => iblk1_5_apply V c t g q C hC) (iblk1_6_apply V c t q C hC)

end Cert.KerSide.R1

end
-- ==== Proof.Reg1Out7.lean ====
/-
  The new state of the recurrent step, block by block and then whole.  What a grid point writes back to this output is
  the recurrent step of the arrays the region finds, read through the point's block: block (b, r) of the [4096, 2048]
  result.  The 16 by 4 blocks of 256 rows and 512 columns cover the array: entry (i, j) lies in block (i / 256, j / 512).
-/
import proofs.«133578_j12730283065883_2_alg».proof.Proof.Reg1Pay
import proofs.«133578_j12730283065883_2_alg».proof.Proof.Reg1Entry

set_option maxRecDepth 16384

noncomputable section

namespace Cert.KerSide.R1

open Idealize.ShloMosaic Idealize.ShloMosaic.TcCoe Idealize.ShloMosaic.ValueIdx Idealize.SL.Sem Cert.KernelIdeal Cert.KernelIdeal.Gen
open Idealize.ShloMosaic.Pipeline (Dat)

/-- What point t writes back is block t of the recurrent step of the entry arrays. -/
theorem flushed7_eq (V : EntryVal) (c : Dev nD) (t : Fin cfg1.N) :
    (dat1 (F := Ideal) V c).flushed 7 t = ((cfg1.win 7).blk t).view.read (Elt Ideal) (Cert.Spec.of2 (g1 V c)) := by
  show (cfg1.win 7).cut (grid1.coords t) ((dat1 V c).after 7 t) = _
  rw [after1_7]
  unfold out1_7
  rw [View.canon_unit_zero hz2]
  simp only [View.ld_unit_zero (S := S256x2048) hz2, View.ld_unit_zero (S := S3x512x2048) hz3,
    View.ld_unit_zero (S := S3x512) hz2, View.ld_unit_zero (S := S1x512) hz2, View.ld_unit_zero (S := S256x512) hz2]
  refine Cert.Spec.ext2 (a := 256) (b := 512) fun p q => ?_
  obtain ⟨e0, e1, e2, e3, e4, e5, e6, e7, e8, e9, e10, e11, e12, e13, e14, e15, e16, e17, e18, e19⟩ := idx_facts1 t
  obtain ⟨R, C, hRC⟩ : ∃ (R : Fin 4096) (C : Fin 2048),
      (((cfg1.win 7).blk t).view.emb (ix2 p q) : S4096x2048.Idx) = ix2 R C := ⟨_, _, eq_ix2 _⟩
  have hR : win1_7.index t (0 : Fin 2) * 256 + 1 * p.val = R.val := congrArg (fun i : S4096x2048.Idx => (i 0).val) hRC
  have hC : win1_7.index t (1 : Fin 2) * 512 + 1 * q.val = C.val := congrArg (fun i : S4096x2048.Idx => (i 1).val) hRC
  refine (pay1_apply (iblk1 V c 0 t) (iblk1 V c 1 t) (iblk1 V c 2 t) (iblk1 V c 3 t) (iblk1 V c 4 t) (iblk1 V c 5 t)
    (iblk1 V c 6 t) p q).trans ?_
  refine (entry_eq V c t p q R C (by omega) (by omega)).trans ?_
  exact (Cert.Spec.of2_ix2 (g1 V c) R C).symm.trans (congrArg (Cert.Spec.of2 (g1 V c)) hRC).symm

/-- An entry of the array is in point t's block iff each coordinate is in the block's range on its axis. -/
theorem mem_blk7 (t : Fin cfg1.N) (i : S4096x2048.Idx) :
    i ∈ ((cfg1.win 7).blk t).view.set ↔ ∀ a : Fin 2, win1_7.index t a * S256x512.size a ≤ (i a).val
      ∧ (i a).val < win1_7.index t a * S256x512.size a + S256x512.size a := by
  show i ∈ ((View.whole main_v12_0).slice (win1_7.rect t)).set ↔ _
  rw [View.set_slice_whole, Rect.mem_set_unit]
  exact Iff.rfl

/-- Every entry of the array is in some point's block. -/
theorem cover7 (i : S4096x2048.Idx) :
    ∃ t : Fin cfg1.N, (cfg1.win 7).flush t = true ∧ i ∈ ((cfg1.win 7).blk t).view.set := by
  have hi0 : (i 0).val < 4096 := (i 0).isLt
  have hi1 : (i 1).val < 2048 := (i 1).isLt
  obtain ⟨t, ht⟩ := idx_onto1 ⟨(i 0).val / 256, by omega⟩ ⟨(i 1).val / 512, by omega⟩
  have q0 : win1_7.index t (0 : Fin 2) = (i 0).val / 256 := congrFun ht 0
  have q1 : win1_7.index t (1 : Fin 2) = (i 1).val / 512 := congrFun ht 1
  obtain ⟨e0, e1, e2, e3, e4, e5, e6, e7, e8, e9, e10, e11, e12, e13, e14, e15, e16, e17, e18, e19⟩ := idx_facts1 t
  refine ⟨t, flush1_7 t, ?_⟩
  rw [mem_blk7]
  intro a
  match a with
  | ⟨0, _⟩ =>
    show win1_7.index t (0 : Fin 2) * 256 ≤ (i 0).val ∧ (i 0).val < win1_7.index t (0 : Fin 2) * 256 + 256
    omega
  | ⟨1, _⟩ =>
    show win1_7.index t (1 : Fin 2) * 512 ≤ (i 1).val ∧ (i 1).val < win1_7.index t (1 : Fin 2) * 512 + 512
    omega

end Cert.KerSide.R1

end
-- ==== Proof.Reg1Out8.lean ====
/-
  The rounded copy of the new state of the recurrent step, block by block and then whole.  What a grid point writes back to this output is
  the recurrent step of the arrays the region finds, read through the point's block: block (b, r) of the [4096, 2048]
  result.  The 16 by 4 blocks of 256 rows and 512 columns cover the array: entry (i, j) lies in block (i / 256, j / 512).
-/
import proofs.«133578_j12730283065883_2_alg».proof.Proof.Reg1Pay
import proofs.«133578_j12730283065883_2_alg».proof.Proof.Reg1Entry

set_option maxRecDepth 16384

noncomputable section

namespace Cert.KerSide.R1

open Idealize.ShloMosaic Idealize.ShloMosaic.TcCoe Idealize.ShloMosaic.ValueIdx Idealize.SL.Sem Cert.KernelIdeal Cert.KernelIdeal.Gen
open Idealize.ShloMosaic.Pipeline (Dat)

/-- What point t writes back is block t of the recurrent step of the entry arrays. -/
theorem flushed8_eq (V : EntryVal) (c : Dev nD) (t : Fin cfg1.N) :
    (dat1 (F := Ideal) V c).flushed 8 t = ((cfg1.win 8).blk t).view.read (Elt Ideal) (Cert.Spec.of2 (g1 V c)) := by
  show (cfg1.win 8).cut (grid1.coords t) ((dat1 V c).after 8 t) = _
  rw [after1_8]
  unfold out1_8
  rw [View.canon_unit_zero hz2]
  simp only [View.ld_unit_zero (S := S256x2048) hz2, View.ld_unit_zero (S := S3x512x2048) hz3,
    View.ld_unit_zero (S := S3x512) hz2, View.ld_unit_zero (S := S1x512) hz2, View.ld_unit_zero (S := S256x512) hz2]
  refine Cert.Spec.ext2 (a := 256) (b := 512) fun p q => ?_
  obtain ⟨e0, e1, e2, e3, e4, e5, e6, e7, e8, e9, e10, e11, e12, e13, e14, e15, e16, e17, e18, e19⟩ := idx_facts1 t
  obtain ⟨R, C, hRC⟩ : ∃ (R : Fin 4096) (C : Fin 2048),
      (((cfg1.win 8).blk t).view.emb (ix2 p q) : S4096x2048.Idx) = ix2 R C := ⟨_, _, eq_ix2 _⟩
  have hR : win1_8.index t (0 : Fin 2) * 256 + 1 * p.val = R.val := congrArg (fun i : S4096x2048.Idx => (i 0).val) hRC
  have hC : win1_8.index t (1 : Fin 2) * 512 + 1 * q.val = C.val := congrArg (fun i : S4096x2048.Idx => (i 1).val) hRC
  refine (pay2_apply (iblk1 V c 0 t) (iblk1 V c 1 t) (iblk1 V c 2 t) (iblk1 V c 3 t) (iblk1 V c 4 t) (iblk1 V c 5 t)
    (iblk1 V c 6 t) p q).trans ?_
  refine (entry_eq V c t p q R C (by omega) (by omega)).trans ?_
  exact (Cert.Spec.of2_ix2 (g1 V c) R C).symm.trans (congrArg (Cert.Spec.of2 (g1 V c)) hRC).symm

/-- An entry of the array is in point t's block iff each coordinate is in the block's range on its axis. -/
theorem mem_blk8 (t : Fin cfg1.N) (i : S4096x2048.Idx) :
    i ∈ ((cfg1.win 8).blk t).view.set ↔ ∀ a : Fin 2, win1_8.index t a * S256x512.size a ≤ (i a).val
      ∧ (i a).val < win1_8.index t a * S256x512.size a + S256x512.size a := by
  show i ∈ ((View.whole main_v12_1).slice (win1_8.rect t)).set ↔ _
  rw [View.set_slice_whole, Rect.mem_set_unit]
  exact Iff.rfl

/-- Every entry of the array is in some point's block. -/
theorem cover8 (i : S4096x2048.Idx) :
    ∃ t : Fin cfg1.N, (cfg1.win 8).flush t = true ∧ i ∈ ((cfg1.win 8).blk t).view.set := by
  have hi0 : (i 0).val < 4096 := (i 0).isLt
  have hi1 : (i 1).val < 2048 := (i 1).isLt
  obtain ⟨t, ht⟩ := idx_onto1 ⟨(i 0).val / 256, by omega⟩ ⟨(i 1).val / 512, by omega⟩
  have q0 : win1_7.index t (0 : Fin 2) = (i 0).val / 256 := congrFun ht 0
  have q1 : win1_7.index t (1 : Fin 2) = (i 1).val / 512 := congrFun ht 1
  obtain ⟨e0, e1, e2, e3, e4, e5, e6, e7, e8, e9, e10, e11, e12, e13, e14, e15, e16, e17, e18, e19⟩ := idx_facts1 t
  refine ⟨t, flush1_8 t, ?_⟩
  rw [mem_blk8]
  intro a
  match a with
  | ⟨0, _⟩ =>
    show win1_8.index t (0 : Fin 2) * 256 ≤ (i 0).val ∧ (i 0).val < win1_8.index t (0 : Fin 2) * 256 + 256
    omega
  | ⟨1, _⟩ =>
    show win1_8.index t (1 : Fin 2) * 512 ≤ (i 1).val ∧ (i 1).val < win1_8.index t (1 : Fin 2) * 512 + 512
    omega

end Cert.KerSide.R1

end
-- ==== Proof.Reg1.lean ====
/-
  The recurrent step's region, whole: after the region both of its output arrays -- the new state and its rounded
  copy, which on the extended reals is the same array -- hold the recurrent step of the arrays the region found when it
  was entered.  Every grid point writes back its block of that result, and the blocks cover the arrays.
-/
import proofs.«133578_j12730283065883_2_alg».proof.Proof.Reg1Out7
import proofs.«133578_j12730283065883_2_alg».proof.Proof.Reg1Out8

noncomputable section

namespace Cert.KerSide

open Idealize.ShloMosaic Idealize.ShloMosaic.TcCoe Idealize.ShloMosaic.ValueIdx Idealize.SL.Sem Cert.KernelIdeal Cert.KernelIdeal.Gen
open Idealize.ShloMosaic.Pipeline (Dat)

/-- The new state after the region. -/
theorem final1_7 (V : EntryVal) (c : Dev nD) : (dat1 (F := Ideal) V c).arrAt 7 cfg1.N = Cert.Spec.of2 (g1 V c) :=
  (dat1 (F := Ideal) V c).arrAt_eq_of_cover 7 (Cert.Spec.of2 (g1 V c)) (fun t _ => R1.flushed7_eq V c t) R1.cover7

/-- The rounded copy of the new state after the region. -/
theorem final1_8 (V : EntryVal) (c : Dev nD) : (dat1 (F := Ideal) V c).arrAt 8 cfg1.N = Cert.Spec.of2 (g1 V c) :=
  (dat1 (F := Ideal) V c).arrAt_eq_of_cover 8 (Cert.Spec.of2 (g1 V c)) (fun t _ => R1.flushed8_eq V c t) R1.cover8

end Cert.KerSide

end
-- ==== Proof.Reg2Pay.lean ====
/-
  Region 2's stored values at an entry.  The body computes, for a block of 256 rows of the new state, the
  exponential-linear dense layer and then the last dense layer of 2048 outputs; the mean is columns 0 ... 1023 of that,
  the deviation is softplus plus the offset of columns 1024 ... 2047, and the sample is mean + deviation * noise.
  Rounding to the narrower format is the identity on the extended reals.
-/
import proofs.«133578_j12730283065883_2_alg».proof.Proof.KIface
import proofs.«133578_j12730283065883_2_alg».proof.Proof.LibDotsNT
import proofs.«133578_j12730283065883_2_alg».proof.Proof.LibKeepdims
import Idealize.ShloMosaic.Lib.ValueLayout

noncomputable section

open scoped BigOperators

namespace Cert.KerSide.R2

open Idealize.ShloMosaic Idealize.ShloMosaic.TcCoe Idealize.ShloMosaic.ValueIdx Idealize.SL.Sem Cert.KernelIdeal Cert.KernelIdeal.Gen

/-- A dense layer of a block of 256 rows as the body computes it: the product with the weight rows into the zero
    accumulator, plus the bias row spread over the rows. -/
def denseBlock (h : FVec Ideal S256x2048 .bf16) (w : FVec Ideal S2048x2048 .bf16) (b : FVec Ideal S1x2048 .f32) :
    FVec Ideal S256x2048 .f32 :=
  addf (matmul dot_S256x2048_S2048x2048_S256x2048_1_1_0_0_n_n none h
      (shapeCast S2048x2048 w shapeCasts_S2048x2048_S2048x2048) (constant (F := Ideal) S256x2048 .f32 0x00000000#32))
    (broadcastTo S256x2048 (shapeCast S1x2048 b shapeCasts_S1x2048_S1x2048) broadcasts_S1x2048_S256x2048)

/-- The exponential linear unit of a block as the body computes it, rounded to the narrower format. -/
def eluBlock (v : FVec Ideal S256x2048 .f32) : FVec Ideal S256x2048 .bf16 :=
  truncf .bf16
    (select (cmpf .ogt v (broadcast S256x2048 (Scalar.ofBits (F := Ideal) .f32 0x00000000#32))) v
      (subf (exp (minimumf v (broadcast S256x2048 (Scalar.ofBits (F := Ideal) .f32 0x00000000#32))))
        (broadcast S256x2048 (Scalar.ofBits (F := Ideal) .f32 0x3F800000#32))))
    bitsLt_bf16_f32

/-- The last layer's block is the dense layer of the exponential-linear dense layer. -/
theorem pay2_eq (x0 : FVec Ideal S256x2048 .bf16) (x2 : FVec Ideal S2048x2048 .bf16) (x3 : FVec Ideal S1x2048 .f32)
    (x4 : FVec Ideal S2048x2048 .bf16) (x5 : FVec Ideal S1x2048 .f32) :
    k2_pay2 (F := Ideal) x0 x2 x3 x4 x5
      = denseBlock (eluBlock (denseBlock (shapeCast S256x2048 x0 shapeCasts_S256x2048_S256x2048) x2 x3)) x4 x5 := rfl

theorem denseBlock_apply (h : FVec Ideal S256x2048 .bf16) (w : FVec Ideal S2048x2048 .bf16) (b : FVec Ideal S1x2048 .f32)
    (p : Fin 256) (q : Fin 2048) :
    denseBlock h w b (ix2 p q)
      = Cert.Spec.lin (fun r k => h (ix2 r k)) (fun n k => w (ix2 n k)) (fun n => b (ix2 (0 : Fin 1) n)) p q := by
  have hmm : matmul dot_S256x2048_S2048x2048_S256x2048_1_1_0_0_n_n none h
      (shapeCast S2048x2048 w shapeCasts_S2048x2048_S2048x2048) (constant (F := Ideal) S256x2048 .f32 0x00000000#32) (ix2 p q)
      = ∑ k : Fin 2048, h (ix2 p k) * w (ix2 q k) := by
    rw [shapeCast_self]
    exact Cert.LibDotsNT.nt_matmul_zero_apply dot_S256x2048_S2048x2048_S256x2048_1_1_0_0_n_n rfl rfl rfl rfl rfl rfl none h w p q
  have hb : broadcastTo S256x2048 (shapeCast S1x2048 b shapeCasts_S1x2048_S1x2048) broadcasts_S1x2048_S256x2048 (ix2 p q)
      = b (ix2 (0 : Fin 1) q) :=
    Cert.LibKeepdims.row_spread_apply b shapeCasts_S1x2048_S1x2048 broadcasts_S1x2048_S256x2048 p q
  show _ + _ = _ + _
  exact congrArg₂ (· + ·) hmm hb

theorem eluBlock_apply (v : FVec Ideal S256x2048 .f32) (i : S256x2048.Idx) : eluBlock v i = Cert.Spec.eluK (v i) := rfl

/-- Entry (p, q) of the last layer's block, q over all 2048 outputs. -/
theorem pay2_apply (x0 : FVec Ideal S256x2048 .bf16) (x2 : FVec Ideal S2048x2048 .bf16) (x3 : FVec Ideal S1x2048 .f32)
    (x4 : FVec Ideal S2048x2048 .bf16) (x5 : FVec Ideal S1x2048 .f32) (p : Fin 256) (q : Fin 2048) :
    k2_pay2 (F := Ideal) x0 x2 x3 x4 x5 (ix2 p q)
      = Cert.Spec.out (fun r k => x0 (ix2 r k)) (fun n k => x2 (ix2 n k)) (fun n => x3 (ix2 (0 : Fin 1) n))
          (fun n k => x4 (ix2 n k)) (fun n => x5 (ix2 (0 : Fin 1) n)) p q := by
  rw [pay2_eq, shapeCast_self]
  refine (denseBlock_apply _ x4 x5 p q).trans ?_
  unfold Cert.Spec.out
  refine congrArg (fun f => Cert.Spec.lin f (fun n k => x4 (ix2 n k)) (fun n => x5 (ix2 (0 : Fin 1) n)) p q)
    (funext fun r => funext fun k => ?_)
  exact (eluBlock_apply _ _).trans (congrArg Cert.Spec.eluK (denseBlock_apply x0 x2 x3 r k))

/-- The mean's block: columns 0 ... 1023 of the last layer's block. -/
theorem pay3_apply (x0 : FVec Ideal S256x2048 .bf16) (x2 : FVec Ideal S2048x2048 .bf16) (x3 : FVec Ideal S1x2048 .f32)
    (x4 : FVec Ideal S2048x2048 .bf16) (x5 : FVec Ideal S1x2048 .f32) (p : Fin 256) (q : Fin 1024) :
    k2_pay3 (F := Ideal) x0 x2 x3 x4 x5 (ix2 p q)
      = Cert.Spec.out (fun r k => x0 (ix2 r k)) (fun n k => x2 (ix2 n k)) (fun n => x3 (ix2 (0 : Fin 1) n))
          (fun n k => x4 (ix2 n k)) (fun n => x5 (ix2 (0 : Fin 1) n)) p (Cert.Top.lo q) := by
  unfold k2_pay3
  refine (slice2_axis1_apply 0 (k2_pay2 (F := Ideal) x0 x2 x3 x4 x5) slices_S256x2048_o0_0_S256x1024 p q (Cert.Top.lo q) ?_).trans
    (pay2_apply x0 x2 x3 x4 x5 p (Cert.Top.lo q))
  show q.val = 0 + q.val
  omega

/-- The deviation's block: softplus plus the offset of columns 1024 ... 2047 of the last layer's block. -/
theorem pay4_apply (x0 : FVec Ideal S256x2048 .bf16) (x2 : FVec Ideal S2048x2048 .bf16) (x3 : FVec Ideal S1x2048 .f32)
    (x4 : FVec Ideal S2048x2048 .bf16) (x5 : FVec Ideal S1x2048 .f32) (p : Fin 256) (q : Fin 1024) :
    k2_pay4 (F := Ideal) x0 x2 x3 x4 x5 (ix2 p q)
      = Cert.Spec.dev (Cert.Spec.out (fun r k => x0 (ix2 r k)) (fun n k => x2 (ix2 n k)) (fun n => x3 (ix2 (0 : Fin 1) n))
          (fun n k => x4 (ix2 n k)) (fun n => x5 (ix2 (0 : Fin 1) n)) p (Cert.Top.hi q)) := by
  have hs : extractStridedSlice S256x1024 ![0, 1024] (k2_pay2 (F := Ideal) x0 x2 x3 x4 x5) slices_S256x2048_o0_1024_S256x1024 (ix2 p q)
      = Cert.Spec.out (fun r k => x0 (ix2 r k)) (fun n k => x2 (ix2 n k)) (fun n => x3 (ix2 (0 : Fin 1) n))
          (fun n k => x4 (ix2 n k)) (fun n => x5 (ix2 (0 : Fin 1) n)) p (Cert.Top.hi q) :=
    (slice2_axis1_apply 1024 (k2_pay2 (F := Ideal) x0 x2 x3 x4 x5) slices_S256x2048_o0_1024_S256x1024 p q (Cert.Top.hi q) rfl).trans
      (pay2_apply x0 x2 x3 x4 x5 p (Cert.Top.hi q))
  unfold k2_pay4
  show Cert.Spec.dev (extractStridedSlice S256x1024 ![0, 1024] (k2_pay2 (F := Ideal) x0 x2 x3 x4 x5) slices_S256x2048_o0_1024_S256x1024 (ix2 p q)) = _
  exact congrArg Cert.Spec.dev hs

/-- The sample's block: mean + deviation * noise, entry by entry. -/
theorem pay1_apply (m s e : FVec Ideal S256x1024 .f32) (i : S256x1024.Idx) :
    k2_pay1 (F := Ideal) m s e i = Cert.Spec.smp (m i) (s i) (e i) := rfl

end Cert.KerSide.R2

end
-- ==== Proof.Reg2Blocks.lean ====
/-
  Region 2's blocks as parts of the arrays the region finds.  Grid point t works on rows 256 t ... 256 t + 255: the
  block of the new state and the block of the noise hold those rows of their arrays, the two weight arrays and the two
  bias rows are whole, and each of the three output blocks is written back to the same rows.  From this, the last
  layer computed from the blocks at row p of the block is the last layer of the arrays at row 256 t + p; and the
  sixteen blocks cover the 4096 rows of each output array.
-/
import proofs.«133578_j12730283065883_2_alg».proof.Proof.KIface
import Idealize.ShloMosaic.Lib.Pipeline.Value

noncomputable section

open scoped BigOperators

namespace Cert.KerSide.R2

open Idealize.ShloMosaic Idealize.ShloMosaic.TcCoe Idealize.ShloMosaic.ValueIdx Idealize.SL.Sem Cert.KernelIdeal Cert.KernelIdeal.Gen

open Idealize.ShloMosaic.Pipeline (Dat)

theorem zeroOffsets2 : (![0, 0] : Fin 2 → Nat) = fun _ => 0 := funext fun a => by fin_cases a <;> rfl

/-- Stage 1 at an entry depends only on the input's row, the weight's row and the bias entry it reads. -/
theorem s1_congr {B B' K N N' : ℕ} {x : Fin B → Fin K → EReal} {x' : Fin B' → Fin K → EReal}
    {w : Fin N → Fin K → EReal} {w' : Fin N' → Fin K → EReal} {b : Fin N → EReal} {b' : Fin N' → EReal}
    {r : Fin B} {r' : Fin B'} {q : Fin N} {q' : Fin N'}
    (hx : ∀ k, x r k = x' r' k) (hw : ∀ k, w q k = w' q' k) (hb : b q = b' q') :
    Cert.Spec.s1 x w b r q = Cert.Spec.s1 x' w' b' r' q' := by
  unfold Cert.Spec.s1 Cert.Spec.lin Cert.Spec.lin0
  rw [hb]
  exact congrArg (fun s => Cert.Spec.eluK (s + b' q')) (Finset.sum_congr rfl fun k _ => by rw [hx, hw])

/-- The last layer at an entry depends only on the state's row it reads (and on the weights and biases). -/
theorem out_congr {B B' K H M : ℕ} {nrh : Fin B → Fin K → EReal} {nrh' : Fin B' → Fin K → EReal}
    {wh wh' : Fin H → Fin K → EReal} {bh bh' : Fin H → EReal} {wo wo' : Fin M → Fin H → EReal} {bo bo' : Fin M → EReal}
    {r : Fin B} {r' : Fin B'} (q : Fin M)
    (hx : ∀ k, nrh r k = nrh' r' k) (hwh : ∀ n k, wh n k = wh' n k) (hbh : ∀ n, bh n = bh' n)
    (hwo : ∀ k, wo q k = wo' q k) (hbo : bo q = bo' q) :
    Cert.Spec.out nrh wh bh wo bo r q = Cert.Spec.out nrh' wh' bh' wo' bo' r' q := by
  unfold Cert.Spec.out Cert.Spec.lin Cert.Spec.lin0
  rw [hbo]
  exact congrArg (fun s => s + bo' q)
    (Finset.sum_congr rfl fun k _ => by rw [hwo, s1_congr hx (hwh k) (hbh k)])

/-! ## The block index maps over the sixteen points -/

theorem blockIndex2_0 : ∀ t : Fin cfg2.N, win2_0.index t (0 : Fin 2) = t.val ∧ win2_0.index t (1 : Fin 2) = 0 :=
  (by decide +kernel : ∀ t : Fin grid2.N, _)
theorem blockIndex2_1 : ∀ t : Fin cfg2.N, win2_1.index t (0 : Fin 2) = t.val ∧ win2_1.index t (1 : Fin 2) = 0 :=
  (by decide +kernel : ∀ t : Fin grid2.N, _)
theorem blockIndex2_2 : ∀ t : Fin cfg2.N, win2_2.index t (0 : Fin 2) = 0 ∧ win2_2.index t (1 : Fin 2) = 0 :=
  (by decide +kernel : ∀ t : Fin grid2.N, _)
theorem blockIndex2_3 : ∀ t : Fin cfg2.N, win2_3.index t (0 : Fin 2) = 0 ∧ win2_3.index t (1 : Fin 2) = 0 :=
  (by decide +kernel : ∀ t : Fin grid2.N, _)
theorem blockIndex2_4 : ∀ t : Fin cfg2.N, win2_4.index t (0 : Fin 2) = 0 ∧ win2_4.index t (1 : Fin 2) = 0 :=
  (by decide +kernel : ∀ t : Fin grid2.N, _)
theorem blockIndex2_5 : ∀ t : Fin cfg2.N, win2_5.index t (0 : Fin 2) = 0 ∧ win2_5.index t (1 : Fin 2) = 0 :=
  (by decide +kernel : ∀ t : Fin grid2.N, _)
theorem blockIndex2_6 : ∀ t : Fin cfg2.N, win2_6.index t (0 : Fin 2) = t.val ∧ win2_6.index t (1 : Fin 2) = 0 :=
  (by decide +kernel : ∀ t : Fin grid2.N, _)
theorem blockIndex2_7 : ∀ t : Fin cfg2.N, win2_7.index t (0 : Fin 2) = t.val ∧ win2_7.index t (1 : Fin 2) = 0 :=
  (by decide +kernel : ∀ t : Fin grid2.N, _)
theorem blockIndex2_8 : ∀ t : Fin cfg2.N, win2_8.index t (0 : Fin 2) = t.val ∧ win2_8.index t (1 : Fin 2) = 0 :=
  (by decide +kernel : ∀ t : Fin grid2.N, _)

/-! ## The input blocks -/

section
variable (V : EntryVal) (c : Dev nD)

/-- The state's block at point t holds rows 256 t ... of the state. -/
theorem stateBlock (t : Fin cfg2.N) (p : Fin 256) (k : Fin 2048) (r : Fin 4096) (hr : r.val = t.val * 256 + p.val) :
    (iblk2 V c 0 t : FVec Ideal S256x2048 .bf16) (ix2 p k) = V c main_v12_1 (ix2 r k) := by
  obtain ⟨e0, e1⟩ := blockIndex2_0 t
  show V c main_v12_1 (((cfg2.win 0).blk t).view.emb (ix2 p k)) = V c main_v12_1 (ix2 r k)
  refine congrArg (V c main_v12_1) (funext fun a => Fin.ext ?_)
  match a with
  | ⟨0, _⟩ => show win2_0.index t (0 : Fin 2) * 256 + 1 * p.val = r.val; omega
  | ⟨1, _⟩ => show win2_0.index t (1 : Fin 2) * 2048 + 1 * k.val = k.val; omega

/-- The noise's block at point t holds rows 256 t ... of the noise. -/
theorem noiseBlock (t : Fin cfg2.N) (p : Fin 256) (q : Fin 1024) (r : Fin 4096) (hr : r.val = t.val * 256 + p.val) :
    (iblk2 V c 1 t : FVec Ideal S256x1024 .f32) (ix2 p q) = V c main_arg3 (ix2 r q) := by
  obtain ⟨e0, e1⟩ := blockIndex2_1 t
  show V c main_arg3 (((cfg2.win 1).blk t).view.emb (ix2 p q)) = V c main_arg3 (ix2 r q)
  refine congrArg (V c main_arg3) (funext fun a => Fin.ext ?_)
  match a with
  | ⟨0, _⟩ => show win2_1.index t (0 : Fin 2) * 256 + 1 * p.val = r.val; omega
  | ⟨1, _⟩ => show win2_1.index t (1 : Fin 2) * 1024 + 1 * q.val = q.val; omega

/-- The first weight block is the whole first weight array. -/
theorem wholeBlock2_2 (t : Fin cfg2.N) (n : Fin 2048) (k : Fin 2048) :
    (iblk2 V c 2 t : FVec Ideal S2048x2048 .bf16) (ix2 n k) = V c main_v13 (ix2 n k) := by
  obtain ⟨e0, e1⟩ := blockIndex2_2 t
  show V c main_v13 (((cfg2.win 2).blk t).view.emb (ix2 n k)) = V c main_v13 (ix2 n k)
  refine congrArg (V c main_v13) (funext fun a => Fin.ext ?_)
  match a with
  | ⟨0, _⟩ => show win2_2.index t (0 : Fin 2) * 2048 + 1 * n.val = n.val; omega
  | ⟨1, _⟩ => show win2_2.index t (1 : Fin 2) * 2048 + 1 * k.val = k.val; omega

/-- The first bias block is the whole first bias row. -/
theorem wholeBlock2_3 (t : Fin cfg2.N) (n : Fin 2048) :
    (iblk2 V c 3 t : FVec Ideal S1x2048 .f32) (ix2 (0 : Fin 1) n) = V c main_v14 (ix2 (0 : Fin 1) n) := by
  obtain ⟨e0, e1⟩ := blockIndex2_3 t
  show V c main_v14 (((cfg2.win 3).blk t).view.emb (ix2 (0 : Fin 1) n)) = V c main_v14 (ix2 (0 : Fin 1) n)
  refine congrArg (V c main_v14) (funext fun a => Fin.ext ?_)
  match a with
  | ⟨0, _⟩ => show win2_3.index t (0 : Fin 2) * 1 + 1 * 0 = 0; omega
  | ⟨1, _⟩ => show win2_3.index t (1 : Fin 2) * 2048 + 1 * n.val = n.val; omega

/-- The second weight block is the whole second weight array. -/
theorem wholeBlock2_4 (t : Fin cfg2.N) (n : Fin 2048) (k : Fin 2048) :
    (iblk2 V c 4 t : FVec Ideal S2048x2048 .bf16) (ix2 n k) = V c main_v15 (ix2 n k) := by
  obtain ⟨e0, e1⟩ := blockIndex2_4 t
  show V c main_v15 (((cfg2.win 4).blk t).view.emb (ix2 n k)) = V c main_v15 (ix2 n k)
  refine congrArg (V c main_v15) (funext fun a => Fin.ext ?_)
  match a with
  | ⟨0, _⟩ => show win2_4.index t (0 : Fin 2) * 2048 + 1 * n.val = n.val; omega
  | ⟨1, _⟩ => show win2_4.index t (1 : Fin 2) * 2048 + 1 * k.val = k.val; omega

/-- The second bias block is the whole second bias row. -/
theorem wholeBlock2_5 (t : Fin cfg2.N) (n : Fin 2048) :
    (iblk2 V c 5 t : FVec Ideal S1x2048 .f32) (ix2 (0 : Fin 1) n) = V c main_v16 (ix2 (0 : Fin 1) n) := by
  obtain ⟨e0, e1⟩ := blockIndex2_5 t
  show V c main_v16 (((cfg2.win 5).blk t).view.emb (ix2 (0 : Fin 1) n)) = V c main_v16 (ix2 (0 : Fin 1) n)
  refine congrArg (V c main_v16) (funext fun a => Fin.ext ?_)
  match a with
  | ⟨0, _⟩ => show win2_5.index t (0 : Fin 2) * 1 + 1 * 0 = 0; omega
  | ⟨1, _⟩ => show win2_5.index t (1 : Fin 2) * 2048 + 1 * n.val = n.val; omega

/-- The last layer of the blocks at row p of the block is the last layer of the arrays at row 256 t + p. -/
theorem outBlock (t : Fin cfg2.N) (p : Fin 256) (r : Fin 4096) (hr : r.val = t.val * 256 + p.val) (n : Fin 2048) :
    Cert.Spec.out (fun r k => (iblk2 V c 0 t : FVec Ideal S256x2048 .bf16) (ix2 r k))
        (fun n k => (iblk2 V c 2 t : FVec Ideal S2048x2048 .bf16) (ix2 n k))
        (fun n => (iblk2 V c 3 t : FVec Ideal S1x2048 .f32) (ix2 (0 : Fin 1) n))
        (fun n k => (iblk2 V c 4 t : FVec Ideal S2048x2048 .bf16) (ix2 n k))
        (fun n => (iblk2 V c 5 t : FVec Ideal S1x2048 .f32) (ix2 (0 : Fin 1) n)) p n
      = o2 V c r n := by
  unfold o2
  exact out_congr n (fun k => stateBlock V c t p k r hr) (fun n k => wholeBlock2_2 V c t n k) (fun n => wholeBlock2_3 V c t n)
    (fun k => wholeBlock2_4 V c t n k) (wholeBlock2_5 V c t n)

/-- The mean computed from the blocks, at an entry of the output array whose row is 256 t + p and whose column is q. -/
theorem meanEntry (t : Fin cfg2.N) (p : Fin 256) (q : Fin 1024) (j : S4096x1024.Idx)
    (hj0 : (j 0).val = t.val * 256 + p.val) (hj1 : (j 1).val = q.val) :
    Cert.Spec.out (fun r k => (iblk2 V c 0 t : FVec Ideal S256x2048 .bf16) (ix2 r k))
        (fun n k => (iblk2 V c 2 t : FVec Ideal S2048x2048 .bf16) (ix2 n k))
        (fun n => (iblk2 V c 3 t : FVec Ideal S1x2048 .f32) (ix2 (0 : Fin 1) n))
        (fun n k => (iblk2 V c 4 t : FVec Ideal S2048x2048 .bf16) (ix2 n k))
        (fun n => (iblk2 V c 5 t : FVec Ideal S1x2048 .f32) (ix2 (0 : Fin 1) n)) p (Cert.Top.lo q)
      = Cert.Spec.of2 (fun r q => o2 V c r (Cert.Top.lo q)) j := by
  obtain rfl : q = ⟨(j 1).val, idx2_lt1 j⟩ := Fin.ext hj1.symm
  exact outBlock V c t p ⟨(j 0).val, idx2_lt0 j⟩ hj0 _

/-- The deviation computed from the blocks, at such an entry. -/
theorem devEntry (t : Fin cfg2.N) (p : Fin 256) (q : Fin 1024) (j : S4096x1024.Idx)
    (hj0 : (j 0).val = t.val * 256 + p.val) (hj1 : (j 1).val = q.val) :
    Cert.Spec.dev (Cert.Spec.out (fun r k => (iblk2 V c 0 t : FVec Ideal S256x2048 .bf16) (ix2 r k))
        (fun n k => (iblk2 V c 2 t : FVec Ideal S2048x2048 .bf16) (ix2 n k))
        (fun n => (iblk2 V c 3 t : FVec Ideal S1x2048 .f32) (ix2 (0 : Fin 1) n))
        (fun n k => (iblk2 V c 4 t : FVec Ideal S2048x2048 .bf16) (ix2 n k))
        (fun n => (iblk2 V c 5 t : FVec Ideal S1x2048 .f32) (ix2 (0 : Fin 1) n)) p (Cert.Top.hi q))
      = Cert.Spec.of2 (fun r q => Cert.Spec.dev (o2 V c r (Cert.Top.hi q))) j := by
  obtain rfl : q = ⟨(j 1).val, idx2_lt1 j⟩ := Fin.ext hj1.symm
  exact congrArg Cert.Spec.dev (outBlock V c t p ⟨(j 0).val, idx2_lt0 j⟩ hj0 _)

/-- The sample computed from the blocks, at such an entry. -/
theorem smpEntry (t : Fin cfg2.N) (p : Fin 256) (q : Fin 1024) (j : S4096x1024.Idx)
    (hj0 : (j 0).val = t.val * 256 + p.val) (hj1 : (j 1).val = q.val) :
    Cert.Spec.smp (Cert.Spec.out (fun r k => (iblk2 V c 0 t : FVec Ideal S256x2048 .bf16) (ix2 r k))
        (fun n k => (iblk2 V c 2 t : FVec Ideal S2048x2048 .bf16) (ix2 n k))
        (fun n => (iblk2 V c 3 t : FVec Ideal S1x2048 .f32) (ix2 (0 : Fin 1) n))
        (fun n k => (iblk2 V c 4 t : FVec Ideal S2048x2048 .bf16) (ix2 n k))
        (fun n => (iblk2 V c 5 t : FVec Ideal S1x2048 .f32) (ix2 (0 : Fin 1) n)) p (Cert.Top.lo q))
        (Cert.Spec.dev (Cert.Spec.out (fun r k => (iblk2 V c 0 t : FVec Ideal S256x2048 .bf16) (ix2 r k))
        (fun n k => (iblk2 V c 2 t : FVec Ideal S2048x2048 .bf16) (ix2 n k))
        (fun n => (iblk2 V c 3 t : FVec Ideal S1x2048 .f32) (ix2 (0 : Fin 1) n))
        (fun n k => (iblk2 V c 4 t : FVec Ideal S2048x2048 .bf16) (ix2 n k))
        (fun n => (iblk2 V c 5 t : FVec Ideal S1x2048 .f32) (ix2 (0 : Fin 1) n)) p (Cert.Top.hi q)))
        ((iblk2 V c 1 t : FVec Ideal S256x1024 .f32) (ix2 p q))
      = Cert.Spec.of2 (fun r q => Cert.Spec.smp (o2 V c r (Cert.Top.lo q)) (Cert.Spec.dev (o2 V c r (Cert.Top.hi q)))
          (V c main_arg3 (ix2 r q))) j := by
  obtain rfl : q = ⟨(j 1).val, idx2_lt1 j⟩ := Fin.ext hj1.symm
  exact congr (congr (congrArg Cert.Spec.smp (outBlock V c t p ⟨(j 0).val, idx2_lt0 j⟩ hj0 _))
    (congrArg Cert.Spec.dev (outBlock V c t p ⟨(j 0).val, idx2_lt0 j⟩ hj0 _))) (noiseBlock V c t p _ ⟨(j 0).val, idx2_lt0 j⟩ hj0)
end

/-! ## The output blocks cover their arrays -/

/-- An index of output array 6 is in point t's block iff each coordinate is in the block's range. -/
theorem mem_block2_6 (t : Fin cfg2.N) (i : S4096x1024.Idx) :
    i ∈ ((cfg2.win 6).blk t).view.set ↔ ∀ a : Fin 2, win2_6.index t a * S256x1024.size a ≤ (i a).val
      ∧ (i a).val < win2_6.index t a * S256x1024.size a + S256x1024.size a := by
  show i ∈ ((View.whole main_v17_0).slice (win2_6.rect t)).set ↔ _
  rw [View.set_slice_whole, Rect.mem_set_unit]
  exact Iff.rfl

/-- Row r of output array 6 is written by point r / 256. -/
theorem cover2_6_rows (i : S4096x1024.Idx) :
    ∃ t : Fin cfg2.N, (cfg2.win 6).flush t = true ∧ i ∈ ((cfg2.win 6).blk t).view.set := by
  have hi0 : (i 0).val < 4096 := (i 0).isLt
  have hi1 : (i 1).val < 1024 := (i 1).isLt
  have hN : cfg2.N = 16 := N_2
  have hlt : (i 0).val / 256 < cfg2.N := by rw [hN]; omega
  obtain ⟨e0, e1⟩ := blockIndex2_6 ⟨(i 0).val / 256, hlt⟩
  refine ⟨⟨(i 0).val / 256, hlt⟩, flush2_6 _, ?_⟩
  rw [mem_block2_6]
  intro a
  match a with
  | ⟨0, _⟩ =>
    show win2_6.index ⟨(i 0).val / 256, hlt⟩ (0 : Fin 2) * 256 ≤ (i 0).val
      ∧ (i 0).val < win2_6.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win2_6.index ⟨(i 0).val / 256, hlt⟩ (1 : Fin 2) * 1024 ≤ (i 1).val
      ∧ (i 1).val < win2_6.index ⟨(i 0).val / 256, hlt⟩ (1 : Fin 2) * 1024 + 1024
    rw [e1]; omega

/-- An index of output array 7 is in point t's block iff each coordinate is in the block's range. -/
theorem mem_block2_7 (t : Fin cfg2.N) (i : S4096x1024.Idx) :
    i ∈ ((cfg2.win 7).blk t).view.set ↔ ∀ a : Fin 2, win2_7.index t a * S256x1024.size a ≤ (i a).val
      ∧ (i a).val < win2_7.index t a * S256x1024.size a + S256x1024.size a := by
  show i ∈ ((View.whole main_v17_1).slice (win2_7.rect t)).set ↔ _
  rw [View.set_slice_whole, Rect.mem_set_unit]
  exact Iff.rfl

/-- Row r of output array 7 is written by point r / 256. -/
theorem cover2_7_rows (i : S4096x1024.Idx) :
    ∃ t : Fin cfg2.N, (cfg2.win 7).flush t = true ∧ i ∈ ((cfg2.win 7).blk t).view.set := by
  have hi0 : (i 0).val < 4096 := (i 0).isLt
  have hi1 : (i 1).val < 1024 := (i 1).isLt
  have hN : cfg2.N = 16 := N_2
  have hlt : (i 0).val / 256 < cfg2.N := by rw [hN]; omega
  obtain ⟨e0, e1⟩ := blockIndex2_7 ⟨(i 0).val / 256, hlt⟩
  refine ⟨⟨(i 0).val / 256, hlt⟩, flush2_7 _, ?_⟩
  rw [mem_block2_7]
  intro a
  match a with
  | ⟨0, _⟩ =>
    show win2_7.index ⟨(i 0).val / 256, hlt⟩ (0 : Fin 2) * 256 ≤ (i 0).val
      ∧ (i 0).val < win2_7.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win2_7.index ⟨(i 0).val / 256, hlt⟩ (1 : Fin 2) * 1024 ≤ (i 1).val
      ∧ (i 1).val < win2_7.index ⟨(i 0).val / 256, hlt⟩ (1 : Fin 2) * 1024 + 1024
    rw [e1]; omega

/-- An index of output array 8 is in point t's block iff each coordinate is in the block's range. -/
theorem mem_block2_8 (t : Fin cfg2.N) (i : S4096x1024.Idx) :
    i ∈ ((cfg2.win 8).blk t).view.set ↔ ∀ a : Fin 2, win2_8.index t a * S256x1024.size a ≤ (i a).val
      ∧ (i a).val < win2_8.index t a * S256x1024.size a + S256x1024.size a := by
  show i ∈ ((View.whole main_v17_2).slice (win2_8.rect t)).set ↔ _
  rw [View.set_slice_whole, Rect.mem_set_unit]
  exact Iff.rfl

/-- Row r of output array 8 is written by point r / 256. -/
theorem cover2_8_rows (i : S4096x1024.Idx) :
    ∃ t : Fin cfg2.N, (cfg2.win 8).flush t = true ∧ i ∈ ((cfg2.win 8).blk t).view.set := by
  have hi0 : (i 0).val < 4096 := (i 0).isLt
  have hi1 : (i 1).val < 1024 := (i 1).isLt
  have hN : cfg2.N = 16 := N_2
  have hlt : (i 0).val / 256 < cfg2.N := by rw [hN]; omega
  obtain ⟨e0, e1⟩ := blockIndex2_8 ⟨(i 0).val / 256, hlt⟩
  refine ⟨⟨(i 0).val / 256, hlt⟩, flush2_8 _, ?_⟩
  rw [mem_block2_8]
  intro a
  match a with
  | ⟨0, _⟩ =>
    show win2_8.index ⟨(i 0).val / 256, hlt⟩ (0 : Fin 2) * 256 ≤ (i 0).val
      ∧ (i 0).val < win2_8.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win2_8.index ⟨(i 0).val / 256, hlt⟩ (1 : Fin 2) * 1024 ≤ (i 1).val
      ∧ (i 1).val < win2_8.index ⟨(i 0).val / 256, hlt⟩ (1 : Fin 2) * 1024 + 1024
    rw [e1]; omega

end Cert.KerSide.R2

end
-- ==== Proof.Reg2Mean.lean ====
/-
  The mean's output array: each grid point writes back its 256 rows of columns 0 ... 1023 of the last layer of the
  arrays the region finds.
-/
import proofs.«133578_j12730283065883_2_alg».proof.Proof.Reg2Pay
import proofs.«133578_j12730283065883_2_alg».proof.Proof.Reg2Blocks

noncomputable section

open scoped BigOperators

namespace Cert.KerSide.R2

open Idealize.ShloMosaic Idealize.ShloMosaic.TcCoe Idealize.ShloMosaic.ValueIdx Idealize.SL.Sem Cert.KernelIdeal Cert.KernelIdeal.Gen

open Idealize.ShloMosaic.Pipeline (Dat)

/-- What point t writes back to this output array is block t of the function named above. -/
theorem flushed2_6_eq (V : EntryVal) (c : Dev nD) (t : Fin cfg2.N) :
    (dat2 V c).flushed 6 t = ((cfg2.win 6).blk t).view.read (Elt Ideal) (Cert.Spec.of2 (fun r q => o2 V c r (Cert.Top.lo q))) := by
  show (cfg2.win 6).cut (grid2.coords t) ((dat2 V c).after 6 t) = _
  rw [after2_6]
  unfold out2_6
  rw [View.canon_unit_zero zeroOffsets2]
  simp only [View.ld_unit_zero (S := S256x2048) zeroOffsets2, View.ld_unit_zero (S := S2048x2048) zeroOffsets2,
    View.ld_unit_zero (S := S1x2048) zeroOffsets2, View.ld_unit_zero (S := S256x1024) zeroOffsets2]
  obtain ⟨e0, e1⟩ := blockIndex2_6 t
  funext j
  obtain ⟨p, q, rfl⟩ : ∃ (p : Fin 256) (q : Fin 1024), j = ix2 p q := ⟨j 0, j 1, eq_ix2 j⟩
  show k2_pay3 (F := Ideal) (iblk2 V c 0 t) (iblk2 V c 2 t) (iblk2 V c 3 t) (iblk2 V c 4 t) (iblk2 V c 5 t) (ix2 p q)
    = Cert.Spec.of2 (fun r q => o2 V c r (Cert.Top.lo q)) (((cfg2.win 6).blk t).view.emb (ix2 p q))
  have h0 : ((((cfg2.win 6).blk t).view.emb (ix2 p q)) 0).val = t.val * 256 + p.val := by
    show win2_6.index t (0 : Fin 2) * 256 + 1 * p.val = _; omega
  have h1 : ((((cfg2.win 6).blk t).view.emb (ix2 p q)) 1).val = q.val := by
    show win2_6.index t (1 : Fin 2) * 1024 + 1 * q.val = _; omega
  exact (pay3_apply (iblk2 V c 0 t) (iblk2 V c 2 t) (iblk2 V c 3 t) (iblk2 V c 4 t) (iblk2 V c 5 t) p q).trans (meanEntry V c t p q _ h0 h1)

end Cert.KerSide.R2

end
-- ==== Proof.Reg2Dev.lean ====
/-
  The deviation's output array: each grid point writes back its 256 rows of softplus plus the offset of columns
  1024 ... 2047 of the last layer of the arrays the region finds.
-/
import proofs.«133578_j12730283065883_2_alg».proof.Proof.Reg2Pay
import proofs.«133578_j12730283065883_2_alg».proof.Proof.Reg2Blocks

noncomputable section

open scoped BigOperators

namespace Cert.KerSide.R2

open Idealize.ShloMosaic Idealize.ShloMosaic.TcCoe Idealize.ShloMosaic.ValueIdx Idealize.SL.Sem Cert.KernelIdeal Cert.KernelIdeal.Gen

open Idealize.ShloMosaic.Pipeline (Dat)

/-- What point t writes back to this output array is block t of the function named above. -/
theorem flushed2_7_eq (V : EntryVal) (c : Dev nD) (t : Fin cfg2.N) :
    (dat2 V c).flushed 7 t = ((cfg2.win 7).blk t).view.read (Elt Ideal) (Cert.Spec.of2 (fun r q => Cert.Spec.dev (o2 V c r (Cert.Top.hi q)))) := by
  show (cfg2.win 7).cut (grid2.coords t) ((dat2 V c).after 7 t) = _
  rw [after2_7]
  unfold out2_7
  rw [View.canon_unit_zero zeroOffsets2]
  simp only [View.ld_unit_zero (S := S256x2048) zeroOffsets2, View.ld_unit_zero (S := S2048x2048) zeroOffsets2,
    View.ld_unit_zero (S := S1x2048) zeroOffsets2, View.ld_unit_zero (S := S256x1024) zeroOffsets2]
  obtain ⟨e0, e1⟩ := blockIndex2_7 t
  funext j
  obtain ⟨p, q, rfl⟩ : ∃ (p : Fin 256) (q : Fin 1024), j = ix2 p q := ⟨j 0, j 1, eq_ix2 j⟩
  show k2_pay4 (F := Ideal) (iblk2 V c 0 t) (iblk2 V c 2 t) (iblk2 V c 3 t) (iblk2 V c 4 t) (iblk2 V c 5 t) (ix2 p q)
    = Cert.Spec.of2 (fun r q => Cert.Spec.dev (o2 V c r (Cert.Top.hi q))) (((cfg2.win 7).blk t).view.emb (ix2 p q))
  have h0 : ((((cfg2.win 7).blk t).view.emb (ix2 p q)) 0).val = t.val * 256 + p.val := by
    show win2_7.index t (0 : Fin 2) * 256 + 1 * p.val = _; omega
  have h1 : ((((cfg2.win 7).blk t).view.emb (ix2 p q)) 1).val = q.val := by
    show win2_7.index t (1 : Fin 2) * 1024 + 1 * q.val = _; omega
  exact (pay4_apply (iblk2 V c 0 t) (iblk2 V c 2 t) (iblk2 V c 3 t) (iblk2 V c 4 t) (iblk2 V c 5 t) p q).trans (devEntry V c t p q _ h0 h1)

end Cert.KerSide.R2

end
-- ==== Proof.Reg2Smp.lean ====
/-
  The sample's output array: each grid point writes back its 256 rows of mean + deviation * noise, the mean and the
  deviation as in the other two output arrays, the noise read from the same rows of the noise array.
-/
import proofs.«133578_j12730283065883_2_alg».proof.Proof.Reg2Pay
import proofs.«133578_j12730283065883_2_alg».proof.Proof.Reg2Blocks

noncomputable section

open scoped BigOperators

namespace Cert.KerSide.R2

open Idealize.ShloMosaic Idealize.ShloMosaic.TcCoe Idealize.ShloMosaic.ValueIdx Idealize.SL.Sem Cert.KernelIdeal Cert.KernelIdeal.Gen

open Idealize.ShloMosaic.Pipeline (Dat)

/-- What point t writes back to this output array is block t of the function named above. -/
theorem flushed2_8_eq (V : EntryVal) (c : Dev nD) (t : Fin cfg2.N) :
    (dat2 V c).flushed 8 t = ((cfg2.win 8).blk t).view.read (Elt Ideal) (Cert.Spec.of2 (fun r q => Cert.Spec.smp (o2 V c r (Cert.Top.lo q)) (Cert.Spec.dev (o2 V c r (Cert.Top.hi q))) (V c main_arg3 (ix2 r q)))) := by
  show (cfg2.win 8).cut (grid2.coords t) ((dat2 V c).after 8 t) = _
  rw [after2_8]
  unfold out2_8
  rw [View.canon_unit_zero zeroOffsets2]
  simp only [View.ld_unit_zero (S := S256x2048) zeroOffsets2, View.ld_unit_zero (S := S2048x2048) zeroOffsets2,
    View.ld_unit_zero (S := S1x2048) zeroOffsets2, View.ld_unit_zero (S := S256x1024) zeroOffsets2]
  obtain ⟨e0, e1⟩ := blockIndex2_8 t
  funext j
  obtain ⟨p, q, rfl⟩ : ∃ (p : Fin 256) (q : Fin 1024), j = ix2 p q := ⟨j 0, j 1, eq_ix2 j⟩
  show k2_pay1 (F := Ideal) (k2_pay3 (F := Ideal) (iblk2 V c 0 t) (iblk2 V c 2 t) (iblk2 V c 3 t) (iblk2 V c 4 t) (iblk2 V c 5 t)) (k2_pay4 (F := Ideal) (iblk2 V c 0 t) (iblk2 V c 2 t) (iblk2 V c 3 t) (iblk2 V c 4 t) (iblk2 V c 5 t)) (iblk2 V c 1 t) (ix2 p q)
    = Cert.Spec.of2 (fun r q => Cert.Spec.smp (o2 V c r (Cert.Top.lo q)) (Cert.Spec.dev (o2 V c r (Cert.Top.hi q))) (V c main_arg3 (ix2 r q))) (((cfg2.win 8).blk t).view.emb (ix2 p q))
  have h0 : ((((cfg2.win 8).blk t).view.emb (ix2 p q)) 0).val = t.val * 256 + p.val := by
    show win2_8.index t (0 : Fin 2) * 256 + 1 * p.val = _; omega
  have h1 : ((((cfg2.win 8).blk t).view.emb (ix2 p q)) 1).val = q.val := by
    show win2_8.index t (1 : Fin 2) * 1024 + 1 * q.val = _; omega
  refine (pay1_apply (k2_pay3 (F := Ideal) (iblk2 V c 0 t) (iblk2 V c 2 t) (iblk2 V c 3 t) (iblk2 V c 4 t) (iblk2 V c 5 t)) (k2_pay4 (F := Ideal) (iblk2 V c 0 t) (iblk2 V c 2 t) (iblk2 V c 3 t) (iblk2 V c 4 t) (iblk2 V c 5 t)) (iblk2 V c 1 t) (ix2 p q)).trans ?_
  refine (congr (congr (congrArg Cert.Spec.smp (pay3_apply (iblk2 V c 0 t) (iblk2 V c 2 t) (iblk2 V c 3 t) (iblk2 V c 4 t) (iblk2 V c 5 t) p q)) (pay4_apply (iblk2 V c 0 t) (iblk2 V c 2 t) (iblk2 V c 3 t) (iblk2 V c 4 t) (iblk2 V c 5 t) p q)) rfl).trans ?_
  exact smpEntry V c t p q _ h0 h1

end Cert.KerSide.R2

end
-- ==== Proof.Reg2.lean ====
/-
  Region 2's three output arrays after the region, as functions of the arrays the region finds: the mean is columns
  0 ... 1023 of the last layer, the deviation is softplus plus the offset of columns 1024 ... 2047, and the sample is
  mean + deviation * noise.  Each grid point writes back its 256 rows of each, and the sixteen blocks cover the rows.
-/
import proofs.«133578_j12730283065883_2_alg».proof.Proof.Reg2Mean
import proofs.«133578_j12730283065883_2_alg».proof.Proof.Reg2Dev
import proofs.«133578_j12730283065883_2_alg».proof.Proof.Reg2Smp

noncomputable section

open scoped BigOperators

namespace Cert.KerSide

open Idealize.ShloMosaic Idealize.ShloMosaic.TcCoe Idealize.ShloMosaic.ValueIdx Idealize.SL.Sem Cert.KernelIdeal Cert.KernelIdeal.Gen

open Idealize.ShloMosaic.Pipeline (Dat)

/-- The mean. -/
theorem final2_6 (V : EntryVal) (c : Dev nD) :
    (dat2 (F := Ideal) V c).arrAt 6 cfg2.N = Cert.Spec.of2 fun r q => o2 V c r (Cert.Top.lo q) :=
  (dat2 V c).arrAt_eq_of_cover 6 (Cert.Spec.of2 fun r q => o2 V c r (Cert.Top.lo q))
    (fun t _ => R2.flushed2_6_eq V c t) R2.cover2_6_rows

/-- The deviation. -/
theorem final2_7 (V : EntryVal) (c : Dev nD) :
    (dat2 (F := Ideal) V c).arrAt 7 cfg2.N = Cert.Spec.of2 fun r q => Cert.Spec.dev (o2 V c r (Cert.Top.hi q)) :=
  (dat2 V c).arrAt_eq_of_cover 7 (Cert.Spec.of2 fun r q => Cert.Spec.dev (o2 V c r (Cert.Top.hi q)))
    (fun t _ => R2.flushed2_7_eq V c t) R2.cover2_7_rows

/-- The sample. -/
theorem final2_8 (V : EntryVal) (c : Dev nD) :
    (dat2 (F := Ideal) V c).arrAt 8 cfg2.N = Cert.Spec.of2 fun r q =>
      Cert.Spec.smp (o2 V c r (Cert.Top.lo q)) (Cert.Spec.dev (o2 V c r (Cert.Top.hi q))) (V c main_arg3 (ix2 r q)) :=
  (dat2 V c).arrAt_eq_of_cover 8 (Cert.Spec.of2 fun r q =>
      Cert.Spec.smp (o2 V c r (Cert.Top.lo q)) (Cert.Spec.dev (o2 V c r (Cert.Top.hi q))) (V c main_arg3 (ix2 r q)))
    (fun t _ => R2.flushed2_8_eq V c t) R2.cover2_8_rows

end Cert.KerSide

end
-- ==== Proof.KSide.lean ====
/-
  The kernel program's four results as the network's functions of its fourteen arguments.

  Each region's output array is the region's function of the arrays it finds at entry.  The first region finds the
  input, the first layer's weights and its bias row as the host steps left them, so it writes the first hidden layer
  of the launch arguments.  The second finds that layer, the previous state and the stacked gate weights and biases,
  and writes the new hidden state, once unrounded (a result) and once rounded (the same values here).  The third
  finds the new state and the last two layers' weights and bias rows, and writes the mean, the deviation and the
  sample.  Reading the final state against the contents at the last boundary gives the run.
-/
import proofs.«133578_j12730283065883_2_alg».proof.Proof.KHost
import proofs.«133578_j12730283065883_2_alg».proof.Proof.KRun
import proofs.«133578_j12730283065883_2_alg».proof.Proof.Reg0
import proofs.«133578_j12730283065883_2_alg».proof.Proof.Reg1
import proofs.«133578_j12730283065883_2_alg».proof.Proof.Reg2

noncomputable section

namespace Cert.KerSide

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## Each region's function over its entry arrays is the network's -/

/-- The first region computes the first hidden layer of the launch arguments. -/
theorem g0_eq : g0 (V1 (F := Ideal) m ρ) c = Cert.Top.hid (xin (m ((c : Thread nD τ).loc main_arg0)) (m ((c : Thread nD τ).loc main_arg1))) (m ((c : Thread nD τ).loc main_arg4)) (m ((c : Thread nD τ).loc main_arg5)) := by
  unfold g0 Cert.Top.hid
  refine congr (congr (congrArg Cert.Spec.s1 ?_) ?_) ?_
  · funext r k; exact V1_v1 m ρ c r k
  · funext q k; exact V1_v2 m ρ c q k
  · funext q; exact V1_v3 m ρ c q

/-- What the second region finds in the first region's output array. -/
theorem V3_v4_apply (r : Fin 4096) (k : Fin 2048) :
    V3 (F := Ideal) m ρ c main_v4 (ix2 r k) = Cert.Top.hid (xin (m ((c : Thread nD τ).loc main_arg0)) (m ((c : Thread nD τ).loc main_arg1))) (m ((c : Thread nD τ).loc main_arg4)) (m ((c : Thread nD τ).loc main_arg5)) r k := by
  rw [V3_v4 m ρ c, final0_3 (V1 m ρ) c, Cert.Spec.of2_ix2, g0_eq m ρ c]

/-- The second region computes the new hidden state of the launch arguments. -/
theorem g1_eq : g1 (V3 (F := Ideal) m ρ) c = Cert.Top.nrh (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) := by
  unfold g1 Cert.Top.nrh
  refine congr (congr (congr (congr (congr (congr (congrArg Cert.Spec.s2 ?_) ?_) ?_) ?_) ?_) ?_) ?_
  · funext r k; exact V3_v4_apply m ρ c r k
  · funext r k; exact V3_v11 m ρ c r k
  · funext r q; exact V3_arg2 m ρ c r q
  · funext g q k; exact V3_v6 m ρ c g q k
  · funext g q k; exact V3_v8 m ρ c g q k
  · funext g q; exact V3_v9 m ρ c g q
  · funext q; exact V3_v10 m ρ c q

/-- What the third region finds in the second region's rounded output array. -/
theorem V5_v12_1_apply (r : Fin 4096) (k : Fin 2048) :
    V5 (F := Ideal) m ρ c main_v12_1 (ix2 r k) = Cert.Top.nrh (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) r k := by
  rw [V5_v12_1 m ρ c, final1_8 (V3 m ρ) c, Cert.Spec.of2_ix2, g1_eq m ρ c]

/-- The third region's last layer, before the split, is the network's. -/
theorem o2_eq : o2 (V5 (F := Ideal) m ρ) c = Cert.Top.outp (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold o2 Cert.Top.outp
  refine congr (congr (congr (congr (congrArg Cert.Spec.out ?_) ?_) ?_) ?_) ?_
  · funext r k; exact V5_v12_1_apply m ρ c r k
  · funext q k; exact V5_v13 m ρ c q k
  · funext q; exact V5_v14 m ρ c q
  · funext q k; exact V5_v15 m ρ c q k
  · funext q; exact V5_v16 m ρ c q

/-! ## The four results at the last boundary -/

theorem mean_eq : W6 (F := Ideal) m ρ c (Proc.devRef .tc main_v17_0) = Cert.Top.mean (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W6_v17_0 m ρ c, final2_6 (V5 m ρ) c, o2_eq m ρ c]; rfl

theorem sd_eq : W6 (F := Ideal) m ρ c (Proc.devRef .tc main_v17_1) = Cert.Top.sd (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W6_v17_1 m ρ c, final2_7 (V5 m ρ) c, o2_eq m ρ c]; rfl

theorem sample_eq : W6 (F := Ideal) m ρ c (Proc.devRef .tc main_v17_2) = Cert.Top.sample (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg3)) := by
  rw [W6_v17_2 m ρ c, final2_8 (V5 m ρ) c, o2_eq m ρ c]
  exact congrArg Cert.Spec.of2 (funext fun r => funext fun q => congrArg (Cert.Spec.smp _ _) (V5_arg3 m ρ c r q))

theorem hidden_eq : W6 (F := Ideal) m ρ c (Proc.devRef .tc main_v12_0) = Cert.Top.hidden (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) := by
  rw [W6_v12_0 m ρ c, final1_7 (V3 m ρ) c, g1_eq m ρ c]; rfl

/-! ## The run -/

/-- The kernel program runs, its four results are the network's functions of its arguments, and its arguments end
    as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17_0) = Cert.Top.mean (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v17_1) = Cert.Top.sd (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v17_2) = Cert.Top.sample (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg3))
      ∧ r.2.mem ((c.tc : Thread nD τ).loc main_v12_0) = Cert.Top.hidden (xin (m ((c : Thread nD τ).loc main_arg0)) (m ((c : Thread nD τ).loc main_arg1))) (m ((c : Thread nD τ).loc main_arg4)) (m ((c : Thread nD τ).loc main_arg5)) (m ((c : Thread nD τ).loc main_arg2)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (mean_eq m ρ c), (h c).2.1.trans (sd_eq m ρ c), (h c).2.2.1.trans (sample_eq m ρ c),
      (h c).2.2.2.1.trans (hidden_eq m ρ c), (h c).2.2.2.2⟩)
    (run_named (F := Ideal) m ρ)

end Cert.KerSide

end
-- ==== Proof.RefOps.lean ====
/-
  The reference program as a line of host operations, and its run.

  The program has no kernel: it is 107 host operations in a row, the three calls (two exponential linear units, one
  softplus) written out at their call sites over the buffers each call names.  The line is cut into eight stretches:
  the first dense layer, the first unit, the recurrent step, the second dense layer, the second unit, the last dense
  layer with its two column halves, the softplus, and the deviation and the sample.  Every weakly fair execution from
  a memory with zero counters terminates, and each buffer then holds the fold of the line over the launch contents.
-/
import proofs.«133578_j12730283065883_2_alg».proof.Proof.Gen.ReferenceIdeal
import Idealize.ShloMosaic.Lib.StableHlo.Run

noncomputable section

namespace Cert.RefOps

open Cert.ReferenceIdeal Cert.ReferenceIdeal.Facts₀ Idealize.ShloMosaic Idealize.ShloMosaic.TcCoe Idealize.SL.Sem Idealize.ShloMosaic.StableHlo

attribute [local instance] Cert.ReferenceIdeal.Gen.facts

variable {F : FTy → Type} [FloatOps F]

/-- The input laid side by side and the first dense layer. -/
abbrev opsL1 : List (HloOp τ sig (Elt F)) :=
  [ StableHlo.binary main_arg0 main_arg1 main_v0 ((fun a b => concatenate S4096x1056 1 [⟨S4096x32, a⟩, ⟨S4096x1024, b⟩] concatenates_S4096x32_S4096x1024_S4096x1056_d1) : (⟨S4096x32, .f32⟩ : BufTy).Contents (Elt F) → (⟨S4096x1024, .f32⟩ : BufTy).Contents (Elt F) → (⟨S4096x1056, .f32⟩ : BufTy).Contents (Elt F)),
    StableHlo.unary main_arg4 main_v1 ((transpose S1056x2048 [1, 0] · transposes_S2048x1056_S1056x2048_1_0) : (⟨S2048x1056, .f32⟩ : BufTy).Contents (Elt F) → (⟨S1056x2048, .f32⟩ : BufTy).Contents (Elt F)),
    StableHlo.binary main_v0 main_v1 main_v2 ((fun l r => Host.dotGeneral dot_S4096x1056_S1056x2048_S4096x2048_1_0_0_1_n_n none l r) : (⟨S4096x1056, .f32⟩ : BufTy).Contents (Elt F) → (⟨S1056x2048, .f32⟩ : BufTy).Contents (Elt F) → (⟨S4096x2048, .f32⟩ : BufTy).Contents (Elt F)),
    StableHlo.unary main_arg5 main_v3 (broadcastInDim S1x2048 ![1] bcast_S2048_S1x2048_1 : (⟨S2048, .f32⟩ : BufTy).Contents (Elt F) → (⟨S1x2048, .f32⟩ : BufTy).Contents (Elt F)),
    StableHlo.unary main_v3 main_v4 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v2 main_v4 main_v5 (addf : (⟨S4096x2048, .f32⟩ : BufTy).Contents (Elt F) → (⟨S4096x2048, .f32⟩ : BufTy).Contents (Elt F) → (⟨S4096x2048, .f32⟩ : BufTy).Contents (Elt F)) ]

theorem opsL1_sub : (opsL1 : List (HloOp τ sig (Elt F))).Forall fun op => op.bufs ⊆ tcRefs τ sig :=
  ⟨binary_bufs_sub .., unary_bufs_sub .., binary_bufs_sub .., unary_bufs_sub .., unary_bufs_sub .., binary_bufs_sub ..⟩

theorem opsL1_fresh : ∀ op ∈ (opsL1 : List (HloOp τ sig (Elt F))), op.fresh = ∅ := by
  intro _ h; (repeat (cases h with | head => rfl | tail _ h => ?_)); exact nomatch h

/-- The first exponential linear unit, written out. -/
abbrev opsElu0 : List (HloOp τ sig (Elt F)) :=
  [ StableHlo.TRef.nullary main_call0.cst (constant S_ .f32 0x00000000#32),
    StableHlo.TRef.unary main_call0.cst main_call0.v0 (broadcastInDim S4096x2048 ![] bcast_S_S4096x2048),
    StableHlo.TRef.binary (StableHlo.TRef.of main_v5 : StableHlo.TRef sig ⟨S4096x2048, .f32⟩) main_call0.v0 main_call0.v1 (cmpf .ogt),
    StableHlo.TRef.nullary main_call0.cst_0 (constant S_ .f32 0x00000000#32),
    StableHlo.TRef.unary main_call0.cst_0 main_call0.v2 (broadcastInDim S4096x2048 ![] bcast_S_S4096x2048),
    StableHlo.TRef.binary (StableHlo.TRef.of main_v5 : StableHlo.TRef sig ⟨S4096x2048, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S4096x2048 ![] bcast_S_S4096x2048),
    StableHlo.TRef.ternary main_call0.v3 main_call0.call0.v1 (StableHlo.TRef.of main_v5 : StableHlo.TRef sig ⟨S4096x2048, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S4096x2048 ![] bcast_S_S4096x2048),
    StableHlo.TRef.binary main_call0.v6 main_call0.v5 main_call0.v7 mulf,
    StableHlo.TRef.ternary main_call0.v1 (StableHlo.TRef.of main_v5 : StableHlo.TRef sig ⟨S4096x2048, .f32⟩) main_call0.v7 main_call0.call1.v0 select ]

theorem opsElu0_sub : (opsElu0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsElu0_fresh : ∀ op ∈ (opsElu0 : List (HloOp τ sig (Elt F))), op.fresh = ∅ := by
  intro _ h; (repeat (cases h with | head => rfl | tail _ h => ?_)); exact nomatch h

/-- The recurrent step: the two gate pre-activations, their three column blocks, the two logistic gates, the candidate, the new state. -/
abbrev opsGru : List (HloOp τ sig (Elt F)) :=
  [ StableHlo.unary main_arg6 main_v7 ((transpose S2048x6144 [1, 0] · transposes_S6144x2048_S2048x6144_1_0) : (⟨S6144x2048, .f32⟩ : BufTy).Contents (Elt F) → (⟨S2048x6144, .f32⟩ : BufTy).Contents (Elt F)),
    StableHlo.binary main_v6 main_v7 main_v8 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    StableHlo.unary main_arg8 main_v9 (broadcastInDim S1x6144 ![1] bcast_S6144_S1x6144_1 : (⟨S6144, .f32⟩ : BufTy).Contents (Elt F) → (⟨S1x6144, .f32⟩ : BufTy).Contents (Elt F)),
    StableHlo.unary main_v9 main_v10 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v8 main_v10 main_v11 (addf : (⟨S4096x6144, .f32⟩ : BufTy).Contents (Elt F) → (⟨S4096x6144, .f32⟩ : BufTy).Contents (Elt F) → (⟨S4096x6144, .f32⟩ : BufTy).Contents (Elt F)),
    StableHlo.unary main_arg7 main_v12 ((transpose S2048x6144 [1, 0] · transposes_S6144x2048_S2048x6144_1_0) : (⟨S6144x2048, .f32⟩ : BufTy).Contents (Elt F) → (⟨S2048x6144, .f32⟩ : BufTy).Contents (Elt F)),
    StableHlo.binary main_arg2 main_v12 main_v13 ((fun l r => Host.dotGeneral dot_S4096x2048_S2048x6144_S4096x6144_1_0_0_1_n_n none l r) : (⟨S4096x2048, .f32⟩ : BufTy).Contents (Elt F) → (⟨S2048x6144, .f32⟩ : BufTy).Contents (Elt F) → (⟨S4096x6144, .f32⟩ : BufTy).Contents (Elt F)),
    StableHlo.unary main_v11 main_v14 ((extractStridedSlice S4096x2048 ![0, 0] · slices_S4096x6144_S4096x2048_0_0) : (⟨S4096x6144, .f32⟩ : BufTy).Contents (Elt F) → (⟨S4096x2048, .f32⟩ : BufTy).Contents (Elt F)),
    StableHlo.unary main_v11 main_v15 ((extractStridedSlice S4096x2048 ![0, 2048] · slices_S4096x6144_S4096x2048_0_2048) : (⟨S4096x6144, .f32⟩ : BufTy).Contents (Elt F) → (⟨S4096x2048, .f32⟩ : BufTy).Contents (Elt F)),
    StableHlo.unary main_v11 main_v16 ((extractStridedSlice S4096x2048 ![0, 4096] · slices_S4096x6144_S4096x2048_0_4096) : (⟨S4096x6144, .f32⟩ : BufTy).Contents (Elt F) → (⟨S4096x2048, .f32⟩ : BufTy).Contents (Elt F)),
    StableHlo.unary main_v13 main_v17 ((extractStridedSlice S4096x2048 ![0, 0] · slices_S4096x6144_S4096x2048_0_0) : (⟨S4096x6144, .f32⟩ : BufTy).Contents (Elt F) → (⟨S4096x2048, .f32⟩ : BufTy).Contents (Elt F)),
    StableHlo.unary main_v13 main_v18 ((extractStridedSlice S4096x2048 ![0, 2048] · slices_S4096x6144_S4096x2048_0_2048) : (⟨S4096x6144, .f32⟩ : BufTy).Contents (Elt F) → (⟨S4096x2048, .f32⟩ : BufTy).Contents (Elt F)),
    StableHlo.unary main_v13 main_v19 ((extractStridedSlice S4096x2048 ![0, 4096] · slices_S4096x6144_S4096x2048_0_4096) : (⟨S4096x6144, .f32⟩ : BufTy).Contents (Elt F) → (⟨S4096x2048, .f32⟩ : BufTy).Contents (Elt F)),
    StableHlo.binary main_v14 main_v17 main_v20 (addf : (⟨S4096x2048, .f32⟩ : BufTy).Contents (Elt F) → (⟨S4096x2048, .f32⟩ : BufTy).Contents (Elt F) → (⟨S4096x2048, .f32⟩ : BufTy).Contents (Elt F)),
    StableHlo.unary main_v20 main_v21 (Host.negf : (⟨S4096x2048, .f32⟩ : BufTy).Contents (Elt F) → (⟨S4096x2048, .f32⟩ : BufTy).Contents (Elt F)),
    StableHlo.unary main_v21 main_v22 (Host.exp : (⟨S4096x2048, .f32⟩ : BufTy).Contents (Elt F) → (⟨S4096x2048, .f32⟩ : BufTy).Contents (Elt F)),
    StableHlo.nullary main_cst (constant S_ .f32 0x3F800000#32),
    StableHlo.unary main_cst main_v23 (broadcastInDim S4096x2048 ![] bcast_S_S4096x2048 : (⟨S_, .f32⟩ : BufTy).Contents (Elt F) → (⟨S4096x2048, .f32⟩ : BufTy).Contents (Elt F)),
    StableHlo.binary main_v23 main_v22 main_v24 (addf : (⟨S4096x2048, .f32⟩ : BufTy).Contents (Elt F) → (⟨S4096x2048, .f32⟩ : BufTy).Contents (Elt F) → (⟨S4096x2048, .f32⟩ : BufTy).Contents (Elt F)),
    StableHlo.nullary main_cst_0 (constant S_ .f32 0x3F800000#32),
    StableHlo.unary main_cst_0 main_v25 (broadcastInDim S4096x2048 ![] bcast_S_S4096x2048 : (⟨S_, .f32⟩ : BufTy).Contents (Elt F) → (⟨S4096x2048, .f32⟩ : BufTy).Contents (Elt F)),
    StableHlo.binary main_v25 main_v24 main_v26 (Host.divf : (⟨S4096x2048, .f32⟩ : BufTy).Contents (Elt F) → (⟨S4096x2048, .f32⟩ : BufTy).Contents (Elt F) → (⟨S4096x2048, .f32⟩ : BufTy).Contents (Elt F)),
    StableHlo.binary main_v15 main_v18 main_v27 (addf : (⟨S4096x2048, .f32⟩ : BufTy).Contents (Elt F) → (⟨S4096x2048, .f32⟩ : BufTy).Contents (Elt F) → (⟨S4096x2048, .f32⟩ : BufTy).Contents (Elt F)),
    StableHlo.unary main_v27 main_v28 (Host.negf : (⟨S4096x2048, .f32⟩ : BufTy).Contents (Elt F) → (⟨S4096x2048, .f32⟩ : BufTy).Contents (Elt F)),
    StableHlo.unary main_v28 main_v29 (Host.exp : (⟨S4096x2048, .f32⟩ : BufTy).Contents (Elt F) → (⟨S4096x2048, .f32⟩ : BufTy).Contents (Elt F)),
    StableHlo.nullary main_cst_1 (constant S_ .f32 0x3F800000#32),
    StableHlo.unary main_cst_1 main_v30 (broadcastInDim S4096x2048 ![] bcast_S_S4096x2048 : (⟨S_, .f32⟩ : BufTy).Contents (Elt F) → (⟨S4096x2048, .f32⟩ : BufTy).Contents (Elt F)),
    StableHlo.binary main_v30 main_v29 main_v31 (addf : (⟨S4096x2048, .f32⟩ : BufTy).Contents (Elt F) → (⟨S4096x2048, .f32⟩ : BufTy).Contents (Elt F) → (⟨S4096x2048, .f32⟩ : BufTy).Contents (Elt F)),
    StableHlo.nullary main_cst_2 (constant S_ .f32 0x3F800000#32),
    StableHlo.unary main_cst_2 main_v32 (broadcastInDim S4096x2048 ![] bcast_S_S4096x2048 : (⟨S_, .f32⟩ : BufTy).Contents (Elt F) → (⟨S4096x2048, .f32⟩ : BufTy).Contents (Elt F)),
    StableHlo.binary main_v32 main_v31 main_v33 (Host.divf : (⟨S4096x2048, .f32⟩ : BufTy).Contents (Elt F) → (⟨S4096x2048, .f32⟩ : BufTy).Contents (Elt F) → (⟨S4096x2048, .f32⟩ : BufTy).Contents (Elt F)),
    StableHlo.unary main_arg9 main_v34 (broadcastInDim S1x2048 ![1] bcast_S2048_S1x2048_1 : (⟨S2048, .f32⟩ : BufTy).Contents (Elt F) → (⟨S1x2048, .f32⟩ : BufTy).Contents (Elt F)),
    StableHlo.unary main_v34 main_v35 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v19 main_v35 main_v36 (addf : (⟨S4096x2048, .f32⟩ : BufTy).Contents (Elt F) → (⟨S4096x2048, .f32⟩ : BufTy).Contents (Elt F) → (⟨S4096x2048, .f32⟩ : BufTy).Contents (Elt F)),
    StableHlo.binary main_v26 main_v36 main_v37 (mulf : (⟨S4096x2048, .f32⟩ : BufTy).Contents (Elt F) → (⟨S4096x2048, .f32⟩ : BufTy).Contents (Elt F) → (⟨S4096x2048, .f32⟩ : BufTy).Contents (Elt F)),
    StableHlo.binary main_v16 main_v37 main_v38 (addf : (⟨S4096x2048, .f32⟩ : BufTy).Contents (Elt F) → (⟨S4096x2048, .f32⟩ : BufTy).Contents (Elt F) → (⟨S4096x2048, .f32⟩ : BufTy).Contents (Elt F)),
    StableHlo.unary main_v38 main_v39 (Host.tanh : (⟨S4096x2048, .f32⟩ : BufTy).Contents (Elt F) → (⟨S4096x2048, .f32⟩ : BufTy).Contents (Elt F)),
    StableHlo.binary main_arg2 main_v39 main_v40 (subf : (⟨S4096x2048, .f32⟩ : BufTy).Contents (Elt F) → (⟨S4096x2048, .f32⟩ : BufTy).Contents (Elt F) → (⟨S4096x2048, .f32⟩ : BufTy).Contents (Elt F)),
    StableHlo.binary main_v33 main_v40 main_v41 (mulf : (⟨S4096x2048, .f32⟩ : BufTy).Contents (Elt F) → (⟨S4096x2048, .f32⟩ : BufTy).Contents (Elt F) → (⟨S4096x2048, .f32⟩ : BufTy).Contents (Elt F)),
    StableHlo.binary main_v39 main_v41 main_v42 (addf : (⟨S4096x2048, .f32⟩ : BufTy).Contents (Elt F) → (⟨S4096x2048, .f32⟩ : BufTy).Contents (Elt F) → (⟨S4096x2048, .f32⟩ : BufTy).Contents (Elt F)) ]

theorem opsGru_sub : (opsGru : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., binary_bufs_sub .., binary_bufs_sub .., binary_bufs_sub ..⟩

theorem opsGru_fresh : ∀ op ∈ (opsGru : List (HloOp τ sig (Elt F))), op.fresh = ∅ := by
  intro _ h; (repeat (cases h with | head => rfl | tail _ h => ?_)); exact nomatch h

/-- The second dense layer. -/
abbrev opsL3 : List (HloOp τ sig (Elt F)) :=
  [ StableHlo.unary main_arg10 main_v43 ((transpose S2048x2048 [1, 0] · transposes_S2048x2048_S2048x2048_1_0) : (⟨S2048x2048, .f32⟩ : BufTy).Contents (Elt F) → (⟨S2048x2048, .f32⟩ : BufTy).Contents (Elt F)),
    StableHlo.binary main_v42 main_v43 main_v44 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg11 main_v45 (broadcastInDim S1x2048 ![1] bcast_S2048_S1x2048_1 : (⟨S2048, .f32⟩ : BufTy).Contents (Elt F) → (⟨S1x2048, .f32⟩ : BufTy).Contents (Elt F)),
    StableHlo.unary main_v45 main_v46 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v44 main_v46 main_v47 (addf : (⟨S4096x2048, .f32⟩ : BufTy).Contents (Elt F) → (⟨S4096x2048, .f32⟩ : BufTy).Contents (Elt F) → (⟨S4096x2048, .f32⟩ : BufTy).Contents (Elt F)) ]

theorem opsL3_sub : (opsL3 : List (HloOp τ sig (Elt F))).Forall fun op => op.bufs ⊆ tcRefs τ sig :=
  ⟨unary_bufs_sub .., binary_bufs_sub .., unary_bufs_sub .., unary_bufs_sub .., binary_bufs_sub ..⟩

theorem opsL3_fresh : ∀ op ∈ (opsL3 : List (HloOp τ sig (Elt F))), op.fresh = ∅ := by
  intro _ h; (repeat (cases h with | head => rfl | tail _ h => ?_)); exact nomatch h

/-- The second exponential linear unit, written out. -/
abbrev opsElu1 : List (HloOp τ sig (Elt F)) :=
  [ StableHlo.TRef.nullary main_call1.cst (constant S_ .f32 0x00000000#32),
    StableHlo.TRef.unary main_call1.cst main_call1.v0 (broadcastInDim S4096x2048 ![] bcast_S_S4096x2048),
    StableHlo.TRef.binary (StableHlo.TRef.of main_v47 : StableHlo.TRef sig ⟨S4096x2048, .f32⟩) main_call1.v0 main_call1.v1 (cmpf .ogt),
    StableHlo.TRef.nullary main_call1.cst_0 (constant S_ .f32 0x00000000#32),
    StableHlo.TRef.unary main_call1.cst_0 main_call1.v2 (broadcastInDim S4096x2048 ![] bcast_S_S4096x2048),
    StableHlo.TRef.binary (StableHlo.TRef.of main_v47 : StableHlo.TRef sig ⟨S4096x2048, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S4096x2048 ![] bcast_S_S4096x2048),
    StableHlo.TRef.ternary main_call1.v3 main_call1.call0.v1 (StableHlo.TRef.of main_v47 : StableHlo.TRef sig ⟨S4096x2048, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S4096x2048 ![] bcast_S_S4096x2048),
    StableHlo.TRef.binary main_call1.v6 main_call1.v5 main_call1.v7 mulf,
    StableHlo.TRef.ternary main_call1.v1 (StableHlo.TRef.of main_v47 : StableHlo.TRef sig ⟨S4096x2048, .f32⟩) main_call1.v7 main_call1.call1.v0 select ]

theorem opsElu1_sub : (opsElu1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsElu1_fresh : ∀ op ∈ (opsElu1 : List (HloOp τ sig (Elt F))), op.fresh = ∅ := by
  intro _ h; (repeat (cases h with | head => rfl | tail _ h => ?_)); exact nomatch h

/-- The last dense layer and its two column halves. -/
abbrev opsL4 : List (HloOp τ sig (Elt F)) :=
  [ StableHlo.unary main_arg12 main_v49 ((transpose S2048x2048 [1, 0] · transposes_S2048x2048_S2048x2048_1_0) : (⟨S2048x2048, .f32⟩ : BufTy).Contents (Elt F) → (⟨S2048x2048, .f32⟩ : BufTy).Contents (Elt F)),
    StableHlo.binary main_v48 main_v49 main_v50 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    StableHlo.unary main_arg13 main_v51 (broadcastInDim S1x2048 ![1] bcast_S2048_S1x2048_1 : (⟨S2048, .f32⟩ : BufTy).Contents (Elt F) → (⟨S1x2048, .f32⟩ : BufTy).Contents (Elt F)),
    StableHlo.unary main_v51 main_v52 (broadcastInDim S4096x2048 ![0, 1] bcast_S1x2048_S4096x2048_0_1 : (⟨S1x2048, .f32⟩ : BufTy).Contents (Elt F) → (⟨S4096x2048, .f32⟩ : BufTy).Contents (Elt F)),
    StableHlo.binary main_v50 main_v52 main_v53 (addf : (⟨S4096x2048, .f32⟩ : BufTy).Contents (Elt F) → (⟨S4096x2048, .f32⟩ : BufTy).Contents (Elt F) → (⟨S4096x2048, .f32⟩ : BufTy).Contents (Elt F)),
    StableHlo.unary main_v53 main_v54 ((extractStridedSlice S4096x1024 ![0, 0] · slices_S4096x2048_S4096x1024_0_0) : (⟨S4096x2048, .f32⟩ : BufTy).Contents (Elt F) → (⟨S4096x1024, .f32⟩ : BufTy).Contents (Elt F)),
    StableHlo.unary main_v53 main_v55 ((extractStridedSlice S4096x1024 ![0, 1024] · slices_S4096x2048_S4096x1024_0_1024) : (⟨S4096x2048, .f32⟩ : BufTy).Contents (Elt F) → (⟨S4096x1024, .f32⟩ : BufTy).Contents (Elt F)) ]

theorem opsL4_sub : (opsL4 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub ..⟩

theorem opsL4_fresh : ∀ op ∈ (opsL4 : List (HloOp τ sig (Elt F))), op.fresh = ∅ := by
  intro _ h; (repeat (cases h with | head => rfl | tail _ h => ?_)); exact nomatch h

/-- The softplus, written out. -/
abbrev opsSp : List (HloOp τ sig (Elt F)) :=
  [ StableHlo.TRef.nullary main_call2.cst (constant S_ .f32 0x00000000#32),
    StableHlo.TRef.unary main_call2.cst main_call2.v0 (broadcastInDim S4096x1024 ![] bcast_S_S4096x1024),
    StableHlo.TRef.binary (StableHlo.TRef.of main_v55 : StableHlo.TRef sig ⟨S4096x1024, .f32⟩) main_call2.v0 main_call2.v1 maximumf,
    StableHlo.TRef.unary main_call2.cst main_call2.v2 (broadcastInDim S4096x1024 ![] bcast_S_S4096x1024),
    StableHlo.TRef.binary (StableHlo.TRef.of main_v55 : StableHlo.TRef sig ⟨S4096x1024, .f32⟩) main_call2.v2 main_call2.v3 subf,
    StableHlo.TRef.binary main_call2.v3 main_call2.v3 main_call2.v4 (cmpf .une),
    StableHlo.TRef.unary main_call2.cst main_call2.v5 (broadcastInDim S4096x1024 ![] bcast_S_S4096x1024),
    StableHlo.TRef.binary (StableHlo.TRef.of main_v55 : StableHlo.TRef sig ⟨S4096x1024, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select ]

theorem opsSp_sub : (opsSp : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

theorem opsSp_fresh : ∀ op ∈ (opsSp : List (HloOp τ sig (Elt F))), op.fresh = ∅ := by
  intro _ h; (repeat (cases h with | head => rfl | tail _ h => ?_)); exact nomatch h

/-- The deviation's offset, the deviation, and the sample. -/
abbrev opsTail : List (HloOp τ sig (Elt F)) :=
  [ StableHlo.nullary main_cst_3 (constant S_ .f32 0x3DCCCCCD#32),
    StableHlo.unary main_cst_3 main_v57 (broadcastInDim S4096x1024 ![] bcast_S_S4096x1024 : (⟨S_, .f32⟩ : BufTy).Contents (Elt F) → (⟨S4096x1024, .f32⟩ : BufTy).Contents (Elt F)),
    StableHlo.binary main_v56 main_v57 main_v58 (addf : (⟨S4096x1024, .f32⟩ : BufTy).Contents (Elt F) → (⟨S4096x1024, .f32⟩ : BufTy).Contents (Elt F) → (⟨S4096x1024, .f32⟩ : BufTy).Contents (Elt F)),
    StableHlo.binary main_v58 main_arg3 main_v59 (mulf : (⟨S4096x1024, .f32⟩ : BufTy).Contents (Elt F) → (⟨S4096x1024, .f32⟩ : BufTy).Contents (Elt F) → (⟨S4096x1024, .f32⟩ : BufTy).Contents (Elt F)),
    StableHlo.binary main_v54 main_v59 main_v60 (addf : (⟨S4096x1024, .f32⟩ : BufTy).Contents (Elt F) → (⟨S4096x1024, .f32⟩ : BufTy).Contents (Elt F) → (⟨S4096x1024, .f32⟩ : BufTy).Contents (Elt F)) ]

theorem opsTail_sub : (opsTail : List (HloOp τ sig (Elt F))).Forall fun op => op.bufs ⊆ tcRefs τ sig :=
  ⟨nullary_bufs_sub .., unary_bufs_sub .., binary_bufs_sub .., binary_bufs_sub .., binary_bufs_sub ..⟩

theorem opsTail_fresh : ∀ op ∈ (opsTail : List (HloOp τ sig (Elt F))), op.fresh = ∅ := by
  intro _ h; (repeat (cases h with | head => rfl | tail _ h => ?_)); exact nomatch h

/-- The whole line. -/
abbrev ops : List (HloOp τ sig (Elt F)) :=
  opsL1 ++ (opsElu0 ++ (opsGru ++ (opsL3 ++ (opsElu1 ++ (opsL4 ++ (opsSp ++ (opsTail)))))))

set_option maxRecDepth 16384 in
theorem main_part0_eq (c : Dev nD) : main_part0 (F := F) c = seq (opsL1 ++ (opsElu0 ++ (opsGru ++ (opsL3 ++ (opsElu1 ++ (opsL4)))))) := by
  rfl

set_option maxRecDepth 16384 in
theorem main_part1_eq (c : Dev nD) : main_part1 (F := F) c = seq (opsSp ++ (opsTail)) := by
  rfl

theorem main_eq (c : Dev nD) : main (F := F) c = seq ops := by
  show (main_part0 (F := F) c >>= fun _ => main_part1 (F := F) c) = seq ops
  rw [main_part0_eq, main_part1_eq, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsL1_sub, List.forall_append.mpr ⟨opsElu0_sub, List.forall_append.mpr ⟨opsGru_sub, List.forall_append.mpr ⟨opsL3_sub, List.forall_append.mpr ⟨opsElu1_sub, List.forall_append.mpr ⟨opsL4_sub, List.forall_append.mpr ⟨opsSp_sub, opsTail_sub⟩⟩⟩⟩⟩⟩⟩

theorem ops_fresh : ∀ op ∈ (ops : List (HloOp τ sig (Elt F))), op.fresh = ∅ := by
  intro op h
  simp only [ops, List.mem_append] at h
  rcases h with h | h | h | h | h | h | h | h
  · exact opsL1_fresh op h
  · exact opsElu0_fresh op h
  · exact opsGru_fresh op h
  · exact opsL3_fresh op h
  · exact opsElu1_fresh op h
  · exact opsL4_fresh op h
  · exact opsSp_fresh op h
  · exact opsTail_fresh op h

/-- At the compiled mesh, from any memory with zero counters: every weakly fair execution of the reference terminates,
    and every final state has each buffer at the fold of the line over the launch contents. -/
theorem run0 (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefOps

end
-- ==== Proof.RefArr.lean ====
/-
  The reference's stages as functions of whole arrays.

  A dense layer is a product against the transposed weight array plus the bias spread over the rows.  The exponential
  linear unit keeps an entry where it is positive and otherwise takes one times the exponential-minus-one of the entry
  (guarded to zero where positive).  The logistic gate is one over one plus the exponential of the negated entry.  The
  recurrent step cuts the two [4096, 6144] gate pre-activations into their three column blocks.  The softplus is written
  through the difference from zero.  Each function is the composition of the host operations of one stretch of the
  reference, in the reference's operand order.
-/
import proofs.«133578_j12730283065883_2_alg».proof.Proof.Gen.ReferenceIdeal

noncomputable section

namespace Cert.RefArr

open Cert.ReferenceIdeal Cert.ReferenceIdeal.Facts₀ Idealize.ShloMosaic

attribute [local instance] Cert.ReferenceIdeal.Gen.facts

variable {F : FTy → Type} [FloatOps F]

/-- The first dense layer: [4096, 1056] against [2048, 1056], plus the bias. -/
def lin1 (x : (⟨S4096x1056, .f32⟩ : BufTy).Contents (Elt F)) (w : (⟨S2048x1056, .f32⟩ : BufTy).Contents (Elt F))
    (b : (⟨S2048, .f32⟩ : BufTy).Contents (Elt F)) : (⟨S4096x2048, .f32⟩ : BufTy).Contents (Elt F) :=
  addf (Host.dotGeneral dot_S4096x1056_S1056x2048_S4096x2048_1_0_0_1_n_n none x
      (transpose S1056x2048 [1, 0] w transposes_S2048x1056_S1056x2048_1_0))
    (broadcastInDim S4096x2048 ![0, 1] bcast_S1x2048_S4096x2048_0_1 (broadcastInDim S1x2048 ![1] bcast_S2048_S1x2048_1 b))

/-- The gates' input pre-activations: [4096, 2048] against [6144, 2048], plus the bias. -/
def linG (h : (⟨S4096x2048, .f32⟩ : BufTy).Contents (Elt F)) (w : (⟨S6144x2048, .f32⟩ : BufTy).Contents (Elt F))
    (b : (⟨S6144, .f32⟩ : BufTy).Contents (Elt F)) : (⟨S4096x6144, .f32⟩ : BufTy).Contents (Elt F) :=
  addf (Host.dotGeneral dot_S4096x2048_S2048x6144_S4096x6144_1_0_0_1_n_n none h
      (transpose S2048x6144 [1, 0] w transposes_S6144x2048_S2048x6144_1_0))
    (broadcastInDim S4096x6144 ![0, 1] bcast_S1x6144_S4096x6144_0_1 (broadcastInDim S1x6144 ![1] bcast_S6144_S1x6144_1 b))

/-- The gates' hidden pre-activations: [4096, 2048] against [6144, 2048], no bias. -/
def dotG (p : (⟨S4096x2048, .f32⟩ : BufTy).Contents (Elt F)) (w : (⟨S6144x2048, .f32⟩ : BufTy).Contents (Elt F)) :
    (⟨S4096x6144, .f32⟩ : BufTy).Contents (Elt F) :=
  Host.dotGeneral dot_S4096x2048_S2048x6144_S4096x6144_1_0_0_1_n_n none p
    (transpose S2048x6144 [1, 0] w transposes_S6144x2048_S2048x6144_1_0)

/-- A square dense layer: [4096, 2048] against [2048, 2048], plus the bias. -/
def linS (h : (⟨S4096x2048, .f32⟩ : BufTy).Contents (Elt F)) (w : (⟨S2048x2048, .f32⟩ : BufTy).Contents (Elt F))
    (b : (⟨S2048, .f32⟩ : BufTy).Contents (Elt F)) : (⟨S4096x2048, .f32⟩ : BufTy).Contents (Elt F) :=
  addf (Host.dotGeneral dot_S4096x2048_S2048x2048_S4096x2048_1_0_0_1_n_n none h
      (transpose S2048x2048 [1, 0] w transposes_S2048x2048_S2048x2048_1_0))
    (broadcastInDim S4096x2048 ![0, 1] bcast_S1x2048_S4096x2048_0_1 (broadcastInDim S1x2048 ![1] bcast_S2048_S1x2048_1 b))

/-- The exponential linear unit, entry by entry. -/
def eluA (x : (⟨S4096x2048, .f32⟩ : BufTy).Contents (Elt F)) : (⟨S4096x2048, .f32⟩ : BufTy).Contents (Elt F) :=
  select (cmpf .ogt x (broadcastInDim S4096x2048 ![] bcast_S_S4096x2048 (constant S_ .f32 0x00000000#32))) x
    (mulf (broadcastInDim S4096x2048 ![] bcast_S_S4096x2048 (constant S_ .f32 0x3F800000#32))
      (Host.expm1
        (select (cmpf .ogt x (broadcastInDim S4096x2048 ![] bcast_S_S4096x2048 (constant S_ .f32 0x00000000#32)))
          (broadcastInDim S4096x2048 ![] bcast_S_S4096x2048 (id (constant S_ .f32 0x00000000#32))) x)))

/-- The logistic gate, entry by entry. -/
def sigA (x : (⟨S4096x2048, .f32⟩ : BufTy).Contents (Elt F)) : (⟨S4096x2048, .f32⟩ : BufTy).Contents (Elt F) :=
  Host.divf (broadcastInDim S4096x2048 ![] bcast_S_S4096x2048 (constant S_ .f32 0x3F800000#32))
    (addf (broadcastInDim S4096x2048 ![] bcast_S_S4096x2048 (constant S_ .f32 0x3F800000#32)) (Host.exp (Host.negf x)))

/-- Column block g of a [4096, 6144] array. -/
def blk0 (x : (⟨S4096x6144, .f32⟩ : BufTy).Contents (Elt F)) : (⟨S4096x2048, .f32⟩ : BufTy).Contents (Elt F) :=
  extractStridedSlice S4096x2048 ![0, 0] x slices_S4096x6144_S4096x2048_0_0
def blk1 (x : (⟨S4096x6144, .f32⟩ : BufTy).Contents (Elt F)) : (⟨S4096x2048, .f32⟩ : BufTy).Contents (Elt F) :=
  extractStridedSlice S4096x2048 ![0, 2048] x slices_S4096x6144_S4096x2048_0_2048
def blk2 (x : (⟨S4096x6144, .f32⟩ : BufTy).Contents (Elt F)) : (⟨S4096x2048, .f32⟩ : BufTy).Contents (Elt F) :=
  extractStridedSlice S4096x2048 ![0, 4096] x slices_S4096x6144_S4096x2048_0_4096

/-- The candidate state. -/
def candA (gi gh : (⟨S4096x6144, .f32⟩ : BufTy).Contents (Elt F)) (bn : (⟨S2048, .f32⟩ : BufTy).Contents (Elt F)) :
    (⟨S4096x2048, .f32⟩ : BufTy).Contents (Elt F) :=
  Host.tanh (addf (blk2 gi) (mulf (sigA (addf (blk0 gi) (blk0 gh)))
    (addf (blk2 gh) (broadcastInDim S4096x2048 ![0, 1] bcast_S1x2048_S4096x2048_0_1 (broadcastInDim S1x2048 ![1] bcast_S2048_S1x2048_1 bn)))))

/-- The new state: candidate + update * (old state - candidate). -/
def gruA (gi gh : (⟨S4096x6144, .f32⟩ : BufTy).Contents (Elt F)) (bn : (⟨S2048, .f32⟩ : BufTy).Contents (Elt F))
    (p : (⟨S4096x2048, .f32⟩ : BufTy).Contents (Elt F)) : (⟨S4096x2048, .f32⟩ : BufTy).Contents (Elt F) :=
  addf (candA gi gh bn) (mulf (sigA (addf (blk1 gi) (blk1 gh))) (subf p (candA gi gh bn)))

/-- The two column halves of the last layer. -/
def halfLo (o : (⟨S4096x2048, .f32⟩ : BufTy).Contents (Elt F)) : (⟨S4096x1024, .f32⟩ : BufTy).Contents (Elt F) :=
  extractStridedSlice S4096x1024 ![0, 0] o slices_S4096x2048_S4096x1024_0_0
def halfHi (o : (⟨S4096x2048, .f32⟩ : BufTy).Contents (Elt F)) : (⟨S4096x1024, .f32⟩ : BufTy).Contents (Elt F) :=
  extractStridedSlice S4096x1024 ![0, 1024] o slices_S4096x2048_S4096x1024_0_1024

/-- The softplus, entry by entry, through the difference from zero. -/
def spA (x : (⟨S4096x1024, .f32⟩ : BufTy).Contents (Elt F)) : (⟨S4096x1024, .f32⟩ : BufTy).Contents (Elt F) :=
  select
    (cmpf .une (subf x (broadcastInDim S4096x1024 ![] bcast_S_S4096x1024 (constant S_ .f32 0x00000000#32)))
      (subf x (broadcastInDim S4096x1024 ![] bcast_S_S4096x1024 (constant S_ .f32 0x00000000#32))))
    (addf x (broadcastInDim S4096x1024 ![] bcast_S_S4096x1024 (constant S_ .f32 0x00000000#32)))
    (addf (maximumf x (broadcastInDim S4096x1024 ![] bcast_S_S4096x1024 (constant S_ .f32 0x00000000#32)))
      (Host.log1p (Host.exp (Host.negf (Host.absf
        (subf x (broadcastInDim S4096x1024 ![] bcast_S_S4096x1024 (constant S_ .f32 0x00000000#32))))))))

/-- The deviation from the softplus: plus the fixed offset. -/
def sdA (y : (⟨S4096x1024, .f32⟩ : BufTy).Contents (Elt F)) : (⟨S4096x1024, .f32⟩ : BufTy).Contents (Elt F) :=
  addf y (broadcastInDim S4096x1024 ![] bcast_S_S4096x1024 (constant S_ .f32 0x3DCCCCCD#32))

/-- The sample: mean + deviation * noise. -/
def smpA (mean sd eps : (⟨S4096x1024, .f32⟩ : BufTy).Contents (Elt F)) : (⟨S4096x1024, .f32⟩ : BufTy).Contents (Elt F) :=
  addf mean (mulf sd eps)

end Cert.RefArr

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.RefStages.lean ====
/-
  What each stretch of the reference leaves in the buffers the later stretches read, as a function of ANY contents
  before it: the stretch's host operations composed, in order, at its result buffer.  The operations of a called
  function carry their values through casts between two spellings of one buffer type; the casts are the identity.
-/
import proofs.«133578_j12730283065883_2_alg».proof.Proof.RefOps
import proofs.«133578_j12730283065883_2_alg».proof.Proof.RefArr
import proofs.«133578_j12730283065883_2_alg».proof.Proof.LibTRefCasts

noncomputable section

namespace Cert.RefStages

open Cert.ReferenceIdeal Cert.ReferenceIdeal.Facts₀ Idealize.ShloMosaic Idealize.ShloMosaic.TcCoe Idealize.SL.Sem Idealize.ShloMosaic.StableHlo Cert.RefOps Cert.RefArr

attribute [local instance] Cert.ReferenceIdeal.Gen.facts

variable {F : FTy → Type} [FloatOps F] (W : Valuation τ sig (Elt F))

theorem opsL1_main_v5 : after opsL1 W (main_v5 : DevRef τ sig) = lin1 (concatenate S4096x1056 1 [⟨S4096x32, W (main_arg0 : DevRef τ sig)⟩, ⟨S4096x1024, W (main_arg1 : DevRef τ sig)⟩] concatenates_S4096x32_S4096x1024_S4096x1056_d1) (W (main_arg4 : DevRef τ sig)) (W (main_arg5 : DevRef τ sig)) := by
  after_results_simp
  rfl

theorem opsElu0_main_v6 : after opsElu0 W (main_v6 : DevRef τ sig) = eluA (W (main_v5 : DevRef τ sig)) := by
  after_results_simp
  rfl

theorem opsGru_main_v42 : after opsGru W (main_v42 : DevRef τ sig) = gruA (linG (W (main_v6 : DevRef τ sig)) (W (main_arg6 : DevRef τ sig)) (W (main_arg8 : DevRef τ sig))) (dotG (W (main_arg2 : DevRef τ sig)) (W (main_arg7 : DevRef τ sig))) (W (main_arg9 : DevRef τ sig)) (W (main_arg2 : DevRef τ sig)) := by
  after_results_simp
  rfl

theorem opsL3_main_v47 : after opsL3 W (main_v47 : DevRef τ sig) = linS (W (main_v42 : DevRef τ sig)) (W (main_arg10 : DevRef τ sig)) (W (main_arg11 : DevRef τ sig)) := by
  after_results_simp
  rfl

theorem opsElu1_main_v48 : after opsElu1 W (main_v48 : DevRef τ sig) = eluA (W (main_v47 : DevRef τ sig)) := by
  after_results_simp
  rfl

theorem opsL4_main_v54 : after opsL4 W (main_v54 : DevRef τ sig) = halfLo (linS (W (main_v48 : DevRef τ sig)) (W (main_arg12 : DevRef τ sig)) (W (main_arg13 : DevRef τ sig))) := by
  after_results_simp
  rfl

theorem opsL4_main_v55 : after opsL4 W (main_v55 : DevRef τ sig) = halfHi (linS (W (main_v48 : DevRef τ sig)) (W (main_arg12 : DevRef τ sig)) (W (main_arg13 : DevRef τ sig))) := by
  after_results_simp
  rfl

theorem opsSp_main_v56 : after opsSp W (main_v56 : DevRef τ sig) = spA (W (main_v55 : DevRef τ sig)) := by
  after_results_simp
  rfl

theorem opsTail_main_v58 : after opsTail W (main_v58 : DevRef τ sig) = sdA (W (main_v56 : DevRef τ sig)) := by
  after_results_simp
  rfl

theorem opsTail_main_v60 : after opsTail W (main_v60 : DevRef τ sig) = smpA (W (main_v54 : DevRef τ sig)) (sdA (W (main_v56 : DevRef τ sig))) (W (main_arg3 : DevRef τ sig)) := by
  after_results_simp
  rfl

end Cert.RefStages

end
-- ==== Proof.RefPass.lean ====
/-
  Buffers a stretch of the reference does not write keep their contents across it: the argument arrays that a later
  stretch reads, the new hidden state across the stretches after the recurrent step, and the mean across the softplus.
-/
import proofs.«133578_j12730283065883_2_alg».proof.Proof.RefOps

noncomputable section

namespace Cert.RefPass

open Cert.ReferenceIdeal Cert.ReferenceIdeal.Facts₀ Idealize.ShloMosaic Idealize.ShloMosaic.TcCoe Idealize.SL.Sem Idealize.ShloMosaic.StableHlo Cert.RefOps

attribute [local instance] Cert.ReferenceIdeal.Gen.facts

variable {F : FTy → Type} [FloatOps F] (W : Valuation τ sig (Elt F))

theorem opsL3_main_v42 : after opsL3 W (main_v42 : DevRef τ sig) = W (main_v42 : DevRef τ sig) := by after_results_simp
theorem opsElu1_main_v42 : after opsElu1 W (main_v42 : DevRef τ sig) = W (main_v42 : DevRef τ sig) := by after_results_simp
theorem opsL4_main_v42 : after opsL4 W (main_v42 : DevRef τ sig) = W (main_v42 : DevRef τ sig) := by after_results_simp
theorem opsSp_main_v42 : after opsSp W (main_v42 : DevRef τ sig) = W (main_v42 : DevRef τ sig) := by after_results_simp
theorem opsTail_main_v42 : after opsTail W (main_v42 : DevRef τ sig) = W (main_v42 : DevRef τ sig) := by after_results_simp
theorem opsL1_main_arg6 : after opsL1 W (main_arg6 : DevRef τ sig) = W (main_arg6 : DevRef τ sig) := by after_results_simp
theorem opsL1_main_arg8 : after opsL1 W (main_arg8 : DevRef τ sig) = W (main_arg8 : DevRef τ sig) := by after_results_simp
theorem opsL1_main_arg2 : after opsL1 W (main_arg2 : DevRef τ sig) = W (main_arg2 : DevRef τ sig) := by after_results_simp
theorem opsL1_main_arg7 : after opsL1 W (main_arg7 : DevRef τ sig) = W (main_arg7 : DevRef τ sig) := by after_results_simp
theorem opsL1_main_arg9 : after opsL1 W (main_arg9 : DevRef τ sig) = W (main_arg9 : DevRef τ sig) := by after_results_simp
theorem opsElu0_main_arg6 : after opsElu0 W (main_arg6 : DevRef τ sig) = W (main_arg6 : DevRef τ sig) := by after_results_simp
theorem opsElu0_main_arg8 : after opsElu0 W (main_arg8 : DevRef τ sig) = W (main_arg8 : DevRef τ sig) := by after_results_simp
theorem opsElu0_main_arg2 : after opsElu0 W (main_arg2 : DevRef τ sig) = W (main_arg2 : DevRef τ sig) := by after_results_simp
theorem opsElu0_main_arg7 : after opsElu0 W (main_arg7 : DevRef τ sig) = W (main_arg7 : DevRef τ sig) := by after_results_simp
theorem opsElu0_main_arg9 : after opsElu0 W (main_arg9 : DevRef τ sig) = W (main_arg9 : DevRef τ sig) := by after_results_simp
theorem opsL1_main_arg10 : after opsL1 W (main_arg10 : DevRef τ sig) = W (main_arg10 : DevRef τ sig) := by after_results_simp
theorem opsL1_main_arg11 : after opsL1 W (main_arg11 : DevRef τ sig) = W (main_arg11 : DevRef τ sig) := by after_results_simp
theorem opsElu0_main_arg10 : after opsElu0 W (main_arg10 : DevRef τ sig) = W (main_arg10 : DevRef τ sig) := by after_results_simp
theorem opsElu0_main_arg11 : after opsElu0 W (main_arg11 : DevRef τ sig) = W (main_arg11 : DevRef τ sig) := by after_results_simp
theorem opsGru_main_arg10 : after opsGru W (main_arg10 : DevRef τ sig) = W (main_arg10 : DevRef τ sig) := by after_results_simp
theorem opsGru_main_arg11 : after opsGru W (main_arg11 : DevRef τ sig) = W (main_arg11 : DevRef τ sig) := by after_results_simp
theorem opsL1_main_arg12 : after opsL1 W (main_arg12 : DevRef τ sig) = W (main_arg12 : DevRef τ sig) := by after_results_simp
theorem opsL1_main_arg13 : after opsL1 W (main_arg13 : DevRef τ sig) = W (main_arg13 : DevRef τ sig) := by after_results_simp
theorem opsElu0_main_arg12 : after opsElu0 W (main_arg12 : DevRef τ sig) = W (main_arg12 : DevRef τ sig) := by after_results_simp
theorem opsElu0_main_arg13 : after opsElu0 W (main_arg13 : DevRef τ sig) = W (main_arg13 : DevRef τ sig) := by after_results_simp
theorem opsGru_main_arg12 : after opsGru W (main_arg12 : DevRef τ sig) = W (main_arg12 : DevRef τ sig) := by after_results_simp
theorem opsGru_main_arg13 : after opsGru W (main_arg13 : DevRef τ sig) = W (main_arg13 : DevRef τ sig) := by after_results_simp
theorem opsL3_main_arg12 : after opsL3 W (main_arg12 : DevRef τ sig) = W (main_arg12 : DevRef τ sig) := by after_results_simp
theorem opsL3_main_arg13 : after opsL3 W (main_arg13 : DevRef τ sig) = W (main_arg13 : DevRef τ sig) := by after_results_simp
theorem opsElu1_main_arg12 : after opsElu1 W (main_arg12 : DevRef τ sig) = W (main_arg12 : DevRef τ sig) := by after_results_simp
theorem opsElu1_main_arg13 : after opsElu1 W (main_arg13 : DevRef τ sig) = W (main_arg13 : DevRef τ sig) := by after_results_simp
theorem opsSp_main_v54 : after opsSp W (main_v54 : DevRef τ sig) = W (main_v54 : DevRef τ sig) := by after_results_simp
theorem opsL1_main_arg3 : after opsL1 W (main_arg3 : DevRef τ sig) = W (main_arg3 : DevRef τ sig) := by after_results_simp
theorem opsElu0_main_arg3 : after opsElu0 W (main_arg3 : DevRef τ sig) = W (main_arg3 : DevRef τ sig) := by after_results_simp
theorem opsGru_main_arg3 : after opsGru W (main_arg3 : DevRef τ sig) = W (main_arg3 : DevRef τ sig) := by after_results_simp
theorem opsL3_main_arg3 : after opsL3 W (main_arg3 : DevRef τ sig) = W (main_arg3 : DevRef τ sig) := by after_results_simp
theorem opsElu1_main_arg3 : after opsElu1 W (main_arg3 : DevRef τ sig) = W (main_arg3 : DevRef τ sig) := by after_results_simp
theorem opsL4_main_arg3 : after opsL4 W (main_arg3 : DevRef τ sig) = W (main_arg3 : DevRef τ sig) := by after_results_simp
theorem opsSp_main_arg3 : after opsSp W (main_arg3 : DevRef τ sig) = W (main_arg3 : DevRef τ sig) := by after_results_simp
theorem opsTail_main_v54 : after opsTail W (main_v54 : DevRef τ sig) = W (main_v54 : DevRef τ sig) := by after_results_simp

end Cert.RefPass

end
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.RefChain.lean ====
/-
  The reference's four results as the stages composed over the launch contents.

  The contents after the whole line are the contents after the last stretch, started from the contents after the
  stretches before it.  Each result is followed back through the stretches: across a stretch that does not write it a
  buffer keeps its contents, and at the stretch that writes it it holds that stretch's function of the buffers the
  stretch reads.
-/
import proofs.«133578_j12730283065883_2_alg».proof.Proof.RefStages
import proofs.«133578_j12730283065883_2_alg».proof.Proof.RefPass
import proofs.«133578_j12730283065883_2_alg».proof.Proof.LibFoldAppend

noncomputable section

namespace Cert.RefChain

open Cert.ReferenceIdeal Cert.ReferenceIdeal.Facts₀ Idealize.ShloMosaic Idealize.ShloMosaic.TcCoe Idealize.SL.Sem Idealize.ShloMosaic.StableHlo Cert.RefOps Cert.RefArr Cert.RefStages Cert.RefPass

attribute [local instance] Cert.ReferenceIdeal.Gen.facts

variable {F : FTy → Type} [FloatOps F] (V : Valuation τ sig (Elt F))

theorem hidden_arr : after ops V (main_v42 : DevRef τ sig) = gruA (linG (eluA (lin1 (concatenate S4096x1056 1 [⟨S4096x32, V (main_arg0 : DevRef τ sig)⟩, ⟨S4096x1024, V (main_arg1 : DevRef τ sig)⟩] concatenates_S4096x32_S4096x1024_S4096x1056_d1) (V (main_arg4 : DevRef τ sig)) (V (main_arg5 : DevRef τ sig)))) (V (main_arg6 : DevRef τ sig)) (V (main_arg8 : DevRef τ sig))) (dotG (V (main_arg2 : DevRef τ sig)) (V (main_arg7 : DevRef τ sig))) (V (main_arg9 : DevRef τ sig)) (V (main_arg2 : DevRef τ sig)) := by
  simp only [ops, Cert.FoldAppend.after_append]
  rw [opsTail_main_v42,
    opsSp_main_v42,
    opsL4_main_v42,
    opsElu1_main_v42,
    opsL3_main_v42,
    opsGru_main_v42,
    opsElu0_main_v6,
    opsElu0_main_arg6,
    opsElu0_main_arg8,
    opsElu0_main_arg2,
    opsElu0_main_arg7,
    opsElu0_main_arg9,
    opsL1_main_v5,
    opsL1_main_arg6,
    opsL1_main_arg8,
    opsL1_main_arg2,
    opsL1_main_arg7,
    opsL1_main_arg9]

theorem mean_arr : after ops V (main_v54 : DevRef τ sig) = halfLo (linS (eluA (linS (gruA (linG (eluA (lin1 (concatenate S4096x1056 1 [⟨S4096x32, V (main_arg0 : DevRef τ sig)⟩, ⟨S4096x1024, V (main_arg1 : DevRef τ sig)⟩] concatenates_S4096x32_S4096x1024_S4096x1056_d1) (V (main_arg4 : DevRef τ sig)) (V (main_arg5 : DevRef τ sig)))) (V (main_arg6 : DevRef τ sig)) (V (main_arg8 : DevRef τ sig))) (dotG (V (main_arg2 : DevRef τ sig)) (V (main_arg7 : DevRef τ sig))) (V (main_arg9 : DevRef τ sig)) (V (main_arg2 : DevRef τ sig))) (V (main_arg10 : DevRef τ sig)) (V (main_arg11 : DevRef τ sig)))) (V (main_arg12 : DevRef τ sig)) (V (main_arg13 : DevRef τ sig))) := by
  simp only [ops, Cert.FoldAppend.after_append]
  rw [opsTail_main_v54,
    opsSp_main_v54,
    opsL4_main_v54,
    opsElu1_main_v48,
    opsElu1_main_arg12,
    opsElu1_main_arg13,
    opsL3_main_v47,
    opsL3_main_arg12,
    opsL3_main_arg13,
    opsGru_main_v42,
    opsGru_main_arg10,
    opsGru_main_arg11,
    opsGru_main_arg12,
    opsGru_main_arg13,
    opsElu0_main_v6,
    opsElu0_main_arg6,
    opsElu0_main_arg8,
    opsElu0_main_arg2,
    opsElu0_main_arg7,
    opsElu0_main_arg9,
    opsElu0_main_arg10,
    opsElu0_main_arg11,
    opsElu0_main_arg12,
    opsElu0_main_arg13,
    opsL1_main_v5,
    opsL1_main_arg6,
    opsL1_main_arg8,
    opsL1_main_arg2,
    opsL1_main_arg7,
    opsL1_main_arg9,
    opsL1_main_arg10,
    opsL1_main_arg11,
    opsL1_main_arg12,
    opsL1_main_arg13]

theorem sd_arr : after ops V (main_v58 : DevRef τ sig) = sdA (spA (halfHi (linS (eluA (linS (gruA (linG (eluA (lin1 (concatenate S4096x1056 1 [⟨S4096x32, V (main_arg0 : DevRef τ sig)⟩, ⟨S4096x1024, V (main_arg1 : DevRef τ sig)⟩] concatenates_S4096x32_S4096x1024_S4096x1056_d1) (V (main_arg4 : DevRef τ sig)) (V (main_arg5 : DevRef τ sig)))) (V (main_arg6 : DevRef τ sig)) (V (main_arg8 : DevRef τ sig))) (dotG (V (main_arg2 : DevRef τ sig)) (V (main_arg7 : DevRef τ sig))) (V (main_arg9 : DevRef τ sig)) (V (main_arg2 : DevRef τ sig))) (V (main_arg10 : DevRef τ sig)) (V (main_arg11 : DevRef τ sig)))) (V (main_arg12 : DevRef τ sig)) (V (main_arg13 : DevRef τ sig))))) := by
  simp only [ops, Cert.FoldAppend.after_append]
  rw [opsTail_main_v58,
    opsSp_main_v56,
    opsL4_main_v55,
    opsElu1_main_v48,
    opsElu1_main_arg12,
    opsElu1_main_arg13,
    opsL3_main_v47,
    opsL3_main_arg12,
    opsL3_main_arg13,
    opsGru_main_v42,
    opsGru_main_arg10,
    opsGru_main_arg11,
    opsGru_main_arg12,
    opsGru_main_arg13,
    opsElu0_main_v6,
    opsElu0_main_arg6,
    opsElu0_main_arg8,
    opsElu0_main_arg2,
    opsElu0_main_arg7,
    opsElu0_main_arg9,
    opsElu0_main_arg10,
    opsElu0_main_arg11,
    opsElu0_main_arg12,
    opsElu0_main_arg13,
    opsL1_main_v5,
    opsL1_main_arg6,
    opsL1_main_arg8,
    opsL1_main_arg2,
    opsL1_main_arg7,
    opsL1_main_arg9,
    opsL1_main_arg10,
    opsL1_main_arg11,
    opsL1_main_arg12,
    opsL1_main_arg13]

theorem sample_arr : after ops V (main_v60 : DevRef τ sig) = smpA (halfLo (linS (eluA (linS (gruA (linG (eluA (lin1 (concatenate S4096x1056 1 [⟨S4096x32, V (main_arg0 : DevRef τ sig)⟩, ⟨S4096x1024, V (main_arg1 : DevRef τ sig)⟩] concatenates_S4096x32_S4096x1024_S4096x1056_d1) (V (main_arg4 : DevRef τ sig)) (V (main_arg5 : DevRef τ sig)))) (V (main_arg6 : DevRef τ sig)) (V (main_arg8 : DevRef τ sig))) (dotG (V (main_arg2 : DevRef τ sig)) (V (main_arg7 : DevRef τ sig))) (V (main_arg9 : DevRef τ sig)) (V (main_arg2 : DevRef τ sig))) (V (main_arg10 : DevRef τ sig)) (V (main_arg11 : DevRef τ sig)))) (V (main_arg12 : DevRef τ sig)) (V (main_arg13 : DevRef τ sig)))) (sdA (spA (halfHi (linS (eluA (linS (gruA (linG (eluA (lin1 (concatenate S4096x1056 1 [⟨S4096x32, V (main_arg0 : DevRef τ sig)⟩, ⟨S4096x1024, V (main_arg1 : DevRef τ sig)⟩] concatenates_S4096x32_S4096x1024_S4096x1056_d1) (V (main_arg4 : DevRef τ sig)) (V (main_arg5 : DevRef τ sig)))) (V (main_arg6 : DevRef τ sig)) (V (main_arg8 : DevRef τ sig))) (dotG (V (main_arg2 : DevRef τ sig)) (V (main_arg7 : DevRef τ sig))) (V (main_arg9 : DevRef τ sig)) (V (main_arg2 : DevRef τ sig))) (V (main_arg10 : DevRef τ sig)) (V (main_arg11 : DevRef τ sig)))) (V (main_arg12 : DevRef τ sig)) (V (main_arg13 : DevRef τ sig)))))) (V (main_arg3 : DevRef τ sig)) := by
  simp only [ops, Cert.FoldAppend.after_append]
  rw [opsTail_main_v60,
    opsSp_main_v54,
    opsSp_main_v56,
    opsSp_main_arg3,
    opsL4_main_v54,
    opsL4_main_v55,
    opsL4_main_arg3,
    opsElu1_main_v48,
    opsElu1_main_arg12,
    opsElu1_main_arg13,
    opsElu1_main_arg3,
    opsL3_main_v47,
    opsL3_main_arg12,
    opsL3_main_arg13,
    opsL3_main_arg3,
    opsGru_main_v42,
    opsGru_main_arg10,
    opsGru_main_arg11,
    opsGru_main_arg12,
    opsGru_main_arg13,
    opsGru_main_arg3,
    opsElu0_main_v6,
    opsElu0_main_arg6,
    opsElu0_main_arg8,
    opsElu0_main_arg2,
    opsElu0_main_arg7,
    opsElu0_main_arg9,
    opsElu0_main_arg10,
    opsElu0_main_arg11,
    opsElu0_main_arg12,
    opsElu0_main_arg13,
    opsElu0_main_arg3,
    opsL1_main_v5,
    opsL1_main_arg6,
    opsL1_main_arg8,
    opsL1_main_arg2,
    opsL1_main_arg7,
    opsL1_main_arg9,
    opsL1_main_arg10,
    opsL1_main_arg11,
    opsL1_main_arg12,
    opsL1_main_arg13,
    opsL1_main_arg3]

end Cert.RefChain

end
-- ==== Proof.RefArgs.lean ====
/-
  No operation of the reference writes an argument array: after the whole line each holds its launch contents.
-/
import proofs.«133578_j12730283065883_2_alg».proof.Proof.RefOps

noncomputable section

namespace Cert.RefArgs

open Cert.ReferenceIdeal Cert.ReferenceIdeal.Facts₀ Idealize.ShloMosaic Idealize.ShloMosaic.TcCoe Idealize.SL.Sem Idealize.ShloMosaic.StableHlo Cert.RefOps

attribute [local instance] Cert.ReferenceIdeal.Gen.facts

variable {F : FTy → Type} [FloatOps F] (W : Valuation τ sig (Elt F))

theorem ops_main_arg0 : after ops W (main_arg0 : DevRef τ sig) = W (main_arg0 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg1 : after ops W (main_arg1 : DevRef τ sig) = W (main_arg1 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg2 : after ops W (main_arg2 : DevRef τ sig) = W (main_arg2 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg3 : after ops W (main_arg3 : DevRef τ sig) = W (main_arg3 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg4 : after ops W (main_arg4 : DevRef τ sig) = W (main_arg4 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg5 : after ops W (main_arg5 : DevRef τ sig) = W (main_arg5 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg6 : after ops W (main_arg6 : DevRef τ sig) = W (main_arg6 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg7 : after ops W (main_arg7 : DevRef τ sig) = W (main_arg7 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg8 : after ops W (main_arg8 : DevRef τ sig) = W (main_arg8 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg9 : after ops W (main_arg9 : DevRef τ sig) = W (main_arg9 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg10 : after ops W (main_arg10 : DevRef τ sig) = W (main_arg10 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg11 : after ops W (main_arg11 : DevRef τ sig) = W (main_arg11 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg12 : after ops W (main_arg12 : DevRef τ sig) = W (main_arg12 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']
theorem ops_main_arg13 : after ops W (main_arg13 : DevRef τ sig) = W (main_arg13 : DevRef τ sig) := by
  simp (disch := decide) only [ops, opsL1, opsElu0, opsGru, opsL3, opsElu1, opsL4, opsSp, opsTail, List.cons_append, List.nil_append, after_cons, after_nil,
    nullary_result_ne', unary_result_ne', binary_result_ne', ternary_result_ne']

end Cert.RefArgs

end
-- ==== Proof.RefEntry.lean ====
/-
  The reference's stages read at an entry, on the extended reals.

  A dense layer at entry (r, q) is the sum over k of x(r, k) * w(q, k) plus b(q): the product contracts the input's
  columns with the transposed weights' rows, the transposed array at (k, q) is the weight array at (q, k), and the bias
  spread over the rows reads b(q) whatever the row.  The pointwise stages read their operands at the same entry; a
  scalar spread over an array reads the scalar.  A column block of the gate pre-activations reads the column shifted by
  the block's offset.
-/
import proofs.«133578_j12730283065883_2_alg».proof.Proof.RefArr
import proofs.«133578_j12730283065883_2_alg».proof.Proof.Spec
import proofs.«133578_j12730283065883_2_alg».proof.Proof.Top
import proofs.«133578_j12730283065883_2_alg».proof.Proof.LibDotsNT
import Idealize.ShloMosaic.Lib.ValueLayout
import Idealize.ShloMosaic.Lib.IdealHost
import Idealize.ShloMosaic.Lib.KernelVsHost

noncomputable section

open scoped BigOperators

namespace Cert.RefEntry

open Idealize.ShloMosaic Idealize.ShloMosaic.ValueIdx Cert.ReferenceIdeal Cert.ReferenceIdeal.Facts₀ Cert.RefArr Cert.Spec Cert.Top

attribute [local instance] Cert.ReferenceIdeal.Gen.facts

/-! ## Layout steps -/

section Layout
variable {α : Type}

/-- A vector laid as one row reads, at (u, q), the vector at q. -/
theorem vecRow_apply {n : ℕ} (h : (⟨1, ![n]⟩ : Shape).BroadcastsInDim ⟨2, ![1, n]⟩ ![1]) (b : (⟨1, ![n]⟩ : Shape).Idx → α)
    (u : Fin 1) (q : Fin n) : broadcastInDim ⟨2, ![1, n]⟩ ![1] h b (ix2 u q) = b (ix1 q) := by
  refine broadcastInDim_apply ![1] h b (ix2 u q) (ix1 q) ?_
  intro a
  match a with
  | ⟨0, _⟩ =>
    show q.val = if n = 1 then 0 else q.val
    split_ifs with hn
    · have := q.isLt; omega
    · rfl

/-- A bias spread over the rows reads, at (r, q), the bias at q. -/
theorem bias_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (q : Fin n) :
    broadcastInDim ⟨2, ![m, n]⟩ ![0, 1] h2 (broadcastInDim ⟨2, ![1, n]⟩ ![1] h1 b) (ix2 r q) = b (ix1 q) :=
  (broadcastInDim_oneRow_apply h2 _ r q).trans (vecRow_apply h1 b 0 q)

end Layout

/-- A scalar word spread over an array reads the word's value. -/
theorem scalar_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-! ## Dense layers -/

section Dense
variable {B K N : ℕ} (d : DotDims ⟨2, ![B, K]⟩ ⟨2, ![K, N]⟩ ⟨2, ![B, N]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The product against the transposed weights at entry (r, q). -/
theorem dotT_apply (htr : (⟨2, ![N, K]⟩ : Shape).Transposes [1, 0] ⟨2, ![K, N]⟩)
    (x : FVec Ideal ⟨2, ![B, K]⟩ .f32) (w : FVec Ideal ⟨2, ![N, K]⟩ .f32) (r : Fin B) (q : Fin N) :
    Host.dotGeneral d none x (transpose ⟨2, ![K, N]⟩ [1, 0] w htr) (ix2 r q)
      = lin0 (fun r k => x (ix2 r k)) (fun q k => w (ix2 q k)) r q := by
  refine (Cert.LibDotsNT.plain_dotGeneral_apply d hlc hrc hln hrn hlb hrb none .single x _ r q).trans ?_
  exact Finset.sum_congr rfl fun k _ => by rw [transpose_ix2_apply]

include hlc hrc hln hrn hlb hrb in
/-- A dense layer at entry (r, q). -/
theorem lin_apply (htr : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![B, N]⟩ ![0, 1])
    (x : FVec Ideal ⟨2, ![B, K]⟩ .f32) (w : FVec Ideal ⟨2, ![N, K]⟩ .f32) (b : FVec Ideal ⟨1, ![N]⟩ .f32) (r : Fin B) (q : Fin N) :
    addf (Host.dotGeneral d none x (transpose ⟨2, ![K, N]⟩ [1, 0] w htr))
        (broadcastInDim ⟨2, ![B, N]⟩ ![0, 1] h2 (broadcastInDim ⟨2, ![1, N]⟩ ![1] h1 b)) (ix2 r q)
      = lin (fun r k => x (ix2 r k)) (fun q k => w (ix2 q k)) (fun q => b (ix1 q)) r q := by
  show Host.dotGeneral d none x (transpose ⟨2, ![K, N]⟩ [1, 0] w htr) (ix2 r q)
      + broadcastInDim ⟨2, ![B, N]⟩ ![0, 1] h2 (broadcastInDim ⟨2, ![1, N]⟩ ![1] h1 b) (ix2 r q) = _
  rw [dotT_apply d hlc hrc hln hrn hlb hrb htr x w r q, bias_apply h1 h2 b r q]
  rfl

end Dense

theorem lin1_apply (x : (⟨S4096x1056, .f32⟩ : BufTy).Contents (Elt Ideal)) (w : (⟨S2048x1056, .f32⟩ : BufTy).Contents (Elt Ideal))
    (b : (⟨S2048, .f32⟩ : BufTy).Contents (Elt Ideal)) (r : Fin 4096) (q : Fin 2048) :
    lin1 x w b (ix2 r q) = lin (fun r k => x (ix2 r k)) (fun q k => w (ix2 q k)) (fun q => b (ix1 q)) r q :=
  lin_apply dot_S4096x1056_S1056x2048_S4096x2048_1_0_0_1_n_n rfl rfl rfl rfl rfl rfl _ _ _ x w b r q

theorem linG_apply (h : (⟨S4096x2048, .f32⟩ : BufTy).Contents (Elt Ideal)) (w : (⟨S6144x2048, .f32⟩ : BufTy).Contents (Elt Ideal))
    (b : (⟨S6144, .f32⟩ : BufTy).Contents (Elt Ideal)) (r : Fin 4096) (q : Fin 6144) :
    linG h w b (ix2 r q) = lin (fun r k => h (ix2 r k)) (fun q k => w (ix2 q k)) (fun q => b (ix1 q)) r q :=
  lin_apply dot_S4096x2048_S2048x6144_S4096x6144_1_0_0_1_n_n rfl rfl rfl rfl rfl rfl _ _ _ h w b r q

theorem dotG_apply (p : (⟨S4096x2048, .f32⟩ : BufTy).Contents (Elt Ideal)) (w : (⟨S6144x2048, .f32⟩ : BufTy).Contents (Elt Ideal))
    (r : Fin 4096) (q : Fin 6144) :
    dotG p w (ix2 r q) = lin0 (fun r k => p (ix2 r k)) (fun q k => w (ix2 q k)) r q :=
  dotT_apply dot_S4096x2048_S2048x6144_S4096x6144_1_0_0_1_n_n rfl rfl rfl rfl rfl rfl _ p w r q

theorem linS_apply (h : (⟨S4096x2048, .f32⟩ : BufTy).Contents (Elt Ideal)) (w : (⟨S2048x2048, .f32⟩ : BufTy).Contents (Elt Ideal))
    (b : (⟨S2048, .f32⟩ : BufTy).Contents (Elt Ideal)) (r : Fin 4096) (q : Fin 2048) :
    linS h w b (ix2 r q) = lin (fun r k => h (ix2 r k)) (fun q k => w (ix2 q k)) (fun q => b (ix1 q)) r q :=
  lin_apply dot_S4096x2048_S2048x2048_S4096x2048_1_0_0_1_n_n rfl rfl rfl rfl rfl rfl _ _ _ h w b r q

/-! ## Pointwise stages -/

section Pointwise
variable {S : Shape}

/-- The exponential linear unit at an entry, given what its three spread scalars read there. -/
theorem elu_point (x b0 bid b1 : FVec Ideal S .f32) (j : S.Idx) (h0 : b0 j = z) (hid : bid j = z) (h1 : b1 j = one) :
    select (cmpf .ogt x b0) x (mulf b1 (Host.expm1 (select (cmpf .ogt x b0) bid x))) j = eluK (x j) := by
  rw [eluK_eq_eluR]
  show Scalar.select (Ideal.cmp .ogt (x j) (b0 j)) (x j)
      (b1 j * (Ideal.exp (Scalar.select (Ideal.cmp .ogt (x j) (b0 j)) (bid j) (x j)) - 1)) = _
  rw [h0, hid, h1]
  rfl

/-- The logistic gate at an entry. -/
theorem sig_point (x b1 b1' : FVec Ideal S .f32) (j : S.Idx) (h1 : b1 j = one) (h1' : b1' j = one) :
    Host.divf b1 (addf b1' (Host.exp (Host.negf x))) j = sigK (x j) := by
  rw [sigK_eq_sigR]
  show Ideal.div (b1 j) (b1' j + Ideal.exp (-(x j))) = _
  rw [h1, h1']
  rfl

/-- The softplus at an entry. -/
theorem sp_point (x b0 : FVec Ideal S .f32) (j : S.Idx) (h0 : b0 j = z) :
    select (cmpf .une (subf x b0) (subf x b0)) (addf x b0)
      (addf (maximumf x b0) (Host.log1p (Host.exp (Host.negf (Host.absf (subf x b0)))))) j = splusK (x j) := by
  rw [splusK_eq_splusR]
  show Scalar.select (Ideal.cmp .une (x j - b0 j) (x j - b0 j)) (x j + b0 j)
      (max (x j) (b0 j) + Ideal.log1p (Ideal.exp (-(max (x j - b0 j) (-(x j - b0 j)))))) = _
  rw [h0]
  rfl

end Pointwise

theorem eluA_apply (x : (⟨S4096x2048, .f32⟩ : BufTy).Contents (Elt Ideal)) (j : S4096x2048.Idx) : eluA x j = eluK (x j) :=
  elu_point x _ _ _ j (scalar_apply _ _ j) (scalar_apply _ _ j) (scalar_apply _ _ j)

theorem sigA_apply (x : (⟨S4096x2048, .f32⟩ : BufTy).Contents (Elt Ideal)) (j : S4096x2048.Idx) : sigA x j = sigK (x j) :=
  sig_point x _ _ j (scalar_apply _ _ j) (scalar_apply _ _ j)

theorem spA_apply (x : (⟨S4096x1024, .f32⟩ : BufTy).Contents (Elt Ideal)) (j : S4096x1024.Idx) : spA x j = splusK (x j) :=
  sp_point x _ j (scalar_apply _ _ j)

theorem sdA_apply (y : (⟨S4096x1024, .f32⟩ : BufTy).Contents (Elt Ideal)) (j : S4096x1024.Idx) : sdA y j = y j + tenth := by
  show y j + broadcastInDim S4096x1024 ![] bcast_S_S4096x1024 (constant (F := Ideal) S_ .f32 0x3DCCCCCD#32) j = _
  rw [scalar_apply]

/-! ## Column blocks -/

/-- Column q of gate g among the 6144 columns. -/
def col (g : Fin 3) (q : Fin 2048) : Fin 6144 := ⟨g.val * 2048 + q.val, by have := g.isLt; have := q.isLt; omega⟩

theorem gateW_col (w : A6144x2048) (g : Fin 3) (q : Fin 2048) (k : Fin 2048) : gateW w g q k = w (ix2 (col g q) k) := rfl
theorem gateB_col (b : A6144) (g : Fin 3) (q : Fin 2048) : gateB b g q = b (ix1 (col g q)) := rfl

theorem blk0_apply (x : (⟨S4096x6144, .f32⟩ : BufTy).Contents (Elt Ideal)) (r : Fin 4096) (q : Fin 2048) :
    blk0 x (ix2 r q) = x (ix2 r (col 0 q)) :=
  slice2_axis1_apply 0 x _ r q (col 0 q) (by show (0 : ℕ) * 2048 + q.val = 0 + q.val; omega)
theorem blk1_apply (x : (⟨S4096x6144, .f32⟩ : BufTy).Contents (Elt Ideal)) (r : Fin 4096) (q : Fin 2048) :
    blk1 x (ix2 r q) = x (ix2 r (col 1 q)) :=
  slice2_axis1_apply 2048 x _ r q (col 1 q) (by show (1 : ℕ) * 2048 + q.val = 2048 + q.val; omega)
theorem blk2_apply (x : (⟨S4096x6144, .f32⟩ : BufTy).Contents (Elt Ideal)) (r : Fin 4096) (q : Fin 2048) :
    blk2 x (ix2 r q) = x (ix2 r (col 2 q)) :=
  slice2_axis1_apply 4096 x _ r q (col 2 q) (by show (2 : ℕ) * 2048 + q.val = 4096 + q.val; omega)

theorem halfLo_apply (o : (⟨S4096x2048, .f32⟩ : BufTy).Contents (Elt Ideal)) (r : Fin 4096) (q : Fin 1024) :
    halfLo o (ix2 r q) = o (ix2 r (lo q)) :=
  slice2_axis1_apply 0 o _ r q (lo q) (by show q.val = 0 + q.val; omega)
theorem halfHi_apply (o : (⟨S4096x2048, .f32⟩ : BufTy).Contents (Elt Ideal)) (r : Fin 4096) (q : Fin 1024) :
    halfHi o (ix2 r q) = o (ix2 r (hi q)) :=
  slice2_axis1_apply 1024 o _ r q (hi q) rfl

/-! ## The recurrent step -/

theorem candA_apply (gi gh : (⟨S4096x6144, .f32⟩ : BufTy).Contents (Elt Ideal)) (bn : (⟨S2048, .f32⟩ : BufTy).Contents (Elt Ideal))
    (r : Fin 4096) (q : Fin 2048) :
    candA gi gh bn (ix2 r q)
      = Ideal.tanh (gi (ix2 r (col 2 q))
          + sigK (gi (ix2 r (col 0 q)) + gh (ix2 r (col 0 q))) * (gh (ix2 r (col 2 q)) + bn (ix1 q))) := by
  show Ideal.tanh (blk2 gi (ix2 r q) + sigA (addf (blk0 gi) (blk0 gh)) (ix2 r q)
      * (blk2 gh (ix2 r q) + broadcastInDim S4096x2048 ![0, 1] bcast_S1x2048_S4096x2048_0_1
          (broadcastInDim S1x2048 ![1] bcast_S2048_S1x2048_1 bn) (ix2 r q))) = _
  rw [sigA_apply, bias_apply, blk2_apply, blk2_apply]
  show Ideal.tanh (_ + sigK (blk0 gi (ix2 r q) + blk0 gh (ix2 r q)) * _) = _
  rw [blk0_apply, blk0_apply]

theorem gruA_apply (gi gh : (⟨S4096x6144, .f32⟩ : BufTy).Contents (Elt Ideal)) (bn : (⟨S2048, .f32⟩ : BufTy).Contents (Elt Ideal))
    (p : (⟨S4096x2048, .f32⟩ : BufTy).Contents (Elt Ideal)) (r : Fin 4096) (q : Fin 2048) :
    gruA gi gh bn p (ix2 r q)
      = candA gi gh bn (ix2 r q)
        + sigK (gi (ix2 r (col 1 q)) + gh (ix2 r (col 1 q))) * (p (ix2 r q) - candA gi gh bn (ix2 r q)) := by
  show candA gi gh bn (ix2 r q) + sigA (addf (blk1 gi) (blk1 gh)) (ix2 r q) * (p (ix2 r q) - candA gi gh bn (ix2 r q)) = _
  rw [sigA_apply]
  show _ + sigK (blk1 gi (ix2 r q) + blk1 gh (ix2 r q)) * _ = _
  rw [blk1_apply, blk1_apply]

end Cert.RefEntry

end
-- ==== Proof.RefTop.lean ====
/-
  The reference's stages composed are the specification's four results.

  Each stage read at an entry is the specification's formula for that entry over the arrays before it; an array whose
  every entry is given by an accessor is that accessor's array.  Following the stages forward: the first hidden layer,
  the new hidden state, the last layer before the split, and from it the mean, the deviation and the sample.
-/
import proofs.«133578_j12730283065883_2_alg».proof.Proof.RefEntry

noncomputable section

open scoped BigOperators

namespace Cert.RefTop

open Idealize.ShloMosaic Idealize.ShloMosaic.ValueIdx Cert.ReferenceIdeal Cert.RefArr Cert.RefEntry Cert.Spec Cert.Top

variable (x : A4096x1056) (w1 : A2048x1056) (b1 : A2048) (prev : A4096x2048) (wih whh : A6144x2048) (bih : A6144)
  (bn : A2048) (wh : A2048x2048) (bh : A2048) (wo : A2048x2048) (bo : A2048) (eps : A4096x1024)

/-- The first hidden layer. -/
theorem hid_eq : eluA (F := Ideal) (lin1 (F := Ideal) x w1 b1) = of2 (hid x w1 b1) :=
  eq_of2 fun r q => by rw [eluA_apply, lin1_apply]; rfl

/-- The recurrent step over any hidden layer given by an accessor. -/
theorem gru_eq (h : Fin 4096 → Fin 2048 → EReal) :
    gruA (F := Ideal) (linG (F := Ideal) (of2 h) wih bih) (dotG prev whh) bn prev
      = of2 (s2 h (fun r k => prev (ix2 r k)) (fun r q => prev (ix2 r q)) (gateW wih) (gateW whh) (gateB bih)
          (fun q => bn (ix1 q))) :=
  eq_of2 fun r q => by
    rw [gruA_apply, candA_apply]
    simp only [linG_apply, dotG_apply]
    rfl

/-- The new hidden state. -/
theorem hidden_eq :
    gruA (F := Ideal) (linG (F := Ideal) (eluA (F := Ideal) (lin1 (F := Ideal) x w1 b1)) wih bih) (dotG prev whh) bn prev = hidden x w1 b1 prev wih whh bih bn := by
  rw [hid_eq]
  exact gru_eq prev wih whh bih bn (hid x w1 b1)

/-- The last two layers over any new state given by an accessor. -/
theorem out_eq (n : Fin 4096 → Fin 2048 → EReal) :
    linS (F := Ideal) (eluA (F := Ideal) (linS (F := Ideal) (of2 n) wh bh)) wo bo
      = of2 (out n (fun q k => wh (ix2 q k)) (fun q => bh (ix1 q)) (fun q k => wo (ix2 q k)) (fun q => bo (ix1 q))) :=
  eq_of2 fun r q => by
    have hs : (fun (r : Fin 4096) (k : Fin 2048) => eluA (F := Ideal) (linS (F := Ideal) (of2 n) wh bh) (ix2 r k))
        = s1 n (fun q k => wh (ix2 q k)) (fun q => bh (ix1 q)) := by
      funext r k; rw [eluA_apply, linS_apply]; rfl
    rw [linS_apply, hs]
    rfl

/-- The last layer before the split. -/
theorem outp_eq :
    linS (F := Ideal) (eluA (F := Ideal) (linS (F := Ideal) (gruA (F := Ideal) (linG (F := Ideal) (eluA (F := Ideal) (lin1 (F := Ideal) x w1 b1)) wih bih) (dotG prev whh) bn prev) wh bh)) wo bo
      = of2 (outp x w1 b1 prev wih whh bih bn wh bh wo bo) := by
  rw [hidden_eq]
  exact out_eq wh bh wo bo (nrh x w1 b1 prev wih whh bih bn)

/-- The mean: the first half of the columns. -/
theorem mean_of2 (o : Fin 4096 → Fin 2048 → EReal) : halfLo (F := Ideal) (of2 o) = of2 fun r q => o r (lo q) :=
  eq_of2 fun r q => by rw [halfLo_apply]; rfl

/-- The deviation: the softplus of the second half of the columns, plus the offset. -/
theorem sd_of2 (o : Fin 4096 → Fin 2048 → EReal) : sdA (F := Ideal) (spA (F := Ideal) (halfHi (F := Ideal) (of2 o))) = of2 fun r q => dev (o r (hi q)) :=
  eq_of2 fun r q => by rw [sdA_apply, spA_apply, halfHi_apply]; rfl

/-- The sample: mean + deviation * noise. -/
theorem smp_of2 (o : Fin 4096 → Fin 2048 → EReal) :
    smpA (F := Ideal) (halfLo (F := Ideal) (of2 o)) (sdA (F := Ideal) (spA (F := Ideal) (halfHi (F := Ideal) (of2 o)))) eps
      = of2 fun r q => smp (o r (lo q)) (dev (o r (hi q))) (eps (ix2 r q)) :=
  eq_of2 fun r q => by
    show halfLo (F := Ideal) (of2 o) (ix2 r q) + sdA (F := Ideal) (spA (F := Ideal) (halfHi (F := Ideal) (of2 o))) (ix2 r q) * eps (ix2 r q) = _
    rw [mean_of2, sd_of2]
    rfl

theorem mean_eq :
    halfLo (F := Ideal) (linS (F := Ideal) (eluA (F := Ideal) (linS (F := Ideal) (gruA (F := Ideal) (linG (F := Ideal) (eluA (F := Ideal) (lin1 (F := Ideal) x w1 b1)) wih bih) (dotG prev whh) bn prev) wh bh)) wo bo)
      = mean x w1 b1 prev wih whh bih bn wh bh wo bo := by
  rw [outp_eq]; exact mean_of2 _

theorem sd_eq :
    sdA (F := Ideal) (spA (F := Ideal) (halfHi (F := Ideal) (linS (F := Ideal) (eluA (F := Ideal) (linS (F := Ideal) (gruA (F := Ideal) (linG (F := Ideal) (eluA (F := Ideal) (lin1 (F := Ideal) x w1 b1)) wih bih) (dotG prev whh) bn prev) wh bh)) wo bo)))
      = sd x w1 b1 prev wih whh bih bn wh bh wo bo := by
  rw [outp_eq]; exact sd_of2 _

theorem sample_eq :
    smpA (F := Ideal) (halfLo (F := Ideal) (linS (F := Ideal) (eluA (F := Ideal) (linS (F := Ideal) (gruA (F := Ideal) (linG (F := Ideal) (eluA (F := Ideal) (lin1 (F := Ideal) x w1 b1)) wih bih) (dotG prev whh) bn prev) wh bh)) wo bo))
        (sdA (F := Ideal) (spA (F := Ideal) (halfHi (F := Ideal) (linS (F := Ideal) (eluA (F := Ideal) (linS (F := Ideal) (gruA (F := Ideal) (linG (F := Ideal) (eluA (F := Ideal) (lin1 (F := Ideal) x w1 b1)) wih bih) (dotG prev whh) bn prev) wh bh)) wo bo))))
        eps
      = sample x w1 b1 prev wih whh bih bn wh bh wo bo eps := by
  rw [outp_eq]; exact smp_of2 eps _

end Cert.RefTop

end
-- ==== Proof.RefSide.lean ====
/-
  The reference side: every weakly fair execution of the reference from a memory with zero counters terminates, its
  four results are the specification's mean, deviation, sample and new hidden state of the argument arrays (the input
  being the first two arguments laid side by side), and the fourteen argument arrays are as launched.  The run gives
  each buffer as the fold of the reference's operations over the launch contents; the fold at the four result buffers
  is the stages composed; and the stages composed are the specification's functions, entry by entry.
-/
import proofs.«133578_j12730283065883_2_alg».proof.Defs
import proofs.«133578_j12730283065883_2_alg».proof.Proof.Gen.ReferenceIdeal
import proofs.«133578_j12730283065883_2_alg».proof.Proof.Top
import proofs.«133578_j12730283065883_2_alg».proof.Proof.RefOps
import proofs.«133578_j12730283065883_2_alg».proof.Proof.RefChain
import proofs.«133578_j12730283065883_2_alg».proof.Proof.RefArgs
import proofs.«133578_j12730283065883_2_alg».proof.Proof.RefTop

noncomputable section
namespace Cert.RefSide
open Idealize.ShloMosaic Idealize.SL.Sem Cert.ReferenceIdeal

attribute [local instance] Cert.ReferenceIdeal.Gen.facts

/-- The reference's input array: its arguments 0 and 1 side by side. -/
def xin (a0 : (⟨S4096x32, .f32⟩ : BufTy).Contents (Elt Ideal)) (a1 : (⟨S4096x1024, .f32⟩ : BufTy).Contents (Elt Ideal)) :
    (⟨S4096x1056, .f32⟩ : BufTy).Contents (Elt Ideal) :=
  concatenate S4096x1056 1 [⟨S4096x32, a0⟩, ⟨S4096x1024, a1⟩] Facts₀.concatenates_S4096x32_S4096x1024_S4096x1056_d1

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = Cert.Top.mean (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v58) = Cert.Top.sd (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v60) = Cert.Top.sample (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg3))
      ∧ r.2.mem ((c.tc : Thread nD τ).loc main_v42) = Cert.Top.hidden (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c =>
    ⟨((h c main_v54).trans (Cert.RefChain.mean_arr (StableHlo.launchContents m c))).trans
        (Cert.RefTop.mean_eq (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))),
     ((h c main_v58).trans (Cert.RefChain.sd_arr (StableHlo.launchContents m c))).trans
        (Cert.RefTop.sd_eq (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))),
     ((h c main_v60).trans (Cert.RefChain.sample_arr (StableHlo.launchContents m c))).trans
        (Cert.RefTop.sample_eq (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg3))),
     ((h c main_v42).trans (Cert.RefChain.hidden_arr (StableHlo.launchContents m c))).trans
        (Cert.RefTop.hidden_eq (xin (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))),
     (h c main_arg0).trans (Cert.RefArgs.ops_main_arg0 (StableHlo.launchContents m c)),
     (h c main_arg1).trans (Cert.RefArgs.ops_main_arg1 (StableHlo.launchContents m c)),
     (h c main_arg2).trans (Cert.RefArgs.ops_main_arg2 (StableHlo.launchContents m c)),
     (h c main_arg3).trans (Cert.RefArgs.ops_main_arg3 (StableHlo.launchContents m c)),
     (h c main_arg4).trans (Cert.RefArgs.ops_main_arg4 (StableHlo.launchContents m c)),
     (h c main_arg5).trans (Cert.RefArgs.ops_main_arg5 (StableHlo.launchContents m c)),
     (h c main_arg6).trans (Cert.RefArgs.ops_main_arg6 (StableHlo.launchContents m c)),
     (h c main_arg7).trans (Cert.RefArgs.ops_main_arg7 (StableHlo.launchContents m c)),
     (h c main_arg8).trans (Cert.RefArgs.ops_main_arg8 (StableHlo.launchContents m c)),
     (h c main_arg9).trans (Cert.RefArgs.ops_main_arg9 (StableHlo.launchContents m c)),
     (h c main_arg10).trans (Cert.RefArgs.ops_main_arg10 (StableHlo.launchContents m c)),
     (h c main_arg11).trans (Cert.RefArgs.ops_main_arg11 (StableHlo.launchContents m c)),
     (h c main_arg12).trans (Cert.RefArgs.ops_main_arg12 (StableHlo.launchContents m c)),
     (h c main_arg13).trans (Cert.RefArgs.ops_main_arg13 (StableHlo.launchContents m c))⟩)
    (Cert.RefOps.run0 m ρ)

end Cert.RefSide
end
-- ==== Proof.lean ====
/-
  A dense layer, one step of a gated recurrent cell, two more dense layers and a Gaussian sample, computed by three
  kernels, against the same computation written plainly.

  The step is: an exponential-linear dense layer of the action and the previous sample laid side by side; one step
  of a gated recurrent cell on that layer and the previous hidden state; a second exponential-linear dense layer of
  the new state; and a last dense layer whose first 1024 outputs are the mean and whose last 1024, through a softplus
  and a fixed offset, the deviation of the new sample, drawn as mean + deviation * noise.  The four results are the
  mean, the deviation, the sample and the new hidden state.

  On the extended reals the two programs compute the same four functions of their fourteen arguments.  They differ
  only in layout and spelling.  The kernel program keeps each weight matrix one row per output and contracts both
  operands on their last axis, cuts the batch into blocks of rows (and, for the cell, the outputs into blocks of
  columns), keeps the three gates stacked along a leading axis, and changes number formats on the way (the identity
  here); the reference transposes each weight matrix and takes a plain product, keeps the three gates side by side
  as column ranges, and spells the exponential linear unit with exponential-minus-one, the logistic function with a
  negation and the softplus through a guarded difference from zero.  A sum over the contracted axis does not depend
  on how the other axes are cut, the transposed entry (k, q) is the entry (q, k), gate g's column 2048 g + q is row
  g * 2048 + q of the weights, and the scalar functions agree on every extended real: that is the whole argument.
  No finiteness of the inputs is used.

  The three frames are the generated ones (the reference's is its run with the results forgotten); the kernel program's
  idealization rewrote nothing, so there is nothing for it to preserve.
-/
import proofs.«133578_j12730283065883_2_alg».proof.Defs
import proofs.«133578_j12730283065883_2_alg».proof.Proof.Gen.Kernel
import proofs.«133578_j12730283065883_2_alg».proof.Proof.Gen.Kernel.Frame
import proofs.«133578_j12730283065883_2_alg».proof.Proof.Gen.KernelIdeal
import proofs.«133578_j12730283065883_2_alg».proof.Proof.Gen.KernelIdeal.Frame
import proofs.«133578_j12730283065883_2_alg».proof.Proof.Gen.ReferenceIdeal
import proofs.«133578_j12730283065883_2_alg».proof.Proof.Gen.Pre_finite_inputs
import proofs.«133578_j12730283065883_2_alg».proof.Proof.KSide
import proofs.«133578_j12730283065883_2_alg».proof.Proof.RefSide

noncomputable section

namespace Cert.Proof

open Idealize.ShloMosaic Idealize.SL.Sem

/-! ## The frames -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and leaves its arguments as they were: its run, the four results forgotten. -/
theorem frame_referenceIdeal : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2.2.2.2) (Cert.RefSide.run m ρ)

/-! ## Equal arguments give equal results -/

section Congr
open Cert.Top

/-- The two programs lay the action and the previous sample side by side by the same operation. -/
theorem xin_congr {a0 b0 : (⟨Cert.KernelIdeal.S4096x32, .f32⟩ : BufTy).Contents (Elt Ideal)}
    {a1 b1 : (⟨Cert.KernelIdeal.S4096x1024, .f32⟩ : BufTy).Contents (Elt Ideal)} (h0 : b0 = a0) (h1 : b1 = a1) :
    Cert.RefSide.xin b0 b1 = Cert.KerSide.xin a0 a1 := by
  subst h0; subst h1; rfl

variable {x x' : A4096x1056} {w1 w1' : A2048x1056} {b1 b1' : A2048} {prev prev' : A4096x2048} {wih wih' whh whh' : A6144x2048}
  {bih bih' : A6144} {bn bn' : A2048} {wh wh' : A2048x2048} {bh bh' : A2048} {wo wo' : A2048x2048} {bo bo' : A2048}
  {eps eps' : A4096x1024}

theorem hidden_congr (hx : x' = x) (h4 : w1' = w1) (h5 : b1' = b1) (h2 : prev' = prev) (h6 : wih' = wih) (h7 : whh' = whh)
    (h8 : bih' = bih) (h9 : bn' = bn) :
    hidden x' w1' b1' prev' wih' whh' bih' bn' = hidden x w1 b1 prev wih whh bih bn := by
  subst hx h4 h5 h2 h6 h7 h8 h9; rfl

theorem mean_congr (hx : x' = x) (h4 : w1' = w1) (h5 : b1' = b1) (h2 : prev' = prev) (h6 : wih' = wih) (h7 : whh' = whh)
    (h8 : bih' = bih) (h9 : bn' = bn) (h10 : wh' = wh) (h11 : bh' = bh) (h12 : wo' = wo) (h13 : bo' = bo) :
    mean x' w1' b1' prev' wih' whh' bih' bn' wh' bh' wo' bo' = mean x w1 b1 prev wih whh bih bn wh bh wo bo := by
  subst hx h4 h5 h2 h6 h7 h8 h9 h10 h11 h12 h13; rfl

theorem sd_congr (hx : x' = x) (h4 : w1' = w1) (h5 : b1' = b1) (h2 : prev' = prev) (h6 : wih' = wih) (h7 : whh' = whh)
    (h8 : bih' = bih) (h9 : bn' = bn) (h10 : wh' = wh) (h11 : bh' = bh) (h12 : wo' = wo) (h13 : bo' = bo) :
    sd x' w1' b1' prev' wih' whh' bih' bn' wh' bh' wo' bo' = sd x w1 b1 prev wih whh bih bn wh bh wo bo := by
  subst hx h4 h5 h2 h6 h7 h8 h9 h10 h11 h12 h13; rfl

theorem sample_congr (hx : x' = x) (h4 : w1' = w1) (h5 : b1' = b1) (h2 : prev' = prev) (h6 : wih' = wih) (h7 : whh' = whh)
    (h8 : bih' = bih) (h9 : bn' = bn) (h10 : wh' = wh) (h11 : bh' = bh) (h12 : wo' = wo) (h13 : bo' = bo) (h3 : eps' = eps) :
    sample x' w1' b1' prev' wih' whh' bih' bn' wh' bh' wo' bo' eps' = sample x w1 b1 prev wih whh bih bn wh bh wo bo eps := by
  subst hx h4 h5 h2 h6 h7 h8 h9 h10 h11 h12 h13 h3; rfl
end Congr

/-- The value claim.  From memories that agree on the fourteen arguments, the kernel program ends with the mean, the
    deviation, the sample and the new hidden state the network assigns to those arguments, and so does the reference:
    the witnesses are the network's four functions of the kernel program's arguments, and the reference's results
    are the same functions of equal arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Top.mean (Cert.KerSide.xin (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), fun c => Cert.Top.sd (Cert.KerSide.xin (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), fun c => Cert.Top.sample (Cert.KerSide.xin (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg3)),
    fun c => Cert.Top.hidden (Cert.KerSide.xin (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KerSide.run m ρ, ?_⟩
  refine (θ_run (Cert.ReferenceIdeal.defs (F := Ideal)) _ _).mono (fun r h c => ?_) (Cert.RefSide.run m' ρ')
  obtain ⟨e0, e1, e2, e3, e4, e5, e6, e7, e8, e9, e10, e11, e12, e13⟩ := hagree c
  obtain ⟨r1, r2, r3, r4, rargs⟩ := h c
  have hx := xin_congr e0 e1
  exact ⟨r1.trans (mean_congr hx e4 e5 e2 e6 e7 e8 e9 e10 e11 e12 e13), r2.trans (sd_congr hx e4 e5 e2 e6 e7 e8 e9 e10 e11 e12 e13),
    r3.trans (sample_congr hx e4 e5 e2 e6 e7 e8 e9 e10 e11 e12 e13 e3), r4.trans (hidden_congr hx e4 e5 e2 e6 e7 e8 e9), rargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
